-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S30000x256 : Shape := ⟨2, ![30000, 256]⟩
abbrev S128x64 : Shape := ⟨2, ![128, 64]⟩
abbrev S64 : Shape := ⟨1, ![64]⟩
abbrev S256x64 : Shape := ⟨2, ![256, 64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S2x1600000 : Shape := ⟨2, ![2, 1600000]⟩
abbrev S200000 : Shape := ⟨1, ![200000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S30000x256 : S_.BroadcastsInDim S30000x256 (![] : Fin 0 → Fin S30000x256.rank)
  reducesTo_S30000x256_S_d0_1 : S30000x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S3x64 .f32) (main_arg8 : FVec F S64x1 .f32) (main_arg9 : FVec F S1 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S256x64 .f32) (main_arg5 : FVec F S64 .f32) (main_arg6 : FVec F S3x64x64 .f32) (main_arg7 : FVec F S3x64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S20000x128 .f32) (main_arg1 : FVec F S30000x256 .f32) (main_arg2 : FVec F S128x64 .f32) (main_arg3 : FVec F S64 .f32) (main_arg4 : FVec F S256x64 .f32) (main_arg5 : FVec F S64 .f32) (main_arg6 : FVec F S3x64x64 .f32) (main_arg7 : FVec F S3x64 .f32) (main_arg8 : FVec F S64x1 .f32) (main_arg9 : FVec F S1 .f32) (main_arg10 : IVec S2x1600000 32) (main_arg11 : IVec S200000 32) (main_arg12 : IVec S200000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S30000x256 .f32 := Host.absf main_arg1
  let main_cst_0 : FVec F S_ .f32 := constant S_ .f32 0x7F800000#32
  let main_v5 : FVec F S30000x256 .f32 := broadcastInDim S30000x256 ![] bcast_S_S30000x256 main_cst_0
  let main_v6 : IVec S30000x256 1 := cmpf .olt main_v4 main_v5
  let main_c_1 : IVec S_ 1 := constantI S_ 1 1#1
  let main_v7 : IVec S_ 1 := (fun x v => Host.reduce IntOp.andi x v reducesTo_S30000x256_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S20000x128 : Shape := ⟨2, ![20000, 128]⟩
abbrev S30000x256 : Shape := ⟨2, ![30000, 256]⟩
abbrev S128x64 : Shape := ⟨2, ![128, 64]⟩
abbrev S64 : Shape := ⟨1, ![64]⟩
abbrev S256x64 : Shape := ⟨2, ![256, 64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S2x1600000 : Shape := ⟨2, ![2, 1600000]⟩
abbrev S200000 : Shape := ⟨1, ![200000]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S20000x1 : Shape := ⟨2, ![20000, 1]⟩
abbrev S30000x1 : Shape := ⟨2, ![30000, 1]⟩
abbrev S1x64x64 : Shape := ⟨3, ![1, 64, 64]⟩
abbrev S64x64 : Shape := ⟨2, ![64, 64]⟩
abbrev S20000x64 : Shape := ⟨2, ![20000, 64]⟩
abbrev S2000x128 : Shape := ⟨2, ![2000, 128]⟩
abbrev S2000x1 : Shape := ⟨2, ![2000, 1]⟩
abbrev S2000x64 : Shape := ⟨2, ![2000, 64]⟩
abbrev S1x64 : Shape := ⟨2, ![1, 64]⟩
abbrev S30000x64 : Shape := ⟨2, ![30000, 64]⟩
abbrev S3000x256 : Shape := ⟨2, ![3000, 256]⟩
abbrev S3000x1 : Shape := ⟨2, ![3000, 1]⟩
abbrev S3000x64 : Shape := ⟨2, ![3000, 64]⟩
abbrev S50000x64 : Shape := ⟨2, ![50000, 64]⟩
abbrev S1600000x64 : Shape := ⟨2, ![1600000, 64]⟩
abbrev S5000x64 : Shape := ⟨2, ![5000, 64]⟩
abbrev S5000x1 : Shape := ⟨2, ![5000, 1]⟩
abbrev S1x1 : Shape := ⟨2, ![1, 1]⟩
abbrev S200000x1 : Shape := ⟨2, ![200000, 1]⟩

abbrev nBuf : Space → Nat
  | .hbm => 109
  | .vmem => 55
  | .smem => 0
  | _ => 0

abbrev bufTy : (tb : Table) → Fin (tcTables nBuf tb) → BufTy
  | .hbm, ⟨0, _⟩ => ⟨S20000x128, .f32⟩
  | .hbm, ⟨1, _⟩ => ⟨S30000x256, .f32⟩
  | .hbm, ⟨2, _⟩ => ⟨S128x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x1, .f32⟩
  | .hbm, ⟨9, _⟩ => ⟨S1, .f32⟩
  | .hbm, ⟨10, _⟩ => ⟨S2x1600000, .i32⟩
  | .hbm, ⟨11, _⟩ => ⟨S200000, .i32⟩
  | .hbm, ⟨12, _⟩ => ⟨S200000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S20000x1, .f32⟩
  | .hbm, ⟨29, _⟩ => ⟨S30000x1, .f32⟩
  | .hbm, ⟨30, _⟩ => ⟨S1x64x64, .f32⟩
  | .hbm, ⟨31, _⟩ => ⟨S64x64, .f32⟩
  | .hbm, ⟨32, _⟩ => ⟨S20000x64, .f32⟩
  | .hbm, ⟨33, _⟩ => ⟨S1x64x64, .f32⟩
  | .hbm, ⟨34, _⟩ => ⟨S64x64, .f32⟩
  | .hbm, ⟨35, _⟩ => ⟨S30000x64, .f32⟩
  | .hbm, ⟨36, _⟩ => ⟨S50000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S50000x64, .f32⟩
  | .hbm, ⟨48, _⟩ => ⟨S1600000x1, .i32⟩
  | .hbm, ⟨49, _⟩ => ⟨S50000x64, .f32⟩
  | .hbm, ⟨50, _⟩ => ⟨S1x64, .f32⟩
  | .hbm, ⟨51, _⟩ => ⟨S64, .f32⟩
  | .hbm, ⟨52, _⟩ => ⟨S1x64x64, .f32⟩
  | .hbm, ⟨53, _⟩ => ⟨S64x64, .f32⟩
  | .hbm, ⟨54, _⟩ => ⟨S50000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S50000x64, .f32⟩
  | .hbm, ⟨66, _⟩ => ⟨S1600000x1, .i32⟩
  | .hbm, ⟨67, _⟩ => ⟨S50000x64, .f32⟩
  | .hbm, ⟨68, _⟩ => ⟨S1x64, .f32⟩
  | .hbm, ⟨69, _⟩ => ⟨S64, .f32⟩
  | .hbm, ⟨70, _⟩ => ⟨S1x64x64, .f32⟩
  | .hbm, ⟨71, _⟩ => ⟨S64x64, .f32⟩
  | .hbm, ⟨72, _⟩ => ⟨S50000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .f32⟩
  | .hbm, ⟨83, _⟩ => ⟨S50000x64, .f32⟩
  | .hbm, ⟨84, _⟩ => ⟨S1600000x1, .i32⟩
  | .hbm, ⟨85, _⟩ => ⟨S50000x64, .f32⟩
  | .hbm, ⟨86, _⟩ => ⟨S1x64, .f32⟩
  | .hbm, ⟨87, _⟩ => ⟨S64, .f32⟩
  | .hbm, ⟨88, _⟩ => ⟨S50000x1, .f32⟩
  | .hbm, ⟨89, _⟩ => ⟨S_, .i32⟩
  | .hbm, ⟨90, _⟩ => ⟨S200000, .i32⟩
  | .hbm, ⟨91, _⟩ => ⟨S200000, .i1⟩
  | .hbm, ⟨92, _⟩ => ⟨S_, .i32⟩
  | .hbm, ⟨93, _⟩ => ⟨S200000, .i32⟩
  | .hbm, ⟨94, _⟩ => ⟨S200000, .i32⟩
  | .hbm, ⟨95, _⟩ => ⟨S200000, .i32⟩
  | .hbm, ⟨96, _⟩ => ⟨S200000x1, .i32⟩
  | .hbm, ⟨97, _⟩ => ⟨S200000x1, .f32⟩
  | .hbm, ⟨98, _⟩ => ⟨S_, .i32⟩
  | .hbm, ⟨99, _⟩ => ⟨S200000, .i32⟩
  | .hbm, ⟨100, _⟩ => ⟨S200000, .i1⟩
  | .hbm, ⟨101, _⟩ => ⟨S_, .i32⟩
  | .hbm, ⟨102, _⟩ => ⟨S200000, .i32⟩
  | .hbm, ⟨103, _⟩ => ⟨S200000, .i32⟩
  | .hbm, ⟨104, _⟩ => ⟨S200000, .i32⟩
  | .hbm, ⟨105, _⟩ => ⟨S200000x1, .i32⟩
  | .hbm, ⟨106, _⟩ => ⟨S200000x1, .f32⟩
  | .hbm, ⟨107, _⟩ => ⟨S200000x1, .f32⟩
  | .hbm, ⟨108, _⟩ => ⟨S200000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S64, .f32⟩
  | .local _ .vmem, ⟨4, _⟩ => ⟨S64x64, .f32⟩
  | .local _ .vmem, ⟨5, _⟩ => ⟨S2000x1, .f32⟩
  | .local _ .vmem, ⟨6, _⟩ => ⟨S2000x1, .f32⟩
  | .local _ .vmem, ⟨7, _⟩ => ⟨S2000x64, .f32⟩
  | .local _ .vmem, ⟨8, _⟩ => ⟨S2000x64, .f32⟩
  | .local _ .vmem, ⟨9, _⟩ => ⟨S3000x256, .f32⟩
  | .local _ .vmem, ⟨10, _⟩ => ⟨S3000x256, .f32⟩
  | .local _ .vmem, ⟨11, _⟩ => ⟨S256x64, .f32⟩
  | .local _ .vmem, ⟨12, _⟩ => ⟨S64, .f32⟩
  | .local _ .vmem, ⟨13, _⟩ => ⟨S64x64, .f32⟩
  | .local _ .vmem, ⟨14, _⟩ => ⟨S3000x1, .f32⟩
  | .local _ .vmem, ⟨15, _⟩ => ⟨S3000x1, .f32⟩
  | .local _ .vmem, ⟨16, _⟩ => ⟨S3000x64, .f32⟩
  | .local _ .vmem, ⟨17, _⟩ => ⟨S3000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S64, .f32⟩
  | .local _ .vmem, ⟨35, _⟩ => ⟨S64x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x1, .f32⟩
  | .local _ .vmem, ⟨43, _⟩ => ⟨S5000x1, .f32⟩
  | .local _ .vmem, ⟨44, _⟩ => ⟨S64, .f32⟩
  | .local _ .vmem, ⟨45, _⟩ => ⟨S64x1, .f32⟩
  | .local _ .vmem, ⟨46, _⟩ => ⟨S1, .f32⟩
  | .local _ .vmem, ⟨47, _⟩ => ⟨S5000x1, .f32⟩
  | .local _ .vmem, ⟨48, _⟩ => ⟨S5000x1, .f32⟩
  | .local _ .vmem, ⟨49, _⟩ => ⟨S2000x1, .f32⟩
  | .local _ .vmem, ⟨50, _⟩ => ⟨S2000x1, .f32⟩
  | .local _ .vmem, ⟨51, _⟩ => ⟨S2000x1, .f32⟩
  | .local _ .vmem, ⟨52, _⟩ => ⟨S2000x1, .f32⟩
  | .local _ .vmem, ⟨53, _⟩ => ⟨S2000x1, .f32⟩
  | .local _ .vmem, ⟨54, _⟩ => ⟨S2000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_12 : Ref sig .tc := ⟨.hbm, 98, rfl⟩
abbrev main_v71 : Ref sig .tc := ⟨.hbm, 99, rfl⟩
abbrev main_v72 : Ref sig .tc := ⟨.hbm, 100, rfl⟩
abbrev main_c_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  slices_S50000x1_S20000x1_0_0 : S50000x1.Slices ![0, 0] S20000x1
  slices_S50000x1_S30000x1_20000_0 : S50000x1.Slices ![20000, 0] S30000x1
  slices_S3x64x64_S1x64x64_0_0_0 : S3x64x64.Slices ![0, 0, 0] S1x64x64
  shapeCasts_S1x64x64_S64x64 : S1x64x64.ShapeCasts S64x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  inb_S3000x256_S3000x256_0_0 : ∀ a, (![0, 0] : Fin 2 → Nat) a + S3000x256.size a ≤ S3000x256.size a
  h_S3000x256 : 0 < S3000x256.numel
  inb_S256x64_S256x64_0_0 : ∀ a, (![0, 0] : Fin 2 → Nat) a + S256x64.size a ≤ S256x64.size a
  h_S256x64 : 0 < S256x64.numel
  broadcasts_S1x64_S3000x64 : S1x64.Broadcasts S3000x64
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x64 : S3000x1.Broadcasts S3000x64
  inb_S3000x64_S3000x64_0_0 : ∀ a, (![0, 0] : Fin 2 → Nat) a + S3000x64.size a ≤ S3000x64.size a
  h_S3000x64 : 0 < S3000x64.numel
  concatenates_S20000x64_S30000x64_S50000x64_d0 : Shape.Concatenates [S20000x64, S30000x64] S50000x64 0
  bcast_S_S50000x64 : S_.BroadcastsInDim S50000x64 (![] : Fin 0 → Fin S50000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  shapeCasts_S64_S64 : S64.ShapeCasts S64
  broadcasts_S1x64_S5000x64 : S1x64.Broadcasts S5000x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  bcast_S_S200000 : S_.BroadcastsInDim S200000 (![] : Fin 0 → Fin S200000.rank)
  bcast_S200000_S200000x1_0 : S200000.BroadcastsInDim S200000x1 (![0] : Fin 1 → Fin S200000x1.rank)
  shapeCasts_S200000x1_S200000 : S200000x1.ShapeCasts S200000
  scatter_S50000_S1600000x1_S1600000_n_0_0_1_wf : ScatterDims.WF S50000 S1600000x1 S1600000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S3000x256_S256x64_S3000x64_1_0_0_1_n_n_wf : DotDims.WF S3000x256 S256x64 S3000x64 [1] [0] [0] [1] [] []
  dot_S3000x64_S64x64_S3000x64_1_0_0_1_n_n_wf : DotDims.WF S3000x64 S64x64 S3000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x1_S200000x1_S200000x1_1_0_n_n_0_1_11_wf : GatherDims.WF S50000x1 S200000x1 S200000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S20000x1.size a
  hwx0_4 : ∀ i : grid0.Coords, EltTy.bits .f32 = 32 ∨ (Rect.block (s := S20000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S20000x64.size a
  hwx0_5 : ∀ i : grid0.Coords, EltTy.bits .f32 = 32 ∨ (Rect.block (s := S20000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x256.size a ≤ S30000x256.size a
  hwx1_0 : ∀ i : grid1.Coords, EltTy.bits .f32 = 32 ∨ (Rect.block (s := S30000x256) S3000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x1.size a ≤ S30000x1.size a
  hwx1_4 : ∀ i : grid1.Coords, EltTy.bits .f32 = 32 ∨ (Rect.block (s := S30000x1) S3000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3000x64.size a ≤ S30000x64.size a
  hwx1_5 : ∀ i : grid1.Coords, EltTy.bits .f32 = 32 ∨ (Rect.block (s := S30000x64) S3000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1.size a ≤ S1.size a
  hwx4_5 : ∀ i : grid4.Coords, EltTy.bits .f32 = 32 ∨ (Rect.block (s := S1) S1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S50000x1.size a
  hwx4_6 : ∀ i : grid4.Coords, EltTy.bits .f32 = 32 ∨ (Rect.block (s := S50000x1) S5000x1.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S200000x1.size a
  hwx5_0 : ∀ i : grid5.Coords, EltTy.bits .f32 = 32 ∨ (Rect.block (s := S200000x1) S2000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S200000x1.size a
  hwx5_1 : ∀ i : grid5.Coords, EltTy.bits .f32 = 32 ∨ (Rect.block (s := S200000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S200000x1.size a
  hwx5_2 : ∀ i : grid5.Coords, EltTy.bits .f32 = 32 ∨ (Rect.block (s := S200000x1) S2000x1.size (cc5_transform_2 i) (hinb5_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S3000x256_S256x64_S3000x64_1_0_0_1_n_n : DotDims S3000x256 S256x64 S3000x64 where
  lhsContracting := [1]
  rhsContracting := [0]
  lhsNonContracting := [0]
  rhsNonContracting := [1]
  lhsBatch := []
  rhsBatch := []
  wf := dot_S3000x256_S256x64_S3000x64_1_0_0_1_n_n_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S200000x1_S200000x1_1_0_n_n_0_1_11 : GatherDims S50000x1 S200000x1 S200000x1 where
  offsetDims := [1]
  collapsedSliceDims := [0]
  operandBatchingDims := []
  startIndicesBatchingDims := []
  startIndexMap := [0]
  indexVectorDim := 1
  sliceSizes := ![1, 1]
  wf := gather_S50000x1_S200000x1_S200000x1_1_0_n_n_0_1_11_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S3000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S3000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S3000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v63) S5000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v70) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S20000x128 : Shape := ⟨2, ![20000, 128]⟩
abbrev S30000x256 : Shape := ⟨2, ![30000, 256]⟩
abbrev S128x64 : Shape := ⟨2, ![128, 64]⟩
abbrev S64 : Shape := ⟨1, ![64]⟩
abbrev S256x64 : Shape := ⟨2, ![256, 64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S2x1600000 : Shape := ⟨2, ![2, 1600000]⟩
abbrev S200000 : Shape := ⟨1, ![200000]⟩
abbrev S20000x64 : Shape := ⟨2, ![20000, 64]⟩
abbrev S1x64 : Shape := ⟨2, ![1, 64]⟩
abbrev S_ : Shape := ⟨0, ![]⟩
abbrev S30000x64 : Shape := ⟨2, ![30000, 64]⟩
abbrev S50000x64 : Shape := ⟨2, ![50000, 64]⟩
abbrev S1x1600000 : Shape := ⟨2, ![1, 1600000]⟩
abbrev S1600000 : Shape := ⟨1, ![1600000]⟩
abbrev S50000 : Shape := ⟨1, ![50000]⟩
abbrev S1600000x1 : Shape := ⟨2, ![1600000, 1]⟩
abbrev S50000x1 : Shape := ⟨2, ![50000, 1]⟩
abbrev S1x64x64 : Shape := ⟨3, ![1, 64, 64]⟩
abbrev S64x64 : Shape := ⟨2, ![64, 64]⟩
abbrev S1600000x64 : Shape := ⟨2, ![1600000, 64]⟩
abbrev S200000x1 : Shape := ⟨2, ![200000, 1]⟩
abbrev S200000x64 : Shape := ⟨2, ![200000, 64]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S20000x128, .f32⟩
  | 1 => ⟨S30000x256, .f32⟩
  | 2 => ⟨S128x64, .f32⟩
  | 3 => ⟨S64, .f32⟩
  | 4 => ⟨S256x64, .f32⟩
  | 5 => ⟨S64, .f32⟩
  | 6 => ⟨S3x64x64, .f32⟩
  | 7 => ⟨S3x64, .f32⟩
  | 8 => ⟨S64x1, .f32⟩
  | 9 => ⟨S1, .f32⟩
  | 10 => ⟨S2x1600000, .i32⟩
  | 11 => ⟨S200000, .i32⟩
  | 12 => ⟨S200000, .i32⟩
  | 13 => ⟨S20000x64, .f32⟩
  | 14 => ⟨S1x64, .f32⟩
  | 15 => ⟨S20000x64, .f32⟩
  | 16 => ⟨S20000x64, .f32⟩
  | 17 => ⟨S_, .f32⟩
  | 18 => ⟨S20000x64, .f32⟩
  | 19 => ⟨S20000x64, .f32⟩
  | 20 => ⟨S30000x64, .f32⟩
  | 21 => ⟨S1x64, .f32⟩
  | 22 => ⟨S30000x64, .f32⟩
  | 23 => ⟨S30000x64, .f32⟩
  | 24 => ⟨S_, .f32⟩
  | 25 => ⟨S30000x64, .f32⟩
  | 26 => ⟨S30000x64, .f32⟩
  | 27 => ⟨S50000x64, .f32⟩
  | 28 => ⟨S1x1600000, .i32⟩
  | 29 => ⟨S1600000, .i32⟩
  | 30 => ⟨S1x1600000, .i32⟩
  | 31 => ⟨S1600000, .i32⟩
  | 32 => ⟨S_, .f32⟩
  | 33 => ⟨S1600000, .f32⟩
  | 34 => ⟨S_, .f32⟩
  | 35 => ⟨S50000, .f32⟩
  | 36 => ⟨S1600000x1, .i32⟩
  | 37 => ⟨S50000, .f32⟩
  | 38 => ⟨S_, .f32⟩
  | 39 => ⟨S50000, .f32⟩
  | 40 => ⟨S50000, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S1600000x1, .f32⟩
  | 62 => ⟨S50000, .f32⟩
  | 63 => ⟨S50000x1, .f32⟩
  | 64 => ⟨S1x64x64, .f32⟩
  | 65 => ⟨S64x64, .f32⟩
  | 66 => ⟨S50000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S50000x64, .f32⟩
  | 80 => ⟨S1600000x1, .i32⟩
  | 81 => ⟨S50000x64, .f32⟩
  | 82 => ⟨S50000x64, .f32⟩
  | 83 => ⟨S50000x64, .f32⟩
  | 84 => ⟨S50000x64, .f32⟩
  | 85 => ⟨S1x64, .f32⟩
  | 86 => ⟨S64, .f32⟩
  | 87 => ⟨S1x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S1x64x64, .f32⟩
  | 94 => ⟨S64x64, .f32⟩
  | 95 => ⟨S50000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x64, .f32⟩
  | 106 => ⟨S1600000x64, .f32⟩
  | 107 => ⟨S_, .f32⟩
  | 108 => ⟨S50000x64, .f32⟩
  | 109 => ⟨S1600000x1, .i32⟩
  | 110 => ⟨S50000x64, .f32⟩
  | 111 => ⟨S50000x64, .f32⟩
  | 112 => ⟨S50000x64, .f32⟩
  | 113 => ⟨S50000x64, .f32⟩
  | 114 => ⟨S1x64, .f32⟩
  | 115 => ⟨S64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S1x64x64, .f32⟩
  | 123 => ⟨S64x64, .f32⟩
  | 124 => ⟨S50000x64, .f32⟩
  | 125 => ⟨S_, .i32⟩
  | 126 => ⟨S1600000, .i32⟩
  | 127 => ⟨S1600000, .i1⟩
  | _ => ⟨S20000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x64, .f32⟩
  | 7 => ⟨S1600000x64, .f32⟩
  | 8 => ⟨S_, .f32⟩
  | 9 => ⟨S50000x64, .f32⟩
  | 10 => ⟨S1600000x1, .i32⟩
  | 11 => ⟨S50000x64, .f32⟩
  | 12 => ⟨S50000x64, .f32⟩
  | 13 => ⟨S50000x64, .f32⟩
  | 14 => ⟨S50000x64, .f32⟩
  | 15 => ⟨S1x64, .f32⟩
  | 16 => ⟨S64, .f32⟩
  | 17 => ⟨S1x64, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x64, .f32⟩
  | 32 => ⟨S200000x1, .f32⟩
  | 33 => ⟨S1x1, .f32⟩
  | 34 => ⟨S200000x1, .f32⟩
  | 35 => ⟨S200000x1, .f32⟩
  | 36 => ⟨S200000, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x64, .f32⟩
  | 46 => ⟨S200000x1, .f32⟩
  | 47 => ⟨S1x1, .f32⟩
  | 48 => ⟨S200000x1, .f32⟩
  | 49 => ⟨S200000x1, .f32⟩
  | 50 => ⟨S200000, .f32⟩
  | 51 => ⟨S200000, .f32⟩
  | 52 => ⟨S200000, .f32⟩
  | 53 => ⟨S200000, .f32⟩
  | 54 => ⟨S_, .f32⟩
  | 55 => ⟨S200000, .f32⟩
  | 56 => ⟨S200000, .f32⟩
  | 57 => ⟨S_, .f32⟩
  | 58 => ⟨S200000, .f32⟩
  | 59 => ⟨S200000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_5 : Ref sig .tc := ⟨.hbm, 67, rfl⟩
abbrev main_v43 : Ref sig .tc := ⟨.hbm, 68, rfl⟩
abbrev main_v44 : Ref sig .tc := ⟨.hbm, 69, rfl⟩
abbrev main_c_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call2_cst : Ref sig .tc := ⟨.hbm, 90, rfl⟩
abbrev main_call2_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_8 : Ref sig .tc := ⟨.hbm, 96, rfl⟩
abbrev main_v67 : Ref sig .tc := ⟨.hbm, 97, rfl⟩
abbrev main_v68 : Ref sig .tc := ⟨.hbm, 98, rfl⟩
abbrev main_c_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call3_cst : Ref sig .tc := ⟨.hbm, 119, rfl⟩
abbrev main_call3_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_11 : Ref sig .tc := ⟨.hbm, 125, rfl⟩
abbrev main_v91 : Ref sig .tc := ⟨.hbm, 126, rfl⟩
abbrev main_v92 : Ref sig .tc := ⟨.hbm, 127, rfl⟩
abbrev main_c_12 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_13 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_call4_cst : Ref sig .tc := ⟨.hbm, 148, rfl⟩
abbrev main_call4_v0 : Ref sig .tc := ⟨.hbm, 149, rfl⟩
abbrev main_v111 : Ref sig .tc := ⟨.hbm, 150, rfl⟩
abbrev main_c_14 : Ref sig .tc := ⟨.hbm, 151, rfl⟩
abbrev main_v112 : Ref sig .tc := ⟨.hbm, 152, rfl⟩
abbrev main_v113 : Ref sig .tc := ⟨.hbm, 153, rfl⟩
abbrev main_c_15 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_16 : Ref sig .tc := ⟨.hbm, 165, rfl⟩
abbrev main_v124 : Ref sig .tc := ⟨.hbm, 166, rfl⟩
abbrev main_v125 : Ref sig .tc := ⟨.hbm, 167, rfl⟩
abbrev main_c_17 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_18 : Ref sig .tc := ⟨.hbm, 182, rfl⟩
abbrev main_v139 : Ref sig .tc := ⟨.hbm, 183, rfl⟩
abbrev main_v140 : Ref sig .tc := ⟨.hbm, 184, rfl⟩
abbrev main_cst_19 : Ref sig .tc := ⟨.hbm, 185, rfl⟩
abbrev main_v141 : Ref sig .tc := ⟨.hbm, 186, rfl⟩
abbrev main_v142 : Ref sig .tc := ⟨.hbm, 187, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S1x64_S30000x64_0_1 : S1x64.BroadcastsInDim S30000x64 (![0, 1] : Fin 2 → Fin S30000x64.rank)
  bcast_S_S30000x64 : S_.BroadcastsInDim S30000x64 (![] : Fin 0 → Fin S30000x64.rank)
  concatenates_S20000x64_S30000x64_S50000x64_d0 : Shape.Concatenates [S20000x64, S30000x64] S50000x64 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64_S1x64_0_0 : S3x64.Slices ![0, 0] S1x64
  shapeCasts_S1x64_S64 : S1x64.ShapeCasts S64
  bcast_S1x64_S50000x64_0_1 : S1x64.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S200000 : S_.BroadcastsInDim S200000 (![] : Fin 0 → Fin S200000.rank)
  bcast_S200000_S200000x1_0 : S200000.BroadcastsInDim S200000x1 (![0] : Fin 1 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S20000x128_S128x64_S20000x64_1_0_0_1_n_n_wf : DotDims.WF S20000x128 S128x64 S20000x64 [1] [0] [0] [1] [] []
  dot_S30000x256_S256x64_S30000x64_1_0_0_1_n_n_wf : DotDims.WF S30000x256 S256x64 S30000x64 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  gather_S50000x64_S200000x1_S200000x64_1_0_n_n_0_1_164_wf : GatherDims.WF S50000x64 S200000x1 S200000x64 [1] [0] [] [0] [] 1 ![1, 64]
  dot_S200000x64_S64x1_S200000x1_1_0_0_1_n_n_wf : DotDims.WF S200000x64 S64x1 S200000x1 [1] [0] [0] [1] [] []

variable [Facts₀]

def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S30000x256_S256x64_S30000x64_1_0_0_1_n_n : DotDims S30000x256 S256x64 S30000x64 where
  lhsContracting := [1]
  rhsContracting := [0]
  lhsNonContracting := [0]
  rhsNonContracting := [1]
  lhsBatch := []
  rhsBatch := []
  wf := dot_S30000x256_S256x64_S30000x64_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel's run with its result named.  The program is six kernel regions among stretches of host
  operations; the buffers' contents at each boundary are a fold from the launch memory (the host operations'
  results after a stretch, a region's arrays at what its write-backs leave), and every weakly fair execution
  ends with every buffer at the last boundary's contents.  Here that is read at the result buffer as well as at
  the thirteen argument buffers, which end as launched.
-/
import proofs.«133231_j73280732004420_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument arrays as launched. -/
theorem run_values : θ_run defs (onTc (τ := τ) (main (F := F))) ⟨m, fun _ => 0, ρ⟩ (fun r => ∀ c : Dev nD,
      r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.RunValue

end
-- ==== Proof.Keep.lean ====
/-
  Buffers that a stretch of the program leaves alone.  The idealized kernel's buffers at each of its thirteen
  boundaries are a fold from the launch memory: a stretch of host operations changes only the buffers its operations
  write, and a kernel region changes only its output arrays.  So the thirteen arguments, the two rows of edge words,
  and the column of inverse square roots of the degrees read, at every later boundary, what they read when they were
  made.
-/
import proofs.«133231_j73280732004420_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- A stretch of host operations leaves a buffer that none of them writes as it was. -/
macro "host_keep" : tactic => `(tactic|
  (refine StableHlo.after_of_forall_not_mem _ _ (List.forall_iff_forall_mem.mp ?_)
   simp only [hostOps0, hostOps1, hostOps2, hostOps3, hostOps4, hostOps5, hostOps6, List.flatten_cons, List.flatten_nil,
     List.append_nil, List.cons_append, List.nil_append, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-- Run a tactic at every member of a literal list of buffers. -/
macro "each_buf " t:tacticSeq : tactic => `(tactic|
  (refine List.forall_iff_forall_mem.mp ?_
   simp only [List.Forall]
   repeat' apply And.intro
   all_goals ($t)))

/-- The buffers followed from where they are made: the arguments and four values of the first host stretch. -/
abbrev argBufs : List (Ref sig .tc) :=
  [main_arg0, main_arg1, main_arg2, main_arg3, main_arg4, main_arg5, main_arg6, main_arg7, main_arg8, main_arg9,
   main_arg10, main_arg11, main_arg12]
abbrev midBufs : List (Ref sig .tc) := [main_v1, main_v3, main_v11, main_v13]
abbrev allBufs : List (Ref sig .tc) :=
  [main_arg0, main_arg1, main_arg2, main_arg3, main_arg4, main_arg5, main_arg6, main_arg7, main_arg8, main_arg9,
   main_arg10, main_arg11, main_arg12, main_v1, main_v3, main_v11, main_v13]

theorem keep1 : ∀ b ∈ argBufs, W1 m ρ c (Proc.devRef .tc b) = m ((c : Thread nD τ).loc b) := by
  each_buf (show StableHlo.after hostOps0 (W0 m ρ c) _ = W0 m ρ c _; host_keep)

theorem keep2 : ∀ b ∈ allBufs, W2 m ρ c (Proc.devRef .tc b) = W1 m ρ c (Proc.devRef .tc b) := by
  each_buf (first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
    | exact (W2_arr m ρ c 2).trans (((dat0 (V1 m ρ) c).arrAt_in 2 rfl _).trans (A_eq0 (V1 m ρ) c 2)))

theorem keep3 : ∀ b ∈ allBufs, W3 m ρ c (Proc.devRef .tc b) = W2 m ρ c (Proc.devRef .tc b) := by
  each_buf (show StableHlo.after hostOps1 (W2 m ρ c) _ = _; host_keep)

theorem keep4 : ∀ b ∈ allBufs, W4 m ρ c (Proc.devRef .tc b) = W3 m ρ c (Proc.devRef .tc b) := by
  each_buf (first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 4).trans (((dat1 (V3 m ρ) c).arrAt_in 4 rfl _).trans (A_eq1 (V3 m ρ) c 4)))

theorem keep5 : ∀ b ∈ allBufs, W5 m ρ c (Proc.devRef .tc b) = W4 m ρ c (Proc.devRef .tc b) := by
  each_buf (show StableHlo.after hostOps2 (W4 m ρ c) _ = _; host_keep)

theorem keep6 : ∀ b ∈ allBufs, W6 m ρ c (Proc.devRef .tc b) = W5 m ρ c (Proc.devRef .tc b) := by
  each_buf (first
    | exact W6_of_ne m ρ c _ (by decide)
    | exact (W6_arr m ρ c 2).trans (((dat2 (V5 m ρ) c).arrAt_in 2 rfl _).trans (A_eq2 (V5 m ρ) c 2)))

theorem keep7 : ∀ b ∈ allBufs, W7 m ρ c (Proc.devRef .tc b) = W6 m ρ c (Proc.devRef .tc b) := by
  each_buf (show StableHlo.after hostOps3 (W6 m ρ c) _ = _; host_keep)

theorem keep8 : ∀ b ∈ allBufs, W8 m ρ c (Proc.devRef .tc b) = W7 m ρ c (Proc.devRef .tc b) := by
  each_buf (first
    | exact W8_of_ne m ρ c _ (by decide)
    | exact (W8_arr m ρ c 2).trans (((dat3 (V7 m ρ) c).arrAt_in 2 rfl _).trans (A_eq3 (V7 m ρ) c 2)))

theorem keep9 : ∀ b ∈ allBufs, W9 m ρ c (Proc.devRef .tc b) = W8 m ρ c (Proc.devRef .tc b) := by
  each_buf (show StableHlo.after hostOps4 (W8 m ρ c) _ = _; host_keep)

theorem keep10 : ∀ b ∈ argBufs, W10 m ρ c (Proc.devRef .tc b) = W9 m ρ c (Proc.devRef .tc b) := by
  each_buf (first
    | exact W10_of_ne m ρ c _ (by decide)
    | exact (W10_arr m ρ c 4).trans (((dat4 (V9 m ρ) c).arrAt_in 4 rfl _).trans (A_eq4 (V9 m ρ) c 4))
    | exact (W10_arr m ρ c 5).trans (((dat4 (V9 m ρ) c).arrAt_in 5 rfl _).trans (A_eq4 (V9 m ρ) c 5)))

/-! ## Composed: a kept buffer at a later boundary -/

theorem arg_at {b : Ref sig .tc} (hb : b ∈ argBufs) (hb' : b ∈ allBufs) :
    W2 m ρ c (Proc.devRef .tc b) = m ((c : Thread nD τ).loc b)
    ∧ W3 m ρ c (Proc.devRef .tc b) = m ((c : Thread nD τ).loc b)
    ∧ W4 m ρ c (Proc.devRef .tc b) = m ((c : Thread nD τ).loc b)
    ∧ W5 m ρ c (Proc.devRef .tc b) = m ((c : Thread nD τ).loc b)
    ∧ W6 m ρ c (Proc.devRef .tc b) = m ((c : Thread nD τ).loc b)
    ∧ W7 m ρ c (Proc.devRef .tc b) = m ((c : Thread nD τ).loc b)
    ∧ W8 m ρ c (Proc.devRef .tc b) = m ((c : Thread nD τ).loc b)
    ∧ W9 m ρ c (Proc.devRef .tc b) = m ((c : Thread nD τ).loc b)
    ∧ W10 m ρ c (Proc.devRef .tc b) = m ((c : Thread nD τ).loc b) := by
  have e1 := keep1 m ρ c b hb
  have e2 := (keep2 m ρ c b hb').trans e1
  have e3 := (keep3 m ρ c b hb').trans e2
  have e4 := (keep4 m ρ c b hb').trans e3
  have e5 := (keep5 m ρ c b hb').trans e4
  have e6 := (keep6 m ρ c b hb').trans e5
  have e7 := (keep7 m ρ c b hb').trans e6
  have e8 := (keep8 m ρ c b hb').trans e7
  have e9 := (keep9 m ρ c b hb').trans e8
  exact ⟨e2, e3, e4, e5, e6, e7, e8, e9, (keep10 m ρ c b hb).trans e9⟩

theorem mid_at {b : Ref sig .tc} (hb' : b ∈ allBufs) :
    W2 m ρ c (Proc.devRef .tc b) = W1 m ρ c (Proc.devRef .tc b)
    ∧ W3 m ρ c (Proc.devRef .tc b) = W1 m ρ c (Proc.devRef .tc b)
    ∧ W4 m ρ c (Proc.devRef .tc b) = W1 m ρ c (Proc.devRef .tc b)
    ∧ W5 m ρ c (Proc.devRef .tc b) = W1 m ρ c (Proc.devRef .tc b)
    ∧ W6 m ρ c (Proc.devRef .tc b) = W1 m ρ c (Proc.devRef .tc b)
    ∧ W7 m ρ c (Proc.devRef .tc b) = W1 m ρ c (Proc.devRef .tc b)
    ∧ W8 m ρ c (Proc.devRef .tc b) = W1 m ρ c (Proc.devRef .tc b)
    ∧ W9 m ρ c (Proc.devRef .tc b) = W1 m ρ c (Proc.devRef .tc b) := by
  have e2 := keep2 m ρ c b hb'
  have e3 := (keep3 m ρ c b hb').trans e2
  have e4 := (keep4 m ρ c b hb').trans e3
  have e5 := (keep5 m ρ c b hb').trans e4
  have e6 := (keep6 m ρ c b hb').trans e5
  have e7 := (keep7 m ρ c b hb').trans e6
  have e8 := (keep8 m ρ c b hb').trans e7
  exact ⟨e2, e3, e4, e5, e6, e7, e8, (keep9 m ρ c b hb').trans e8⟩

end Cert.KernelIdeal.Chain

end
-- ==== Proof.Spec.lean ====
/-
  The arithmetic of one graph-convolution network, written once over extended-real arrays by coordinates.

  A node array has a row per node and 64 feature columns; `d` is the column of inverse square roots of the
  node degrees.  Four row-wise maps are used:
  * `projScaled`: a row of inputs goes through an affine map and a rectifier, then through a 64×64 matrix, and the
    result row is multiplied by the node's `d`;
  * `combine`: `max (d·(agg + y) + b) 0`, the new features of a node from the sum `agg` over its incoming edges,
    its own scaled row `y` and a bias row;
  * `matScaled`: a feature row times a 64×64 matrix, multiplied by the node's `d`;
  * `score`: a feature row times a 64×1 matrix plus a bias, one number per node;
  and `sigProd` is the logistic function of the product of two columns.
-/
import Idealize.ShloMosaic.PureOps.Ideal
import Idealize.ShloMosaic.Lib.ValueIdx

noncomputable section
open scoped BigOperators
open Idealize.ShloMosaic Idealize.ShloMosaic.ValueIdx

namespace Cert.Gcn

/-- Extended-real arrays of rank 1 and rank 2, indexed as the programs index them. -/
abbrev A1 (a : ℕ) := (⟨1, ![a]⟩ : Shape).Idx → EReal
abbrev A2 (a b : ℕ) := (⟨2, ![a, b]⟩ : Shape).Idx → EReal

/-- Entry `(n, j)` of `max (x·W + b) 0`. -/
def hiddenAt {R K : ℕ} (x : A2 R K) (w : A2 K 64) (b : A1 64) (n : Fin R) (j : Fin 64) : EReal :=
  max (∑ k : Fin K, x (ix2 n k) * w (ix2 k j) + b (ix1 j)) 0

/-- Entry `(n, j)` of `(max (x·W + b) 0 · C) · d`, the row scaled by the node's `d`. -/
def projScaledAt {R K : ℕ} (x : A2 R K) (w : A2 K 64) (b : A1 64) (cw : A2 64 64) (d : A2 R 1)
    (n : Fin R) (j : Fin 64) : EReal :=
  (∑ k : Fin 64, hiddenAt x w b n k * cw (ix2 k j)) * d (ix2 n 0)

def projScaled {R K : ℕ} (x : A2 R K) (w : A2 K 64) (b : A1 64) (cw : A2 64 64) (d : A2 R 1) : A2 R 64 :=
  fun i => projScaledAt x w b cw d (i 0) (i 1)

/-- Entry `(n, j)` of `max (d·(agg + y) + b) 0`. -/
def combineAt {N : ℕ} (agg y : A2 N 64) (d : A2 N 1) (b : A1 64) (n : Fin N) (j : Fin 64) : EReal :=
  max (d (ix2 n 0) * (agg (ix2 n j) + y (ix2 n j)) + b (ix1 j)) 0

def combine {N : ℕ} (agg y : A2 N 64) (d : A2 N 1) (b : A1 64) : A2 N 64 :=
  fun i => combineAt agg y d b (i 0) (i 1)

/-- Entry `(n, j)` of `(x·C) · d`. -/
def matScaledAt {N : ℕ} (x : A2 N 64) (cw : A2 64 64) (d : A2 N 1) (n : Fin N) (j : Fin 64) : EReal :=
  (∑ k : Fin 64, x (ix2 n k) * cw (ix2 k j)) * d (ix2 n 0)

def matScaled {N : ℕ} (x : A2 N 64) (cw : A2 64 64) (d : A2 N 1) : A2 N 64 :=
  fun i => matScaledAt x cw d (i 0) (i 1)

/-- Entry `n` of `x·L + l`, one number per node. -/
def scoreAt {N : ℕ} (x : A2 N 64) (lw : A2 64 1) (lb : A1 1) (n : Fin N) : EReal :=
  ∑ k : Fin 64, x (ix2 n k) * lw (ix2 k 0) + lb (ix1 0)

def score {N : ℕ} (x : A2 N 64) (lw : A2 64 1) (lb : A1 1) : A2 N 1 :=
  fun i => scoreAt x lw lb (i 0)

/-- The logistic function of the product of two columns. -/
def sigProd {L : ℕ} (a b : A2 L 1) : A2 L 1 := fun i => Ideal.logistic (a i * b i)

theorem projScaled_apply {R K : ℕ} (x : A2 R K) (w : A2 K 64) (b : A1 64) (cw : A2 64 64) (d : A2 R 1)
    (n : Fin R) (j : Fin 64) : projScaled x w b cw d (ix2 n j) = projScaledAt x w b cw d n j := rfl
theorem combine_apply {N : ℕ} (agg y : A2 N 64) (d : A2 N 1) (b : A1 64) (n : Fin N) (j : Fin 64) :
    combine agg y d b (ix2 n j) = combineAt agg y d b n j := rfl
theorem matScaled_apply {N : ℕ} (x : A2 N 64) (cw : A2 64 64) (d : A2 N 1) (n : Fin N) (j : Fin 64) :
    matScaled x cw d (ix2 n j) = matScaledAt x cw d n j := rfl
theorem score_apply {N : ℕ} (x : A2 N 64) (lw : A2 64 1) (lb : A1 1) (n : Fin N) (u : Fin 1) :
    score x lw lb (ix2 n u) = scoreAt x lw lb n := rfl

end Cert.Gcn

end
-- ==== Proof.LibERealFactor.lean ====
/-
  A general lemma file: moving a factor across a finite sum of EXTENDED reals without knowing the summands are real.

  On the extended reals `(a + b) · v = a · v + b · v` fails in general (`(⊤ + ⊥) · v`), and the usual road to
  distributivity goes through the reals, which asks every summand to be finite. When the FACTOR is nonnegative and
  finite the law holds for arbitrary summands, hence for any finite sum (`sum_mul_nonneg`, `mul_sum_nonneg`). Such a
  factor is, for instance, an inverse square root of a positive extended real (`rsqrt_nonneg_fin`: `1/√x` for a
  positive real, `0` at `+∞`), the degree normalisation of a graph convolution.
-/
import Idealize.ShloMosaic.PureOps.Ideal

noncomputable section

open scoped BigOperators

namespace Cert.LibERealFactor

open Idealize.ShloMosaic

/-- A nonnegative finite factor on the right moves across a finite sum of extended reals, whatever the summands. -/
theorem sum_mul_nonneg {ι : Type*} (s : Finset ι) (f : ι → EReal) (v : EReal) (h0 : 0 ≤ v) (ht : v ≠ ⊤) :
    (∑ e ∈ s, f e) * v = ∑ e ∈ s, f e * v := by
  classical
  induction s using Finset.induction_on with
  | empty => simp
  | insert a s ha ih =>
    rw [Finset.sum_insert ha, Finset.sum_insert ha, ← ih]
    exact EReal.right_distrib_of_nonneg_of_ne_top h0 ht _ _

/-- The same with the factor on the left. -/
theorem mul_sum_nonneg {ι : Type*} (s : Finset ι) (f : ι → EReal) (v : EReal) (h0 : 0 ≤ v) (ht : v ≠ ⊤) :
    v * ∑ e ∈ s, f e = ∑ e ∈ s, v * f e := by
  rw [mul_comm, sum_mul_nonneg s f v h0 ht]
  exact Finset.sum_congr rfl fun e _ => mul_comm _ _

/-- The inverse square root of a positive extended real is nonnegative and finite (`0` at `+∞`). -/
theorem rsqrt_nonneg_fin (x : EReal) (hx : 0 < x) : 0 ≤ Ideal.rsqrt x ∧ Ideal.rsqrt x ≠ ⊤ := by
  induction x using EReal.rec with
  | bot => exact absurd hx (by simp)
  | top => exact ⟨le_refl _, by simp⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

end Cert.LibERealFactor

end
-- ==== Proof.Model.lean ====
/-
  Two ways of computing three rounds of degree-normalised message passing, and why they agree.

  Nodes `n : Fin N`, edges `e : Fin E`.  An edge delivers to the node `n` with `key e = n` (an edge whose key is
  not a node delivers nowhere), reads its source row at `srow e`, and `drow e` is the row its destination index
  reads; `hkey` says the two agree whenever the edge delivers.  `d n` is the inverse square root of the node's
  degree: a nonnegative number below `+∞`.

  The first way scales every row by `d` BEFORE the rows are summed over the edges and once more after:
  `max (d n · (Σ_{e → n} y (srow e) + y n) + b) 0` with `y n = (x·C) n · d n`.  The second way multiplies every
  edge's row by `d (srow e) · d (drow e)` and the node's own row by `d n · d n`:
  `max (Σ_{e → n} (x·C)(srow e) · (d (srow e) · d (drow e)) + (x·C) n · (d n · d n) + b) 0`.
  They agree because a nonnegative finite factor distributes over any finite sum of extended reals
  (whatever the summands, infinite ones included), and multiplication of extended reals is commutative and
  associative.
-/
import Idealize.ShloMosaic.PureOps.Ideal
import Idealize.ShloMosaic.Lib.ValueIdx
import proofs.«133231_j73280732004420_2_alg».proof.Proof.Spec
import proofs.«133231_j73280732004420_2_alg».proof.Proof.LibERealFactor

noncomputable section
open scoped BigOperators
open Idealize.ShloMosaic

namespace Cert.Gcn

variable {N E : ℕ}

/-- The sum of the edge values delivered to node `n`, started from zero. -/
def segSum (key : Fin E → ℤ) (u : Fin E → EReal) (n : Fin N) : EReal :=
  0 + ∑ e : Fin E, if key e = (n.val : ℤ) then u e else 0

/-- A feature row times a 64×64 matrix. -/
def mm (x : Fin N → Fin 64 → EReal) (c : Fin 64 → Fin 64 → EReal) (n : Fin N) (j : Fin 64) : EReal :=
  ∑ k : Fin 64, x n k * c k j

/-- The rows of `x·C`, each scaled by its node's `d`. -/
def scaled (d : Fin N → EReal) (x : Fin N → Fin 64 → EReal) (c : Fin 64 → Fin 64 → EReal) (n : Fin N) (j : Fin 64) : EReal :=
  mm x c n j * d n

/-- One round from pre-scaled rows `y`. -/
def kStep (key : Fin E → ℤ) (srow : Fin E → Fin N) (d : Fin N → EReal) (y : Fin N → Fin 64 → EReal)
    (b : Fin 64 → EReal) (n : Fin N) (j : Fin 64) : EReal :=
  max (d n * (segSum key (fun e => y (srow e) j) n + y n j) + b j) 0

/-- One round with the two factors applied per edge. -/
def rStep (key : Fin E → ℤ) (srow drow : Fin E → Fin N) (d : Fin N → EReal) (x : Fin N → Fin 64 → EReal)
    (c : Fin 64 → Fin 64 → EReal) (b : Fin 64 → EReal) (n : Fin N) (j : Fin 64) : EReal :=
  max (segSum key (fun e => mm x c (srow e) j * (d (srow e) * d (drow e))) n + mm x c n j * (d n * d n) + b j) 0

theorem step_eq (key : Fin E → ℤ) (srow drow : Fin E → Fin N) (d : Fin N → EReal)
    (hd : ∀ n, 0 ≤ d n ∧ d n ≠ ⊤) (hkey : ∀ e n, key e = ((n : Fin N).val : ℤ) → drow e = n)
    (x : Fin N → Fin 64 → EReal) (c : Fin 64 → Fin 64 → EReal) (b : Fin 64 → EReal) :
    kStep key srow d (scaled d x c) b = rStep key srow drow d x c b := by
  funext n j
  unfold kStep rStep
  congr 2
  obtain ⟨h0, ht⟩ := hd n
  have hdist : ∀ a b : EReal, d n * (a + b) = d n * a + d n * b :=
    fun a b => EReal.left_distrib_of_nonneg_of_ne_top h0 ht a b
  rw [hdist]
  congr 1
  · unfold segSum
    rw [zero_add, zero_add, Cert.LibERealFactor.mul_sum_nonneg _ _ _ h0 ht]
    refine Finset.sum_congr rfl fun e _ => ?_
    dsimp only
    by_cases hk : key e = (n.val : ℤ)
    · rw [if_pos hk, if_pos hk, hkey e n hk]
      unfold scaled
      rw [mul_comm (d n), mul_assoc]
    · rw [if_neg hk, if_neg hk, mul_zero]
  · unfold scaled
    rw [mul_comm (d n), mul_assoc]

/-! ## Three rounds and the score -/

variable {L : ℕ}

/-- Rows pre-scaled before each sum over the edges; per node one score; the logistic of the product of two
    gathered scores. -/
def kOut (key : Fin E → ℤ) (srow : Fin E → Fin N) (d : Fin N → EReal) (x0 : Fin N → Fin 64 → EReal)
    (cw : Fin 3 → Fin 64 → Fin 64 → EReal) (cb : Fin 3 → Fin 64 → EReal) (lw : Fin 64 → EReal) (lb : EReal)
    (r1 r2 : Fin L → Fin N) (i : Fin L) : EReal :=
  let x1 := kStep key srow d (scaled d x0 (cw 0)) (cb 0)
  let x2 := kStep key srow d (scaled d x1 (cw 1)) (cb 1)
  let x3 := kStep key srow d (scaled d x2 (cw 2)) (cb 2)
  Ideal.logistic ((∑ k : Fin 64, x3 (r1 i) k * lw k + lb) * (∑ k : Fin 64, x3 (r2 i) k * lw k + lb))

/-- The two factors applied per edge; the score of a gathered row; `1 / (1 + exp (-·))` of the product. -/
def rOut (key : Fin E → ℤ) (srow drow : Fin E → Fin N) (d : Fin N → EReal) (x0 : Fin N → Fin 64 → EReal)
    (cw : Fin 3 → Fin 64 → Fin 64 → EReal) (cb : Fin 3 → Fin 64 → EReal) (lw : Fin 64 → EReal) (lb : EReal)
    (r1 r2 : Fin L → Fin N) (i : Fin L) : EReal :=
  let x1 := rStep key srow drow d x0 (cw 0) (cb 0)
  let x2 := rStep key srow drow d x1 (cw 1) (cb 1)
  let x3 := rStep key srow drow d x2 (cw 2) (cb 2)
  Ideal.div 1 (1 + Ideal.exp (-((∑ k : Fin 64, x3 (r1 i) k * lw k + lb) * (∑ k : Fin 64, x3 (r2 i) k * lw k + lb))))

theorem out_eq (key : Fin E → ℤ) (srow drow : Fin E → Fin N) (d : Fin N → EReal)
    (hd : ∀ n, 0 ≤ d n ∧ d n ≠ ⊤) (hkey : ∀ e n, key e = ((n : Fin N).val : ℤ) → drow e = n)
    (x0 : Fin N → Fin 64 → EReal) (cw : Fin 3 → Fin 64 → Fin 64 → EReal) (cb : Fin 3 → Fin 64 → EReal)
    (lw : Fin 64 → EReal) (lb : EReal) (r1 r2 : Fin L → Fin N) :
    kOut key srow d x0 cw cb lw lb r1 r2 = rOut key srow drow d x0 cw cb lw lb r1 r2 := by
  funext i
  unfold kOut rOut
  simp only [step_eq key srow drow d hd hkey]
  rfl

/-! ## The parameters, read off the programs' argument arrays -/

open Idealize.ShloMosaic.ValueIdx

/-- A start index as the programs normalise it before a gather: a negative word has the node count added. -/
def normWord (v : BitVec 32) : BitVec 32 := Scalar.select (IntOp.cmpi .slt v 0#32) (IntOp.addi v 50000#32) v

/-- The row a gather of a 50000-row array reads at the (normalised) start index: the signed value, clamped. -/
def rowOf (v : BitVec 32) : Fin 50000 := ⟨min (normWord v).toInt.toNat 49999, by omega⟩

abbrev A3 (a b c : ℕ) := (⟨3, ![a, b, c]⟩ : Shape).Idx → EReal

/-- The features before the first round: the two node types' rows, one block above the other. -/
def x0Of (xd : A2 20000 128) (wd : A2 128 64) (bd : A1 64) (xp : A2 30000 256) (wp : A2 256 64) (bp : A1 64)
    (n : Fin 50000) (j : Fin 64) : EReal :=
  if h : n.val < 20000 then hiddenAt xd wd bd ⟨n.val, h⟩ j else hiddenAt xp wp bp ⟨n.val - 20000, by omega⟩ j

/-- An edge delivers to the node whose number is the signed value of its destination word. -/
def keyOf (ei : IVec ⟨2, ![2, 1600000]⟩ 32) (e : Fin 1600000) : ℤ := (ei (ix2 1 e)).toInt
def srowOf (ei : IVec ⟨2, ![2, 1600000]⟩ 32) (e : Fin 1600000) : Fin 50000 := rowOf (ei (ix2 0 e))
def drowOf (ei : IVec ⟨2, ![2, 1600000]⟩ 32) (e : Fin 1600000) : Fin 50000 := rowOf (ei (ix2 1 e))

/-- The inverse square root of one plus the number of edges delivered to the node. -/
def dOf (ei : IVec ⟨2, ![2, 1600000]⟩ 32) (n : Fin 50000) : EReal :=
  Ideal.rsqrt (segSum (keyOf ei) (fun _ => (1 : EReal)) n + 1)

def cwOf (cw : A3 3 64 64) (l : Fin 3) (k j : Fin 64) : EReal := cw (ix3 l k j)
def cbOf (cb : A2 3 64) (l : Fin 3) (j : Fin 64) : EReal := cb (ix2 l j)
def lwOf (lw : A2 64 1) (k : Fin 64) : EReal := lw (ix2 k 0)
def lbOf (lb : A1 1) : EReal := lb (ix1 0)
def labelRow (ls : IVec ⟨1, ![200000]⟩ 32) (i : Fin 200000) : Fin 50000 := rowOf (ls (ix1 i))

/-- Both programs' result, as the second way computes it. -/
def refOut (xd : A2 20000 128) (wd : A2 128 64) (bd : A1 64) (xp : A2 30000 256) (wp : A2 256 64) (bp : A1 64)
    (cw : A3 3 64 64) (cb : A2 3 64) (lw : A2 64 1) (lb : A1 1) (ei : IVec ⟨2, ![2, 1600000]⟩ 32)
    (ls ld : IVec ⟨1, ![200000]⟩ 32) : A1 200000 :=
  fun i => rOut (keyOf ei) (srowOf ei) (drowOf ei) (dOf ei) (x0Of xd wd bd xp wp bp) (cwOf cw) (cbOf cb) (lwOf lw)
    (lbOf lb) (labelRow ls) (labelRow ld) (i 0)

/-- … and as the first way computes it. -/
def kerOut (xd : A2 20000 128) (wd : A2 128 64) (bd : A1 64) (xp : A2 30000 256) (wp : A2 256 64) (bp : A1 64)
    (cw : A3 3 64 64) (cb : A2 3 64) (lw : A2 64 1) (lb : A1 1) (ei : IVec ⟨2, ![2, 1600000]⟩ 32)
    (ls ld : IVec ⟨1, ![200000]⟩ 32) : A1 200000 :=
  fun i => kOut (keyOf ei) (srowOf ei) (dOf ei) (x0Of xd wd bd xp wp bp) (cwOf cw) (cbOf cb) (lwOf lw)
    (lbOf lb) (labelRow ls) (labelRow ld) (i 0)

end Cert.Gcn

end
-- ==== Proof.LibScatterAdd.lean ====
/-
  A float scatter-add on the host (jax's `.at[idx].add(v)`, `jax.ops.segment_sum`), read at the exact instance by
  coordinates.

  The exact instance gives a scatter-add as: each operand element plus the sum of the update elements whose
  result index is that element, the start index read signed and not clamped, an update that lands outside the
  operand dropped. For the two layouts a segment sum prints in — a vector of updates `[E]` added into a vector
  `[N]`, and rows `[E, C]` added into a matrix `[N, C]`, both at start indices `[E, 1]` along axis 0 — this file
  says when update `e` lands on element `n` (exactly when the signed start index of `e` is `n`), and reads the
  scatter at an index as the operand there plus `∑ e, if start e = n then update e else 0`.

  The last lemma is the counting fact a full sum over segments rests on: when every key lies in `[0, N)`, the
  segment sums over all `N` segments add up to the plain sum of the updates.

  Everything is stated for any dimension-number record with the printed list fields (each hypothesis is closed
  by `rfl` at a printed record) and any extents `N`, `E`, `C`.
-/
import Idealize.ShloMosaic.PureOps.Ideal
import Idealize.ShloMosaic.PureOps.Ideal.Laws
import Idealize.ShloMosaic.Lib.ValueIdx

noncomputable section
open Idealize.ShloMosaic Idealize.ShloMosaic.ValueIdx

namespace Cert.LibScatterAdd

variable {N E C : Nat}

/-! ## A vector operand: updates `[E]` added into `[N]` at `[E, 1]` start indices -/

section Vec

variable (d : ScatterDims ⟨1, ![N]⟩ ⟨2, ![E, 1]⟩ ⟨1, ![E]⟩)
  (huw : d.updateWindowDims = []) (hiw : d.insertedWindowDims = [0]) (hsd : d.scatterDimsToOperandDims = [0])
  (hiv : d.indexVectorDim = 1)
include huw hiw hsd hiv

/-- The window of update `j` starts at the signed value of start index `(j, 0)`. -/
theorem start_vec {w : Nat} (j : (⟨1, ![E]⟩ : Shape).Idx) (idx : IVec ⟨2, ![E, 1]⟩ w) (a : Fin 1) :
    d.start j idx a = (idx (ix2 (j 0) 0)).toInt := by
  obtain ⟨uw, iw, sdto, ivd, wf⟩ := d
  simp only at huw hiw hsd hiv
  subst huw hiw hsd hiv
  have ha : a = 0 := Subsingleton.elim _ _
  subst ha
  unfold ScatterDims.start
  simp only [List.mem_singleton, dite_true]
  refine congrArg (fun k => (idx k).toInt) ?_
  funext b
  match b with
  | ⟨0, _⟩ => rfl
  | ⟨1, _⟩ => rfl

/-- The operand's one axis is an inserted window axis: the window coordinate on it is zero. -/
theorem window_vec (j : (⟨1, ![E]⟩ : Shape).Idx) (a : Fin 1) : d.window j a = 0 := by
  obtain ⟨uw, iw, sdto, ivd, wf⟩ := d
  simp only at huw hiw hsd hiv
  subst huw hiw hsd hiv
  have ha : a = 0 := Subsingleton.elim _ _
  subst ha
  unfold ScatterDims.window
  rw [dif_neg]
  simp [ScatterDims.sKept, Shape.kept]

/-- Update `j` lands on element `i` exactly when its signed start index is `i` (an index outside `[0, N)` lands
    nowhere). -/
theorem resultIdx?_vec {w : Nat} (j : (⟨1, ![E]⟩ : Shape).Idx) (idx : IVec ⟨2, ![E, 1]⟩ w) (i : (⟨1, ![N]⟩ : Shape).Idx) :
    d.resultIdx? j idx = some i ↔ (idx (ix2 (j 0) 0)).toInt = ((i 0).val : Int) := by
  have hs := start_vec d huw hiw hsd hiv j idx
  have hw := window_vec d huw hiw hsd hiv j
  unfold ScatterDims.resultIdx?
  split
  · rename_i h
    rw [Option.some.injEq]
    constructor
    · intro hf
      have h0 := congrArg (fun f => ((f 0 : Fin N) : Nat)) hf
      simp only [hs, hw] at h0 h
      have := (h 0).1
      omega
    · intro hv
      funext a
      have ha : a = 0 := Subsingleton.elim _ _
      subst ha
      apply Fin.ext
      simp only [hs, hw]
      omega
  · rename_i h
    constructor
    · intro hf; exact absurd hf (by simp)
    · intro hv
      exfalso; apply h
      intro a
      have ha : a = 0 := Subsingleton.elim _ _
      subst ha
      rw [hs, hw]
      have hlt : ((i 0).val : Nat) < N := (i 0).isLt
      constructor
      · omega
      · show _ < ((N : Nat) : Int)
        omega

/-- Rank-1 indices are the positions. -/
def idx1Equiv (n : Nat) : (⟨1, ![n]⟩ : Shape).Idx ≃ Fin n where
  toFun j := j 0
  invFun := ix1
  left_inv j := (eq_ix1 j).symm
  right_inv _ := rfl

/-- The scatter-add of a vector of updates, at element `i`: the operand there plus the updates whose signed start
    index is `i`. -/
theorem scatterAdd_vec_apply {w : Nat} {φ : FTy} (x : FVec Ideal ⟨1, ![N]⟩ φ) (idx : IVec ⟨2, ![E, 1]⟩ w)
    (upd : FVec Ideal ⟨1, ![E]⟩ φ) (i : (⟨1, ![N]⟩ : Shape).Idx) :
    Host.scatterAdd (F := Ideal) d x idx upd i
      = x i + ∑ e : Fin E, if (idx (ix2 e 0)).toInt = ((i 0).val : Int) then upd (ix1 e) else 0 := by
  unfold Host.scatterAdd
  rw [Ideal.hostScatterAdd_def]
  unfold Ideal.hostScatterAdd
  congr 1
  rw [Finset.sum_filter]
  refine Fintype.sum_equiv (idx1Equiv E) _ _ (fun j => ?_)
  simp only [resultIdx?_vec d huw hiw hsd hiv j idx i]
  rw [eq_ix1 j]
  rfl

end Vec

/-! ## A matrix operand: rows `[E, C]` added into `[N, C]` at `[E, 1]` start rows -/

section Rows

variable (d : ScatterDims ⟨2, ![N, C]⟩ ⟨2, ![E, 1]⟩ ⟨2, ![E, C]⟩)
  (huw : d.updateWindowDims = [1]) (hiw : d.insertedWindowDims = [0]) (hsd : d.scatterDimsToOperandDims = [0])
  (hiv : d.indexVectorDim = 1)
include huw hiw hsd hiv

/-- On the row axis the window of update `j` starts at the signed value of start index `(j 0, 0)`. -/
theorem start_rows0 {w : Nat} (j : (⟨2, ![E, C]⟩ : Shape).Idx) (idx : IVec ⟨2, ![E, 1]⟩ w) :
    d.start j idx 0 = (idx (ix2 (j 0) 0)).toInt := by
  obtain ⟨uw, iw, sdto, ivd, wf⟩ := d
  simp only at huw hiw hsd hiv
  subst huw hiw hsd hiv
  unfold ScatterDims.start
  simp only [List.mem_singleton, dite_true]
  refine congrArg (fun k => (idx k).toInt) ?_
  funext b
  match b with
  | ⟨0, _⟩ => rfl
  | ⟨1, _⟩ => rfl

/-- On the column axis, which the start indices do not name, the window starts at zero. -/
theorem start_rows1 {w : Nat} (j : (⟨2, ![E, C]⟩ : Shape).Idx) (idx : IVec ⟨2, ![E, 1]⟩ w) :
    d.start j idx 1 = 0 := by
  obtain ⟨uw, iw, sdto, ivd, wf⟩ := d
  simp only at huw hiw hsd hiv
  subst huw hiw hsd hiv
  unfold ScatterDims.start
  rw [dif_neg]
  simp

/-- The row axis is an inserted window axis: the window coordinate on it is zero. -/
theorem window_rows0 (j : (⟨2, ![E, C]⟩ : Shape).Idx) : d.window j 0 = 0 := by
  obtain ⟨uw, iw, sdto, ivd, wf⟩ := d
  simp only at huw hiw hsd hiv
  subst huw hiw hsd hiv
  unfold ScatterDims.window
  rw [dif_neg]
  simp [ScatterDims.sKept, Shape.kept]

/-- The column axis carries the update's window: the window coordinate on it is the update's column. -/
theorem window_rows1 (j : (⟨2, ![E, C]⟩ : Shape).Idx) : d.window j 1 = (j 1).val := by
  obtain ⟨uw, iw, sdto, ivd, wf⟩ := d
  simp only at huw hiw hsd hiv
  subst huw hiw hsd hiv
  unfold ScatterDims.window
  rw [dif_pos (by simp [ScatterDims.sKept, Shape.kept])]
  rfl

/-- Update `(e, q)` lands on element `(n, c)` exactly when the signed start index of row `e` is `n` and `q = c`. -/
theorem resultIdx?_rows {w : Nat} (j : (⟨2, ![E, C]⟩ : Shape).Idx) (idx : IVec ⟨2, ![E, 1]⟩ w)
    (i : (⟨2, ![N, C]⟩ : Shape).Idx) :
    d.resultIdx? j idx = some i ↔ (idx (ix2 (j 0) 0)).toInt = ((i 0).val : Int) ∧ j 1 = i 1 := by
  have hs0 := start_rows0 d huw hiw hsd hiv j idx
  have hs1 := start_rows1 d huw hiw hsd hiv j idx
  have hw0 := window_rows0 d huw hiw hsd hiv j
  have hw1 := window_rows1 d huw hiw hsd hiv j
  have hi0 : ((i 0).val : Nat) < N := (i 0).isLt
  have hj1 : ((j 1).val : Nat) < C := (j 1).isLt
  unfold ScatterDims.resultIdx?
  split
  · rename_i h
    rw [Option.some.injEq]
    constructor
    · intro hf
      have h0 := congrArg (fun f => ((f 0 : Fin N) : Nat)) hf
      have h1 := congrArg (fun f => ((f 1 : Fin C) : Nat)) hf
      simp only [hs0, hs1, hw0, hw1] at h0 h1
      have := (h 0).1
      rw [hs0, hw0] at this
      refine ⟨by omega, Fin.ext ?_⟩
      show ((j 1).val : Nat) = (i 1).val
      omega
    · rintro ⟨hv, h1⟩
      have h1' : ((j 1).val : Nat) = (i 1).val := congrArg Fin.val h1
      funext a
      match a with
      | ⟨0, _⟩ =>
        apply Fin.ext
        show (d.start j idx 0 + ((d.window j 0 : Nat) : Int)).toNat = (i 0).val
        rw [hs0, hw0]; omega
      | ⟨1, _⟩ =>
        apply Fin.ext
        show (d.start j idx 1 + ((d.window j 1 : Nat) : Int)).toNat = (i 1).val
        rw [hs1, hw1]; omega
  · rename_i h
    constructor
    · intro hf; exact absurd hf (by simp)
    · rintro ⟨hv, h1⟩
      exfalso; apply h
      intro a
      match a with
      | ⟨0, _⟩ =>
        show 0 ≤ d.start j idx 0 + ((d.window j 0 : Nat) : Int) ∧ d.start j idx 0 + ((d.window j 0 : Nat) : Int) < ((N : Nat) : Int)
        rw [hs0, hw0]; omega
      | ⟨1, _⟩ =>
        show 0 ≤ d.start j idx 1 + ((d.window j 1 : Nat) : Int) ∧ d.start j idx 1 + ((d.window j 1 : Nat) : Int) < ((C : Nat) : Int)
        rw [hs1, hw1]; omega

/-- The scatter-add of rows, at element `(n, c)`: the operand there plus column `c` of the update rows whose signed
    start index is `n`. -/
theorem scatterAdd_rows_apply {w : Nat} {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl (fun e _ => ?_)
  have hiff := fun b : Fin C => resultIdx?_rows d huw hiw hsd hiv (ix2 e b) idx (ix2 n c)
  by_cases hA : (idx (ix2 e 0)).toInt = (n.val : Int)
  · rw [if_pos hA, Finset.sum_eq_single c]
    · exact if_pos ((hiff c).2 ⟨hA, rfl⟩)
    · intro b _ hbc
      exact if_neg (fun h => hbc ((hiff b).1 h).2)
    · intro h; exact absurd (Finset.mem_univ c) h
  · rw [if_neg hA]
    exact Finset.sum_eq_zero (fun b _ => if_neg (fun h => hA ((hiff b).1 h).1))

end Rows

/-! ## Summing a segment sum over all segments -/

/-- When every key lies in `[0, N)`, the segment sums over all `N` segments add up to the sum of all the
    updates: each update is counted in exactly one segment. -/
theorem sum_segments {M : Type*} [AddCommMonoid M] (k : Fin E → Int) (u : Fin E → M)
    (hk : ∀ e, 0 ≤ k e ∧ k e < (N : Int)) :
    ∑ n : Fin N, ∑ e : Fin E, (if k e = (n.val : Int) then u e else 0) = ∑ e : Fin E, u e := by
  rw [Finset.sum_comm]
  refine Finset.sum_congr rfl (fun e _ => ?_)
  obtain ⟨h0, h1⟩ := hk e
  have hlt : (k e).toNat < N := by omega
  have hiff : ∀ n : Fin N, (k e = (n.val : Int)) ↔ n = ⟨(k e).toNat, hlt⟩ := fun n =>
    ⟨fun h => Fin.ext (by show n.val = (k e).toNat; omega), fun h => by rw [h]; show k e = (((k e).toNat : Nat) : Int); omega⟩
  simp only [hiff, Finset.sum_ite_eq', Finset.mem_univ, if_true]

end Cert.LibScatterAdd
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.ChainOps.lean ====
/-
  The host operations of the idealized kernel's program, read by coordinates.  Each lemma is stated over variables:
  the rows of the edge words, the degree column (the inverse square root of one plus the number of edges delivered to
  a node), its two blocks, the slices of the stacked matrices and biases, the two node types' rows joined, a gather
  of rows at normalised start words (a negative word has the node count added, the signed value is clamped), the
  sum of the rows delivered to a node, and one whole round: the new features of a node from the pre-scaled rows,
  then through the next matrix and scaled again, or through the 64×1 matrix to a score.
-/
import proofs.«133231_j73280732004420_2_alg».proof.Proof.Gen.KernelIdeal.Frame
import proofs.«133231_j73280732004420_2_alg».proof.Proof.Keep
import proofs.«133231_j73280732004420_2_alg».proof.Proof.Model
import proofs.«133231_j73280732004420_2_alg».proof.Proof.LibScatterAdd
import proofs.«133231_j73280732004420_2_alg».proof.Proof.LibGatherRows
import proofs.«133231_j73280732004420_2_alg».proof.Proof.LibHostKeepdims
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The host operations of the first stretch, read by coordinates (over variables) -/

/-- Row 0 of the `[2, E]` edge words through the slice `[0:1, :]` and the reshape to `[E]`. -/
theorem row0_word (x : S2x1600000.Idx → BitVec 32) (e : Fin 1600000) :
    shapeCast S1600000 (extractStridedSlice S1x1600000 ![0, 0] x slices_S2x1600000_S1x1600000_0_0)
      shapeCasts_S1x1600000_S1600000 (ix1 e) = x (ix2 0 e) := by
  rw [shapeCast_1a_a_apply]
  refine extractStridedSlice_apply _ x _ _ _ (fun a => ?_)
  match a with
  | ⟨0, _⟩ => rfl
  | ⟨1, _⟩ => exact (Nat.zero_add _).symm

/-- Row 1 likewise. -/
theorem row1_word (x : S2x1600000.Idx → BitVec 32) (e : Fin 1600000) :
    shapeCast S1600000 (extractStridedSlice S1x1600000 ![1, 0] x slices_S2x1600000_S1x1600000_1_0)
      shapeCasts_S1x1600000_S1600000 (ix1 e) = x (ix2 1 e) := by
  rw [shapeCast_1a_a_apply]
  refine extractStridedSlice_apply _ x _ _ _ (fun a => ?_)
  match a with
  | ⟨0, _⟩ => rfl
  | ⟨1, _⟩ => exact (Nat.zero_add _).symm

/-- The word `0x3F800000` is the number one. -/
theorem one_word : Ideal.ofBits .f32 0x3F800000#32 = 1 := by
  rw [show (1 : EReal) = ((1 : ℝ) : EReal) by norm_cast]
  simp [Ideal.ofBits, Ideal.ieee, -EReal.coe_mul]; norm_num

/-- The number of edges delivered to a node, counted from zero. -/
theorem deg_sum (dst : S1600000.Idx → BitVec 32) (n : Fin 50000) :
    Host.scatterAdd (F := Ideal) scatter_S50000_S1600000x1_S1600000_n_0_0_1
        (broadcastInDim S50000 ![] bcast_S_S50000 (constant (F := Ideal) S_ FTy.f32 0x00000000#32))
        (broadcastInDim S1600000x1 ![0] bcast_S1600000_S1600000x1_0 dst)
        (broadcastInDim S1600000 ![] bcast_S_S1600000 (constant (F := Ideal) S_ FTy.f32 0x3F800000#32)) (ix1 n)
      = Cert.Gcn.segSum (fun e => (dst (ix1 e)).toInt) (fun _ => (1 : EReal)) n := by
  refine (Cert.LibScatterAdd.scatterAdd_vec_apply (N := 50000) (E := 1600000) scatter_S50000_S1600000x1_S1600000_n_0_0_1 rfl rfl rfl rfl _ _ _ (ix1 n)).trans ?_
  unfold Cert.Gcn.segSum
  refine congrArg₂ (· + ·) ?_ (Finset.sum_congr rfl fun e _ => ?_)
  · exact (broadcastInDim_scalar_apply _ _ _ _).trans Ideal.ofBits_zero_f32
  · rw [broadcastInDim_a_a1_apply (a := 1600000) ![0] bcast_S1600000_S1600000x1_0 rfl dst e 0]
    refine if_congr Iff.rfl ?_ rfl
    exact (broadcastInDim_scalar_apply _ _ _ _).trans one_word

/-- The degree column: the inverse square root of the count plus one, as a column. -/
theorem dis_col (S one : S50000.Idx → EReal) (n : Fin 50000) (v : EReal) (hS : S (ix1 n) = v) (hone : one (ix1 n) = 1) :
    broadcastInDim S50000x1 ![0] bcast_S50000_S50000x1_0 (Host.rsqrt (F := Ideal) (φ := .f32) (addf S one)) (ix2 n 0)
      = Ideal.rsqrt (v + 1) := by
  refine (broadcastInDim_a_a1_apply (a := 50000) ![0] bcast_S50000_S50000x1_0 rfl _ n 0).trans ?_
  show Ideal.rsqrt (S (ix1 n) + one (ix1 n)) = _
  rw [hS, hone]

theorem one_col (n : Fin 50000) :
    broadcastInDim S50000 ![] bcast_S_S50000 (constant (F := Ideal) S_ FTy.f32 0x3F800000#32) (ix1 n) = 1 :=
  (broadcastInDim_scalar_apply _ _ _ _).trans one_word

/-- The first 20000 rows of the degree column. -/
theorem col_head (x : S50000x1.Idx → EReal) (n : Fin 20000) :
    extractStridedSlice S20000x1 ![0, 0] x slices_S50000x1_S20000x1_0_0 (ix2 n 0)
      = x (ix2 ⟨n.val, by omega⟩ 0) := by
  refine extractStridedSlice_apply _ x _ _ _ (fun a => ?_)
  match a with
  | ⟨0, _⟩ => exact (Nat.zero_add _).symm
  | ⟨1, _⟩ => rfl

/-- Its last 30000 rows. -/
theorem col_tail (x : S50000x1.Idx → EReal) (n : Fin 30000) :
    extractStridedSlice S30000x1 ![20000, 0] x slices_S50000x1_S30000x1_20000_0 (ix2 n 0)
      = x (ix2 ⟨n.val + 20000, by omega⟩ 0) := by
  refine extractStridedSlice_apply _ x _ _ _ (fun a => ?_)
  match a with
  | ⟨0, _⟩ => exact Nat.add_comm _ _
  | ⟨1, _⟩ => rfl

/-- Matrix `l` of the three 64×64 matrices through its slice and reshape. -/
theorem mat0 (x : S3x64x64.Idx → EReal) (k j : Fin 64) :
    shapeCast S64x64 (extractStridedSlice S1x64x64 ![0, 0, 0] x slices_S3x64x64_S1x64x64_0_0_0) shapeCasts_S1x64x64_S64x64 (ix2 k j)
      = x (ix3 0 k j) := by
  rw [shapeCast_1ab_ab_apply]
  refine extractStridedSlice_apply _ x _ _ _ (fun a => ?_)
  match a with
  | ⟨0, _⟩ => rfl
  | ⟨1, _⟩ => exact (Nat.zero_add _).symm
  | ⟨2, _⟩ => exact (Nat.zero_add _).symm
theorem mat1 (x : S3x64x64.Idx → EReal) (k j : Fin 64) :
    shapeCast S64x64 (extractStridedSlice S1x64x64 ![1, 0, 0] x slices_S3x64x64_S1x64x64_1_0_0) shapeCasts_S1x64x64_S64x64 (ix2 k j)
      = x (ix3 1 k j) := by
  rw [shapeCast_1ab_ab_apply]
  refine extractStridedSlice_apply _ x _ _ _ (fun a => ?_)
  match a with
  | ⟨0, _⟩ => rfl
  | ⟨1, _⟩ => exact (Nat.zero_add _).symm
  | ⟨2, _⟩ => exact (Nat.zero_add _).symm
theorem mat2 (x : S3x64x64.Idx → EReal) (k j : Fin 64) :
    shapeCast S64x64 (extractStridedSlice S1x64x64 ![2, 0, 0] x slices_S3x64x64_S1x64x64_2_0_0) shapeCasts_S1x64x64_S64x64 (ix2 k j)
      = x (ix3 2 k j) := by
  rw [shapeCast_1ab_ab_apply]
  refine extractStridedSlice_apply _ x _ _ _ (fun a => ?_)
  match a with
  | ⟨0, _⟩ => rfl
  | ⟨1, _⟩ => exact (Nat.zero_add _).symm
  | ⟨2, _⟩ => exact (Nat.zero_add _).symm

/-- Row `l` of the three bias rows through its slice and reshape. -/
theorem bias0 (x : S3x64.Idx → EReal) (j : Fin 64) :
    shapeCast S64 (extractStridedSlice S1x64 ![0, 0] x slices_S3x64_S1x64_0_0) shapeCasts_S1x64_S64 (ix1 j) = x (ix2 0 j) := by
  rw [shapeCast_1a_a_apply]
  refine extractStridedSlice_apply _ x _ _ _ (fun a => ?_)
  match a with
  | ⟨0, _⟩ => rfl
  | ⟨1, _⟩ => exact (Nat.zero_add _).symm
theorem bias1 (x : S3x64.Idx → EReal) (j : Fin 64) :
    shapeCast S64 (extractStridedSlice S1x64 ![1, 0] x slices_S3x64_S1x64_1_0) shapeCasts_S1x64_S64 (ix1 j) = x (ix2 1 j) := by
  rw [shapeCast_1a_a_apply]
  refine extractStridedSlice_apply _ x _ _ _ (fun a => ?_)
  match a with
  | ⟨0, _⟩ => rfl
  | ⟨1, _⟩ => exact (Nat.zero_add _).symm
theorem bias2 (x : S3x64.Idx → EReal) (j : Fin 64) :
    shapeCast S64 (extractStridedSlice S1x64 ![2, 0] x slices_S3x64_S1x64_2_0) shapeCasts_S1x64_S64 (ix1 j) = x (ix2 2 j) := by
  rw [shapeCast_1a_a_apply]
  refine extractStridedSlice_apply _ x _ _ _ (fun a => ?_)
  match a with
  | ⟨0, _⟩ => rfl
  | ⟨1, _⟩ => exact (Nat.zero_add _).symm

/-- The two node types' rows, one block above the other. -/
theorem rows_joined (a : S20000x64.Idx → EReal) (b : S30000x64.Idx → EReal) (n : Fin 50000) (j : Fin 64) :
    concatenate S50000x64 0 [⟨S20000x64, a⟩, ⟨S30000x64, b⟩] concatenates_S20000x64_S30000x64_S50000x64_d0 (ix2 n j)
      = if h : n.val < 20000 then a (ix2 ⟨n.val, h⟩ j) else b (ix2 ⟨n.val - 20000, by omega⟩ j) := by
  split
  · rename_i h
    refine concatenate_pair_apply_left (0 : Fin 2) a b _ (ix2 n j) rfl (ix2 ⟨n.val, h⟩ j) (fun bx => ?_)
    match bx with
    | ⟨0, _⟩ => rfl
    | ⟨1, _⟩ => rfl
  · rename_i h
    refine concatenate_pair_apply_right (0 : Fin 2) a b _ (ix2 n j) rfl rfl (ix2 ⟨n.val - 20000, by omega⟩ j) (fun bx hbx => ?_) ?_
    · match bx with
      | ⟨0, _⟩ => exact absurd rfl hbx
      | ⟨1, _⟩ => rfl
    · show n.val - 20000 + 20000 = n.val
      omega

/-- A start word as the program normalises it, read at an edge. -/
theorem norm_at {R : ℕ} (v : (⟨1, ![R]⟩ : Shape).Idx → BitVec 32) (hb : (⟨1, ![R]⟩ : Shape).BroadcastsInDim ⟨2, ![R, 1]⟩ ![0])
    (h0 h5 : (⟨0, ![]⟩ : Shape).BroadcastsInDim ⟨1, ![R]⟩ ![]) (e : Fin R) :
    broadcastInDim ⟨2, ![R, 1]⟩ ![0] hb
      (select (cmpi .slt v (broadcastInDim ⟨1, ![R]⟩ ![] h0 (constantI S_ 32 0#32)))
        (addi v (broadcastInDim ⟨1, ![R]⟩ ![] h5 (constantI S_ 32 50000#32))) v) (ix2 e 0)
      = Cert.Gcn.normWord (v (ix1 e)) := by
  rw [broadcastInDim_a_a1_apply (a := R) ![0] hb rfl _ e 0]
  show Scalar.select (IntOp.cmpi .slt (v (ix1 e)) (broadcastInDim ⟨1, ![R]⟩ ![] h0 (constantI S_ 32 0#32) (ix1 e)))
      (IntOp.addi (v (ix1 e)) (broadcastInDim ⟨1, ![R]⟩ ![] h5 (constantI S_ 32 50000#32) (ix1 e))) (v (ix1 e)) = _
  rw [broadcastInDim_scalar_apply, broadcastInDim_scalar_apply]
  rfl

/-- A gather of whole rows of the node array at the normalised source words. -/
theorem rows_gathered (X : S50000x64.Idx → EReal) (idx : S1600000x1.Idx → BitVec 32) (w : BitVec 32) (e : Fin 1600000) (j : Fin 64)
    (hw : idx (ix2 e 0) = Cert.Gcn.normWord w) :
    Host.gather gather_S50000x64_S1600000x1_S1600000x64_1_0_n_n_0_1_164 X idx (ix2 e j) = X (ix2 (Cert.Gcn.rowOf w) j) := by
  refine Cert.Lib.GatherRows.gather_rows_apply (N := 50000) (C := 64) (R := 1600000) gather_S50000x64_S1600000x1_S1600000x64_1_0_n_n_0_1_164.wf X idx e j (Cert.Gcn.rowOf w) ?_
  rw [hw]; rfl

/-- The same for the one-column score array at the label words. -/
theorem scores_gathered (S : S50000x1.Idx → EReal) (idx : S200000x1.Idx → BitVec 32) (w : BitVec 32) (i : Fin 200000)
    (hw : idx (ix2 i 0) = Cert.Gcn.normWord w) :
    Host.gather gather_S50000x1_S200000x1_S200000x1_1_0_n_n_0_1_11 S idx (ix2 i 0) = S (ix2 (Cert.Gcn.rowOf w) 0) := by
  refine Cert.Lib.GatherRows.gather_rows_apply (N := 50000) (C := 1) (R := 200000) gather_S50000x1_S200000x1_S200000x1_1_0_n_n_0_1_11.wf S idx i 0 (Cert.Gcn.rowOf w) ?_
  rw [hw]; rfl

/-- The rows delivered to a node, summed from zero. -/
theorem rows_scattered (dst : S1600000.Idx → BitVec 32) (U : S1600000x64.Idx → EReal) (n : Fin 50000) (j : Fin 64) :
    Host.scatterAdd (F := Ideal) scatter_S50000x64_S1600000x1_S1600000x64_1_0_0_1
      (broadcastInDim S50000x64 ![] bcast_S_S50000x64 (constant (F := Ideal) S_ FTy.f32 0x00000000#32))
      (broadcastInDim S1600000x1 ![0] bcast_S1600000_S1600000x1_0 dst) U (ix2 n j)
      = Cert.Gcn.segSum (fun e => (dst (ix1 e)).toInt) (fun e => U (ix2 e j)) n := by
  refine (Cert.LibScatterAdd.scatterAdd_rows_apply (N := 50000) (E := 1600000) (C := 64) scatter_S50000x64_S1600000x1_S1600000x64_1_0_0_1 rfl rfl rfl rfl _ _ _ n j).trans ?_
  unfold Cert.Gcn.segSum
  refine congrArg₂ (· + ·) ?_ (Finset.sum_congr rfl fun e _ => ?_)
  · exact (broadcastInDim_scalar_apply _ _ _ _).trans Ideal.ofBits_zero_f32
  · rw [broadcastInDim_a_a1_apply (a := 1600000) ![0] bcast_S1600000_S1600000x1_0 rfl dst e 0]

/-! ## One round, read by coordinates (over variables) -/

/-- The rows delivered to each node: the source rows gathered at the normalised source words, added into the
    destination rows. -/
def aggOf (Y : S50000x64.Idx → EReal) (src dst : S1600000.Idx → BitVec 32) : S50000x64.Idx → EReal :=
  Host.scatterAdd (F := Ideal) scatter_S50000x64_S1600000x1_S1600000x64_1_0_0_1
    (broadcastInDim S50000x64 ![] bcast_S_S50000x64 (constant (F := Ideal) S_ FTy.f32 0x00000000#32))
    (broadcastInDim S1600000x1 ![0] bcast_S1600000_S1600000x1_0 dst)
    (Host.gather gather_S50000x64_S1600000x1_S1600000x64_1_0_n_n_0_1_164 Y
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

theorem aggOf_at (Y : S50000x64.Idx → EReal) (src dst : S1600000.Idx → BitVec 32) (n : Fin 50000) (j : Fin 64) :
    aggOf Y src dst (ix2 n j)
      = Cert.Gcn.segSum (fun e => (dst (ix1 e)).toInt) (fun e => Y (ix2 (Cert.Gcn.rowOf (src (ix1 e))) j)) n := by
  unfold aggOf
  refine (rows_scattered dst _ n j).trans ?_
  refine congrArg (fun u => Cert.Gcn.segSum (fun e => (dst (ix1 e)).toInt) u n) (funext fun e => ?_)
  exact rows_gathered Y _ (src (ix1 e)) e j (norm_at src _ _ _ e)

/-- The new features of a node from the pre-scaled rows. -/
theorem combine_at (Y : S50000x64.Idx → EReal) (D : S50000x1.Idx → EReal) (B : S64.Idx → EReal)
    (src dst : S1600000.Idx → BitVec 32)
    (key : Fin 1600000 → ℤ) (srow : Fin 1600000 → Fin 50000) (d : Fin 50000 → EReal)
    (y : Fin 50000 → Fin 64 → EReal) (b : Fin 64 → EReal)
    (hY : ∀ n j, Y (ix2 n j) = y n j) (hD : ∀ n, D (ix2 n 0) = d n) (hB : ∀ j, B (ix1 j) = b j)
    (hkey : ∀ e, (dst (ix1 e)).toInt = key e) (hsrow : ∀ e, Cert.Gcn.rowOf (src (ix1 e)) = srow e)
    (n : Fin 50000) (j : Fin 64) :
    Cert.Gcn.combine (aggOf Y src dst) Y D B (ix2 n j) = Cert.Gcn.kStep key srow d y b n j := by
  rw [Cert.Gcn.combine_apply]
  unfold Cert.Gcn.combineAt Cert.Gcn.kStep
  rw [aggOf_at, hD, hY, hB]
  have hk : (fun e => (dst (ix1 e)).toInt) = key := funext hkey
  rw [hk]
  refine congrArg (fun u => max (d n * (Cert.Gcn.segSum key u n + y n j) + b j) 0) (funext fun e => ?_)
  rw [hsrow, hY]

/-- … then through the next matrix and scaled again. -/
theorem round_at (Y : S50000x64.Idx → EReal) (D : S50000x1.Idx → EReal) (B : S64.Idx → EReal) (C : S64x64.Idx → EReal)
    (src dst : S1600000.Idx → BitVec 32)
    (key : Fin 1600000 → ℤ) (srow : Fin 1600000 → Fin 50000) (d : Fin 50000 → EReal)
    (y : Fin 50000 → Fin 64 → EReal) (b : Fin 64 → EReal) (cw : Fin 64 → Fin 64 → EReal)
    (hY : ∀ n j, Y (ix2 n j) = y n j) (hD : ∀ n, D (ix2 n 0) = d n) (hB : ∀ j, B (ix1 j) = b j)
    (hC : ∀ k j, C (ix2 k j) = cw k j)
    (hkey : ∀ e, (dst (ix1 e)).toInt = key e) (hsrow : ∀ e, Cert.Gcn.rowOf (src (ix1 e)) = srow e)
    (n : Fin 50000) (j : Fin 64) :
    Cert.Gcn.matScaled (Cert.Gcn.combine (aggOf Y src dst) Y D B) C D (ix2 n j)
      = Cert.Gcn.scaled d (Cert.Gcn.kStep key srow d y b) cw n j := by
  rw [Cert.Gcn.matScaled_apply]
  unfold Cert.Gcn.matScaledAt Cert.Gcn.scaled Cert.Gcn.mm
  rw [hD]
  refine congrArg (· * d n) (Finset.sum_congr rfl fun k _ => ?_)
  rw [combine_at Y D B src dst key srow d y b hY hD hB hkey hsrow n k, hC]

/-- … or through the 64×1 matrix to one score per node. -/
theorem score_at (Y : S50000x64.Idx → EReal) (D : S50000x1.Idx → EReal) (B : S64.Idx → EReal) (Lw : S64x1.Idx → EReal)
    (Lb : S1.Idx → EReal) (src dst : S1600000.Idx → BitVec 32)
    (key : Fin 1600000 → ℤ) (srow : Fin 1600000 → Fin 50000) (d : Fin 50000 → EReal)
    (y : Fin 50000 → Fin 64 → EReal) (b : Fin 64 → EReal)
    (hY : ∀ n j, Y (ix2 n j) = y n j) (hD : ∀ n, D (ix2 n 0) = d n) (hB : ∀ j, B (ix1 j) = b j)
    (hkey : ∀ e, (dst (ix1 e)).toInt = key e) (hsrow : ∀ e, Cert.Gcn.rowOf (src (ix1 e)) = srow e)
    (n : Fin 50000) :
    Cert.Gcn.score (Cert.Gcn.combine (aggOf Y src dst) Y D B) Lw Lb (ix2 n 0)
      = ∑ k : Fin 64, Cert.Gcn.kStep key srow d y b n k * Cert.Gcn.lwOf Lw k + Cert.Gcn.lbOf Lb := by
  rw [Cert.Gcn.score_apply]
  unfold Cert.Gcn.scoreAt Cert.Gcn.lwOf Cert.Gcn.lbOf
  refine congrArg (· + Lb (ix1 0)) (Finset.sum_congr rfl fun k _ => ?_)
  rw [combine_at Y D B src dst key srow d y b hY hD hB hkey hsrow n k]

end Cert.KernelIdeal.Chain
end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.Region0.lean ====
/-
  The first projection kernel, read as one function of its input arrays.

  The node array has 20000 rows; the grid has 10 points and point t works on rows 2000·t … 2000·t + 1999: its block of
  the input x is those rows (all 128 columns), its block of the column d is those rows, and its output block is those
  rows (all 64 columns). The weight matrix W (128×64), the bias row b (64) and the matrix C (64×64) are read whole at
  every point. Entry (n, j) of the output depends only on row n of x, entry n of d, and on W, b, C:
  it is (Σ_k max (Σ_l x(n,l)·W(l,k) + b(k)) 0 · C(k,j)) · d(n). The roundings to the 16-bit format are the identity
  over the extended reals. The ten output blocks tile the array — row r lies in the block of point r / 2000 — so after
  the ten write-backs the whole output array is that function of the input arrays.
-/
import proofs.«133231_j73280732004420_2_alg».proof.Proof.Gen.KernelIdeal.Frame
import proofs.«133231_j73280732004420_2_alg».proof.Proof.Spec
import proofs.«133231_j73280732004420_2_alg».proof.Proof.LibMatmulNN
import proofs.«133231_j73280732004420_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-! ## The body's arithmetic at one entry -/

/-- Entry (p, k) of max (x·W + b) 0 on a block of 2000 rows. -/
theorem hidden_apply (x : Vec Ideal S2000x128 .f32) (w : Vec Ideal S128x64 .f32) (b : Vec Ideal S64 .f32)
    (p : Fin 2000) (k : Fin 64) :
    (maximumf
        (addf
          (matmul dot_S2000x128_S128x64_S2000x64_1_0_0_1_n_n none (truncf FTy.bf16 x bitsLt_bf16_f32)
            (truncf FTy.bf16 w bitsLt_bf16_f32) (constant S2000x64 FTy.f32 0x00000000#32))
          (broadcastTo S2000x64 (shapeCast S1x64 b shapeCasts_S64_S1x64) broadcasts_S1x64_S2000x64))
        (broadcast S2000x64 (FloatOps.ofBits FTy.f32 0x00000000#32)) : FVec Ideal S2000x64 .f32) (ix2 p k)
      = Cert.Gcn.hiddenAt x w b p k := by
  refine (maximumf_apply _ _ _).trans ?_
  refine congrArg₂ max ?_ Ideal.ofBits_zero_f32
  refine (addf_apply _ _ _).trans ?_
  refine congrArg₂ (· + ·) ?_ ?_
  · exact Cert.LibMatmulNN.matmul_nn_apply dot_S2000x128_S128x64_S2000x64_1_0_0_1_n_n rfl rfl rfl rfl rfl rfl none
      (truncf FTy.bf16 x bitsLt_bf16_f32) (truncf FTy.bf16 w bitsLt_bf16_f32) p k
  · refine (broadcastTo_1b_ab_apply (shapeCast S1x64 b shapeCasts_S64_S1x64) broadcasts_S1x64_S2000x64 p k).trans ?_
    exact shapeCast_a_1a_apply b shapeCasts_S64_S1x64 0 k

/-- Entry (p, q) of the body's result on a block of 2000 rows: ((max (x·W + b) 0)·C)·d. -/
theorem payload_apply (x : Vec Ideal S2000x128 .f32) (w : Vec Ideal S128x64 .f32) (b : Vec Ideal S64 .f32)
    (cw : Vec Ideal S64x64 .f32) (d : Vec Ideal S2000x1 .f32) (p : Fin 2000) (q : Fin 64) :
    Gen.k0_pay1 (F := Ideal) x w b cw d (ix2 p q) = Cert.Gcn.projScaledAt x w b cw d p q := by
  unfold Gen.k0_pay1
  refine (mulf_apply _ _ _).trans ?_
  unfold Cert.Gcn.projScaledAt
  refine congrArg₂ (· * ·) ?_ ?_
  · refine (Cert.LibMatmulNN.matmul_nn_apply dot_S2000x64_S64x64_S2000x64_1_0_0_1_n_n rfl rfl rfl rfl rfl rfl none
      _ _ p q).trans ?_
    refine Finset.sum_congr rfl fun k _ => ?_
    refine congrArg₂ (· * ·) ?_ ?_
    · exact hidden_apply x w b p k
    · show shapeCast S64x64 cw shapeCasts_S64x64_S64x64 (ix2 k q) = cw (ix2 k q)
      rw [shapeCast_self]
  · refine (Cert.LibColumns.broadcastTo_a1_ab_apply (shapeCast S2000x1 d shapeCasts_S2000x1_S2000x1)
      broadcasts_S2000x1_S2000x64 p q).trans ?_
    rw [shapeCast_self]

/-- The entry depends on x and d only through row p: rows that agree give the same entry. -/
theorem projScaledAt_of_rows {R K Rb : ℕ} (X : Cert.Gcn.A2 R K) (W : Cert.Gcn.A2 K 64) (B : Cert.Gcn.A1 64)
    (C : Cert.Gcn.A2 64 64) (D : Cert.Gcn.A2 R 1) (x : Cert.Gcn.A2 Rb K) (d : Cert.Gcn.A2 Rb 1) (p : Fin Rb) (n : Fin R)
    (hx : ∀ l : Fin K, x (ix2 p l) = X (ix2 n l)) (hd : d (ix2 p 0) = D (ix2 n 0)) (q : Fin 64) :
    Cert.Gcn.projScaledAt x W B C d p q = Cert.Gcn.projScaledAt X W B C D n q := by
  unfold Cert.Gcn.projScaledAt Cert.Gcn.hiddenAt
  rw [hd]
  simp only [hx]

/-! ## The blocks: which rows of the arrays a point reads and writes -/

/-- Where each window's block sits at point t: the row windows at block t, the whole-array windows at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem grid_points : cfg0.N = 10 := N_0

/-- Row p of point t's block of x is row 2000·t + p of x. -/
theorem x_block_apply (c : Dev nD) (t : Fin cfg0.N) (p : Fin 2000) (l : Fin 128) (n : Fin 20000)
    (hn : n.val = t.val * 2000 + p.val) :
    (Gen.iblk0 V c 0 t : Vec Ideal S2000x128 .f32) (ix2 p l)
      = (V c (Pipeline.arrRef spec0 0) : Cert.Gcn.A2 20000 128) (ix2 n l) := by
  obtain ⟨e0, e1, -⟩ := index_facts t
  unfold Gen.iblk0
  rw [View.read_apply]
  refine congrArg (V c (Pipeline.arrRef spec0 0) : Cert.Gcn.A2 20000 128) (funext fun a => Fin.ext ?_)
  match a with
  | ⟨0, _⟩ => show win0_0.index t (0 : Fin 2) * 2000 + 1 * p.val = n.val; rw [e0, hn]; omega
  | ⟨1, _⟩ => show win0_0.index t (1 : Fin 2) * 128 + 1 * l.val = l.val; rw [e1]; omega

/-- Row p of point t's block of d is row 2000·t + p of d. -/
theorem d_block_apply (c : Dev nD) (t : Fin cfg0.N) (p : Fin 2000) (u : Fin 1) (n : Fin 20000)
    (hn : n.val = t.val * 2000 + p.val) :
    (Gen.iblk0 V c 4 t : Vec Ideal S2000x1 .f32) (ix2 p u)
      = (V c (Pipeline.arrRef spec0 4) : Cert.Gcn.A2 20000 1) (ix2 n u) := by
  obtain ⟨-, -, -, -, -, -, -, e0, e1, -⟩ := index_facts t
  unfold Gen.iblk0
  rw [View.read_apply]
  refine congrArg (V c (Pipeline.arrRef spec0 4) : Cert.Gcn.A2 20000 1) (funext fun a => Fin.ext ?_)
  match a with
  | ⟨0, _⟩ => show win0_4.index t (0 : Fin 2) * 2000 + 1 * p.val = n.val; rw [e0, hn]; omega
  | ⟨1, _⟩ => show win0_4.index t (1 : Fin 2) * 1 + 1 * u.val = u.val; rw [e1]; omega

/-- The block of W at any point is all of W. -/
theorem w_block_eq (c : Dev nD) (t : Fin cfg0.N) :
    (Gen.iblk0 V c 1 t : Vec Ideal S128x64 .f32) = (V c (Pipeline.arrRef spec0 1) : Cert.Gcn.A2 128 64) := by
  obtain ⟨-, -, e0, e1, -⟩ := index_facts t
  funext j
  unfold Gen.iblk0
  rw [View.read_apply]
  refine congrArg (V c (Pipeline.arrRef spec0 1) : Cert.Gcn.A2 128 64) (funext fun a => Fin.ext ?_)
  match a with
  | ⟨0, _⟩ => show win0_1.index t (0 : Fin 2) * 128 + 1 * (j 0).val = (j 0).val; rw [e0]; omega
  | ⟨1, _⟩ => show win0_1.index t (1 : Fin 2) * 64 + 1 * (j 1).val = (j 1).val; rw [e1]; omega

/-- The block of b at any point is all of b. -/
theorem b_block_eq (c : Dev nD) (t : Fin cfg0.N) :
    (Gen.iblk0 V c 2 t : Vec Ideal S64 .f32) = (V c (Pipeline.arrRef spec0 2) : Cert.Gcn.A1 64) := by
  obtain ⟨-, -, -, -, e0, -⟩ := index_facts t
  funext j
  unfold Gen.iblk0
  rw [View.read_apply]
  refine congrArg (V c (Pipeline.arrRef spec0 2) : Cert.Gcn.A1 64) (funext fun a => Fin.ext ?_)
  match a with
  | ⟨0, _⟩ => show win0_2.index t (0 : Fin 1) * 64 + 1 * (j 0).val = (j 0).val; rw [e0]; omega

/-- The block of C at any point is all of C. -/
theorem c_block_eq (c : Dev nD) (t : Fin cfg0.N) :
    (Gen.iblk0 V c 3 t : Vec Ideal S64x64 .f32) = (V c (Pipeline.arrRef spec0 3) : Cert.Gcn.A2 64 64) := by
  obtain ⟨-, -, -, -, -, e0, e1, -⟩ := index_facts t
  funext j
  unfold Gen.iblk0
  rw [View.read_apply]
  refine congrArg (V c (Pipeline.arrRef spec0 3) : Cert.Gcn.A2 64 64) (funext fun a => Fin.ext ?_)
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-! ## What a point writes back, and the whole array -/

/-- What point t writes back is block t of the whole-array function of the region's input arrays. -/
theorem flushed0_eq (c : Dev nD) (t : Fin cfg0.N) :
    (Gen.dat0 (F := Ideal) V c).flushed 5 t
      = ((cfg0.win 5).blk t).view.read (Elt Ideal)
          (Cert.Gcn.projScaled (V c (Pipeline.arrRef spec0 0)) (V c (Pipeline.arrRef spec0 1)) (V c (Pipeline.arrRef spec0 2))
            (V c (Pipeline.arrRef spec0 3)) (V c (Pipeline.arrRef spec0 4))) := by
  show (cfg0.win 5).cut (grid0.coords t) ((Gen.dat0 (F := Ideal) V c).after 5 t) = _
  rw [Gen.after0_5]
  unfold Gen.out0_5
  rw [View.canon_unit_zero zero_offsets2]
  simp only [View.ld_unit_zero (S := S2000x128) zero_offsets2, View.ld_unit_zero (S := S128x64) zero_offsets2,
    View.ld_unit_zero (S := S64) zero_offsets1, View.ld_unit_zero (S := S64x64) zero_offsets2,
    View.ld_unit_zero (S := S2000x1) zero_offsets2]
  obtain ⟨-, -, -, -, -, -, -, -, -, e0, e1⟩ := index_facts t
  have ht : t.val < 10 := lt_of_lt_of_eq t.isLt grid_points
  funext j
  obtain ⟨p, q, rfl⟩ : ∃ (p : Fin 2000) (q : Fin 64), j = ix2 p q := ⟨j 0, j 1, eq_ix2 j⟩
  have hp : p.val < 2000 := p.isLt
  refine (payload_apply _ _ _ _ _ p q).trans ?_
  rw [w_block_eq, b_block_eq, c_block_eq]
  refine (projScaledAt_of_rows (V c (Pipeline.arrRef spec0 0)) _ _ _ (V c (Pipeline.arrRef spec0 4)) _ _ p
    ⟨t.val * 2000 + p.val, by omega⟩ (fun l => x_block_apply V c t p l _ rfl) (d_block_apply V c t p 0 _ rfl) q).trans ?_
  rw [View.read_apply]
  have h0 : (((cfg0.win 5).blk t).view.emb (ix2 p q)) (0 : Fin 2) = (⟨t.val * 2000 + p.val, by omega⟩ : Fin 20000) :=
    Fin.ext (by show win0_5.index t (0 : Fin 2) * 2000 + 1 * p.val = t.val * 2000 + p.val; rw [e0]; omega)
  have h1 : (((cfg0.win 5).blk t).view.emb (ix2 p q)) (1 : Fin 2) = q :=
    Fin.ext (by show win0_5.index t (1 : Fin 2) * 64 + 1 * q.val = q.val; rw [e1]; omega)
  show Cert.Gcn.projScaledAt _ _ _ _ _ _ q
    = Cert.Gcn.projScaledAt _ _ _ _ _ ((((cfg0.win 5).blk t).view.emb (ix2 p q)) (0 : Fin 2)) ((((cfg0.win 5).blk t).view.emb (ix2 p q)) (1 : Fin 2))
  exact (congrArg₂ (Cert.Gcn.projScaledAt (V c (Pipeline.arrRef spec0 0)) (V c (Pipeline.arrRef spec0 1))
    (V c (Pipeline.arrRef spec0 2)) (V c (Pipeline.arrRef spec0 3)) (V c (Pipeline.arrRef spec0 4))) h0 h1).symm

/-- Every entry of the output array is in some point's block: row r in the block of point r / 2000. -/
theorem covered (i : S20000x64.Idx) :
    ∃ t : Fin cfg0.N, (cfg0.win 5).flush t = true ∧ i ∈ ((cfg0.win 5).blk t).view.set := by
  have hi0 : (i 0).val < 20000 := (i 0).isLt
  have hi1 : (i 1).val < 64 := (i 1).isLt
  obtain ⟨t, ht⟩ : ∃ t : Fin cfg0.N, t.val = (i 0).val / 2000 :=
    ⟨⟨(i 0).val / 2000, by have hN : grid0.N = 10 := N_0; show (i 0).val / 2000 < grid0.N; omega⟩, rfl⟩
  obtain ⟨-, -, -, -, -, -, -, -, -, e0, e1⟩ := index_facts t
  refine ⟨t, flush0_5 t, ?_⟩
  show i ∈ ((View.whole main_v16).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 64 ≤ (i 1).val ∧ (i 1).val < win0_5.index t (1 : Fin 2) * 64 + 64
    rw [e1]; omega

/-- The output array after the region: the whole-array function of the region's input arrays. -/
theorem final0 (c : Dev nD) :
    (Gen.dat0 (F := Ideal) V c).arrAt 5 cfg0.N
      = Cert.Gcn.projScaled (V c (Pipeline.arrRef spec0 0)) (V c (Pipeline.arrRef spec0 1)) (V c (Pipeline.arrRef spec0 2)) (V c (Pipeline.arrRef spec0 3)) (V c (Pipeline.arrRef spec0 4)) :=
  (Gen.dat0 (F := Ideal) V c).arrAt_eq_of_cover 5 _ (fun t _ => flushed0_eq V c t) (fun i => covered i)

end Cert.KernelIdeal.RegionValue

end
-- ==== Proof.Region1.lean ====
/-
  The second projection kernel, read as one function of its input arrays.

  The node array has 30000 rows; the grid has 10 points and point t works on rows 3000·t … 3000·t + 2999: its block of
  the input x is those rows (all 256 columns), its block of the column d is those rows, and its output block is those
  rows (all 64 columns). The weight matrix W (256×64), the bias row b (64) and the matrix C (64×64) are read whole at
  every point. Entry (n, j) of the output depends only on row n of x, entry n of d, and on W, b, C:
  it is (Σ_k max (Σ_l x(n,l)·W(l,k) + b(k)) 0 · C(k,j)) · d(n). The roundings to the 16-bit format are the identity
  over the extended reals. The ten output blocks tile the array — row r lies in the block of point r / 3000 — so after
  the ten write-backs the whole output array is that function of the input arrays.
-/
import proofs.«133231_j73280732004420_2_alg».proof.Proof.Gen.KernelIdeal.Frame
import proofs.«133231_j73280732004420_2_alg».proof.Proof.Spec
import proofs.«133231_j73280732004420_2_alg».proof.Proof.LibMatmulNN
import proofs.«133231_j73280732004420_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

private theorem zero_offsets2 : (![0, 0] : Fin 2 → Nat) = fun _ => 0 := funext fun a => by fin_cases a <;> rfl
private theorem zero_offsets1 : (![0] : Fin 1 → Nat) = fun _ => 0 := funext fun a => by fin_cases a; rfl

/-! ## The body's arithmetic at one entry -/

/-- Entry (p, k) of max (x·W + b) 0 on a block of 3000 rows. -/
theorem hidden1_apply (x : Vec Ideal S3000x256 .f32) (w : Vec Ideal S256x64 .f32) (b : Vec Ideal S64 .f32)
    (p : Fin 3000) (k : Fin 64) :
    (maximumf
        (addf
          (matmul dot_S3000x256_S256x64_S3000x64_1_0_0_1_n_n none (truncf FTy.bf16 x bitsLt_bf16_f32)
            (truncf FTy.bf16 w bitsLt_bf16_f32) (constant S3000x64 FTy.f32 0x00000000#32))
          (broadcastTo S3000x64 (shapeCast S1x64 b shapeCasts_S64_S1x64) broadcasts_S1x64_S3000x64))
        (broadcast S3000x64 (FloatOps.ofBits FTy.f32 0x00000000#32)) : FVec Ideal S3000x64 .f32) (ix2 p k)
      = Cert.Gcn.hiddenAt x w b p k := by
  refine (maximumf_apply _ _ _).trans ?_
  refine congrArg₂ max ?_ Ideal.ofBits_zero_f32
  refine (addf_apply _ _ _).trans ?_
  refine congrArg₂ (· + ·) ?_ ?_
  · exact Cert.LibMatmulNN.matmul_nn_apply dot_S3000x256_S256x64_S3000x64_1_0_0_1_n_n rfl rfl rfl rfl rfl rfl none
      (truncf FTy.bf16 x bitsLt_bf16_f32) (truncf FTy.bf16 w bitsLt_bf16_f32) p k
  · refine (broadcastTo_1b_ab_apply (shapeCast S1x64 b shapeCasts_S64_S1x64) broadcasts_S1x64_S3000x64 p k).trans ?_
    exact shapeCast_a_1a_apply b shapeCasts_S64_S1x64 0 k

/-- Entry (p, q) of the body's result on a block of 3000 rows: ((max (x·W + b) 0)·C)·d. -/
theorem payload1_apply (x : Vec Ideal S3000x256 .f32) (w : Vec Ideal S256x64 .f32) (b : Vec Ideal S64 .f32)
    (cw : Vec Ideal S64x64 .f32) (d : Vec Ideal S3000x1 .f32) (p : Fin 3000) (q : Fin 64) :
    Gen.k1_pay1 (F := Ideal) x w b cw d (ix2 p q) = Cert.Gcn.projScaledAt x w b cw d p q := by
  unfold Gen.k1_pay1
  refine (mulf_apply _ _ _).trans ?_
  unfold Cert.Gcn.projScaledAt
  refine congrArg₂ (· * ·) ?_ ?_
  · refine (Cert.LibMatmulNN.matmul_nn_apply dot_S3000x64_S64x64_S3000x64_1_0_0_1_n_n rfl rfl rfl rfl rfl rfl none
      _ _ p q).trans ?_
    refine Finset.sum_congr rfl fun k _ => ?_
    refine congrArg₂ (· * ·) ?_ ?_
    · exact hidden1_apply x w b p k
    · show shapeCast S64x64 cw shapeCasts_S64x64_S64x64 (ix2 k q) = cw (ix2 k q)
      rw [shapeCast_self]
  · refine (Cert.LibColumns.broadcastTo_a1_ab_apply (shapeCast S3000x1 d shapeCasts_S3000x1_S3000x1)
      broadcasts_S3000x1_S3000x64 p q).trans ?_
    rw [shapeCast_self]

/-- The entry depends on x and d only through row p: rows that agree give the same entry. -/
private theorem projScaledAt_of_rows {R K Rb : ℕ} (X : Cert.Gcn.A2 R K) (W : Cert.Gcn.A2 K 64) (B : Cert.Gcn.A1 64)
    (C : Cert.Gcn.A2 64 64) (D : Cert.Gcn.A2 R 1) (x : Cert.Gcn.A2 Rb K) (d : Cert.Gcn.A2 Rb 1) (p : Fin Rb) (n : Fin R)
    (hx : ∀ l : Fin K, x (ix2 p l) = X (ix2 n l)) (hd : d (ix2 p 0) = D (ix2 n 0)) (q : Fin 64) :
    Cert.Gcn.projScaledAt x W B C d p q = Cert.Gcn.projScaledAt X W B C D n q := by
  unfold Cert.Gcn.projScaledAt Cert.Gcn.hiddenAt
  rw [hd]
  simp only [hx]

/-! ## The blocks: which rows of the arrays a point reads and writes -/

/-- Where each window's block sits at point t: the row windows at block t, the whole-array windows at block 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem grid_points1 : cfg1.N = 10 := N_1

/-- Row p of point t's block of x is row 3000·t + p of x. -/
theorem x_block1_apply (c : Dev nD) (t : Fin cfg1.N) (p : Fin 3000) (l : Fin 256) (n : Fin 30000)
    (hn : n.val = t.val * 3000 + p.val) :
    (Gen.iblk1 V c 0 t : Vec Ideal S3000x256 .f32) (ix2 p l)
      = (V c (Pipeline.arrRef spec1 0) : Cert.Gcn.A2 30000 256) (ix2 n l) := by
  obtain ⟨e0, e1, -⟩ := index_facts1 t
  unfold Gen.iblk1
  rw [View.read_apply]
  refine congrArg (V c (Pipeline.arrRef spec1 0) : Cert.Gcn.A2 30000 256) (funext fun a => Fin.ext ?_)
  match a with
  | ⟨0, _⟩ => show win1_0.index t (0 : Fin 2) * 3000 + 1 * p.val = n.val; rw [e0, hn]; omega
  | ⟨1, _⟩ => show win1_0.index t (1 : Fin 2) * 256 + 1 * l.val = l.val; rw [e1]; omega

/-- Row p of point t's block of d is row 3000·t + p of d. -/
theorem d_block1_apply (c : Dev nD) (t : Fin cfg1.N) (p : Fin 3000) (u : Fin 1) (n : Fin 30000)
    (hn : n.val = t.val * 3000 + p.val) :
    (Gen.iblk1 V c 4 t : Vec Ideal S3000x1 .f32) (ix2 p u)
      = (V c (Pipeline.arrRef spec1 4) : Cert.Gcn.A2 30000 1) (ix2 n u) := by
  obtain ⟨-, -, -, -, -, -, -, e0, e1, -⟩ := index_facts1 t
  unfold Gen.iblk1
  rw [View.read_apply]
  refine congrArg (V c (Pipeline.arrRef spec1 4) : Cert.Gcn.A2 30000 1) (funext fun a => Fin.ext ?_)
  match a with
  | ⟨0, _⟩ => show win1_4.index t (0 : Fin 2) * 3000 + 1 * p.val = n.val; rw [e0, hn]; omega
  | ⟨1, _⟩ => show win1_4.index t (1 : Fin 2) * 1 + 1 * u.val = u.val; rw [e1]; omega

/-- The block of W at any point is all of W. -/
theorem w_block1_eq (c : Dev nD) (t : Fin cfg1.N) :
    (Gen.iblk1 V c 1 t : Vec Ideal S256x64 .f32) = (V c (Pipeline.arrRef spec1 1) : Cert.Gcn.A2 256 64) := by
  obtain ⟨-, -, e0, e1, -⟩ := index_facts1 t
  funext j
  unfold Gen.iblk1
  rw [View.read_apply]
  refine congrArg (V c (Pipeline.arrRef spec1 1) : Cert.Gcn.A2 256 64) (funext fun a => Fin.ext ?_)
  match a with
  | ⟨0, _⟩ => show win1_1.index t (0 : Fin 2) * 256 + 1 * (j 0).val = (j 0).val; rw [e0]; omega
  | ⟨1, _⟩ => show win1_1.index t (1 : Fin 2) * 64 + 1 * (j 1).val = (j 1).val; rw [e1]; omega

/-- The block of b at any point is all of b. -/
theorem b_block1_eq (c : Dev nD) (t : Fin cfg1.N) :
    (Gen.iblk1 V c 2 t : Vec Ideal S64 .f32) = (V c (Pipeline.arrRef spec1 2) : Cert.Gcn.A1 64) := by
  obtain ⟨-, -, -, -, e0, -⟩ := index_facts1 t
  funext j
  unfold Gen.iblk1
  rw [View.read_apply]
  refine congrArg (V c (Pipeline.arrRef spec1 2) : Cert.Gcn.A1 64) (funext fun a => Fin.ext ?_)
  match a with
  | ⟨0, _⟩ => show win1_2.index t (0 : Fin 1) * 64 + 1 * (j 0).val = (j 0).val; rw [e0]; omega

/-- The block of C at any point is all of C. -/
theorem c_block1_eq (c : Dev nD) (t : Fin cfg1.N) :
    (Gen.iblk1 V c 3 t : Vec Ideal S64x64 .f32) = (V c (Pipeline.arrRef spec1 3) : Cert.Gcn.A2 64 64) := by
  obtain ⟨-, -, -, -, -, e0, e1, -⟩ := index_facts1 t
  funext j
  unfold Gen.iblk1
  rw [View.read_apply]
  refine congrArg (V c (Pipeline.arrRef spec1 3) : Cert.Gcn.A2 64 64) (funext fun a => Fin.ext ?_)
  match a with
  | ⟨0, _⟩ => show win1_3.index t (0 : Fin 2) * 64 + 1 * (j 0).val = (j 0).val; rw [e0]; omega
  | ⟨1, _⟩ => show win1_3.index t (1 : Fin 2) * 64 + 1 * (j 1).val = (j 1).val; rw [e1]; omega

/-! ## What a point writes back, and the whole array -/

/-- What point t writes back is block t of the whole-array function of the region's input arrays. -/
theorem flushed1_eq (c : Dev nD) (t : Fin cfg1.N) :
    (Gen.dat1 (F := Ideal) V c).flushed 5 t
      = ((cfg1.win 5).blk t).view.read (Elt Ideal)
          (Cert.Gcn.projScaled (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((Gen.dat1 (F := Ideal) V c).after 5 t) = _
  rw [Gen.after1_5]
  unfold Gen.out1_5
  rw [View.canon_unit_zero zero_offsets2]
  simp only [View.ld_unit_zero (S := S3000x256) zero_offsets2, View.ld_unit_zero (S := S256x64) zero_offsets2,
    View.ld_unit_zero (S := S64) zero_offsets1, View.ld_unit_zero (S := S64x64) zero_offsets2,
    View.ld_unit_zero (S := S3000x1) zero_offsets2]
  obtain ⟨-, -, -, -, -, -, -, -, -, e0, e1⟩ := index_facts1 t
  have ht : t.val < 10 := lt_of_lt_of_eq t.isLt grid_points1
  funext j
  obtain ⟨p, q, rfl⟩ : ∃ (p : Fin 3000) (q : Fin 64), j = ix2 p q := ⟨j 0, j 1, eq_ix2 j⟩
  have hp : p.val < 3000 := p.isLt
  refine (payload1_apply _ _ _ _ _ p q).trans ?_
  rw [w_block1_eq, b_block1_eq, c_block1_eq]
  refine (projScaledAt_of_rows (V c (Pipeline.arrRef spec1 0)) _ _ _ (V c (Pipeline.arrRef spec1 4)) _ _ p
    ⟨t.val * 3000 + p.val, by omega⟩ (fun l => x_block1_apply V c t p l _ rfl) (d_block1_apply V c t p 0 _ rfl) q).trans ?_
  rw [View.read_apply]
  have h0 : (((cfg1.win 5).blk t).view.emb (ix2 p q)) (0 : Fin 2) = (⟨t.val * 3000 + p.val, by omega⟩ : Fin 30000) :=
    Fin.ext (by show win1_5.index t (0 : Fin 2) * 3000 + 1 * p.val = t.val * 3000 + p.val; rw [e0]; omega)
  have h1 : (((cfg1.win 5).blk t).view.emb (ix2 p q)) (1 : Fin 2) = q :=
    Fin.ext (by show win1_5.index t (1 : Fin 2) * 64 + 1 * q.val = q.val; rw [e1]; omega)
  show Cert.Gcn.projScaledAt _ _ _ _ _ _ q
    = Cert.Gcn.projScaledAt _ _ _ _ _ ((((cfg1.win 5).blk t).view.emb (ix2 p q)) (0 : Fin 2)) ((((cfg1.win 5).blk t).view.emb (ix2 p q)) (1 : Fin 2))
  exact (congrArg₂ (Cert.Gcn.projScaledAt (V c (Pipeline.arrRef spec1 0)) (V c (Pipeline.arrRef spec1 1))
    (V c (Pipeline.arrRef spec1 2)) (V c (Pipeline.arrRef spec1 3)) (V c (Pipeline.arrRef spec1 4))) h0 h1).symm

/-- Every entry of the output array is in some point's block: row r in the block of point r / 3000. -/
theorem covered1 (i : S30000x64.Idx) :
    ∃ t : Fin cfg1.N, (cfg1.win 5).flush t = true ∧ i ∈ ((cfg1.win 5).blk t).view.set := by
  have hi0 : (i 0).val < 30000 := (i 0).isLt
  have hi1 : (i 1).val < 64 := (i 1).isLt
  obtain ⟨t, ht⟩ : ∃ t : Fin cfg1.N, t.val = (i 0).val / 3000 :=
    ⟨⟨(i 0).val / 3000, by have hN : grid1.N = 10 := N_1; show (i 0).val / 3000 < grid1.N; omega⟩, rfl⟩
  obtain ⟨-, -, -, -, -, -, -, -, -, e0, e1⟩ := index_facts1 t
  refine ⟨t, flush1_5 t, ?_⟩
  show i ∈ ((View.whole main_v19).slice (win1_5.rect t)).set
  rw [View.set_slice_whole, Rect.mem_set_unit]
  intro a
  match a with
  | ⟨0, _⟩ =>
    show win1_5.index t (0 : Fin 2) * 3000 ≤ (i 0).val ∧ (i 0).val < win1_5.index t (0 : Fin 2) * 3000 + 3000
    rw [e0, ht]; omega
  | ⟨1, _⟩ =>
    show win1_5.index t (1 : Fin 2) * 64 ≤ (i 1).val ∧ (i 1).val < win1_5.index t (1 : Fin 2) * 64 + 64
    rw [e1]; omega

/-- The output array after the region: the whole-array function of the region's input arrays. -/
theorem final1 (c : Dev nD) :
    (Gen.dat1 (F := Ideal) V c).arrAt 5 cfg1.N
      = Cert.Gcn.projScaled (V c (Pipeline.arrRef spec1 0)) (V c (Pipeline.arrRef spec1 1)) (V c (Pipeline.arrRef spec1 2)) (V c (Pipeline.arrRef spec1 3)) (V c (Pipeline.arrRef spec1 4)) :=
  (Gen.dat1 (F := Ideal) V c).arrAt_eq_of_cover 5 _ (fun t _ => flushed1_eq V c t) (fun i => covered1 i)

end Cert.KernelIdeal.RegionValue

end
-- ==== Proof.Region2.lean ====
/-
  Region 2: the combine-and-multiply kernel over ten blocks of 5000 node rows.

  A block is 5000 consecutive rows of a node array with all of its 64 columns; block `t` holds rows
  `5000·t … 5000·t + 4999`.  At a point of the grid the body reads the block of the edge sums `agg`, the block of the
  node's own scaled rows `y`, the block of the column `d`, the whole bias row `b` and the whole 64×64 matrix `C`, and
  writes the block of `((max (d·(agg + y) + b) 0) · C) · d`.  Entry `(n, j)` of the result depends on row `n` of `agg`,
  `y` and `d` only, on all of `b` and on column `j` of `C`; the ten blocks tile the 50000 rows exactly, so the
  output array ends as one function of the whole input arrays.
-/
import proofs.«133231_j73280732004420_2_alg».proof.Proof.Gen.KernelIdeal.Frame
import proofs.«133231_j73280732004420_2_alg».proof.Proof.Spec
import proofs.«133231_j73280732004420_2_alg».proof.Proof.LibMatmulNN
import proofs.«133231_j73280732004420_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry of a block -/

theorem zeroOffs1_r2 : (![0] : Fin 1 → Nat) = fun _ => 0 := funext fun a => by fin_cases a; rfl
theorem zeroOffs2_r2 : (![0, 0] : Fin 2 → Nat) = fun _ => 0 := funext fun a => by fin_cases a <;> rfl

/-- Entry `(p, q)` of the body's result on blocks `d`, `agg`, `y`, the bias row `b` and the matrix `C`: row `p` of
    `max (d·(agg + y) + b) 0` times column `q` of `C`, times `d` at row `p`. -/
theorem pay2_apply (d : Vec Ideal S5000x1 .f32) (agg y : Vec Ideal S5000x64 .f32) (b : Vec Ideal S64 .f32)
    (C : Vec Ideal S64x64 .f32) (p : Fin 5000) (q : Fin 64) :
    k2_pay1 d agg y b C (ix2 p q)
      = (∑ k : Fin 64, max (d (ix2 p 0) * (agg (ix2 p k) + y (ix2 p k)) + b (ix1 k)) 0 * C (ix2 k q)) * d (ix2 p 0) := by
  unfold k2_pay1
  simp only [shapeCast_self]
  refine (mulf_apply _ _ _).trans ?_
  rw [Cert.LibColumns.broadcastTo_a1_ab_apply]
  congr 1
  refine (Cert.LibMatmulNN.matmul_nn_apply dot_S5000x64_S64x64_S5000x64_1_0_0_1_n_n rfl rfl rfl rfl rfl rfl none _ _ p q).trans ?_
  refine Finset.sum_congr rfl fun k _ => ?_
  rw [truncf_apply, truncf_apply, maximumf_apply, addf_apply, mulf_apply, addf_apply, broadcast_apply,
    Cert.LibColumns.broadcastTo_a1_ab_apply, broadcastTo_1b_ab_apply, shapeCast_a_1a_apply]
  rw [show (Scalar.ofBits (F := Ideal) .f32 0x00000000#32) = (0 : EReal) from Ideal.ofBits_zero_f32]

/-- When the blocks hold row `n` of the arrays at block row `p` (and the bias row and the matrix are whole), the body's
    entry `(p, q)` is entry `(n, q)` of `((max (d·(agg + y) + b) 0) · C) · d` of the whole arrays. -/
theorem pay2_eq_spec {N : ℕ} (agg y : Cert.Gcn.A2 N 64) (d : Cert.Gcn.A2 N 1) (b : Cert.Gcn.A1 64) (cw : Cert.Gcn.A2 64 64)
    (D : Vec Ideal S5000x1 .f32) (AGG Y : Vec Ideal S5000x64 .f32) (B : Vec Ideal S64 .f32) (CC : Vec Ideal S64x64 .f32)
    (p : Fin 5000) (q : Fin 64) (n : Fin N)
    (hD : D (ix2 p 0) = d (ix2 n 0)) (hA : ∀ k, AGG (ix2 p k) = agg (ix2 n k)) (hY : ∀ k, Y (ix2 p k) = y (ix2 n k))
    (hB : ∀ k, B (ix1 k) = b (ix1 k)) (hC : ∀ k, CC (ix2 k q) = cw (ix2 k q)) :
    k2_pay1 D AGG Y B CC (ix2 p q) = Cert.Gcn.matScaled (Cert.Gcn.combine agg y d b) cw d (ix2 n q) := by
  rw [pay2_apply, Cert.Gcn.matScaled_apply, hD]
  unfold Cert.Gcn.matScaledAt
  congr 1
  refine Finset.sum_congr rfl fun k _ => ?_
  rw [Cert.Gcn.combine_apply, hA, hY, hB, hC]
  rfl

/-! ## The windows' blocks as rows of the arrays -/

/-- The index maps over the ten points: the row-blocked windows sit at block row `t` and column block 0, the bias row
    and the matrix at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block `t` of the edge sums: row `p` of the block is row `5000·t + p` of the array. -/
theorem iblk2_0_apply (c : Dev nD) (t : Fin cfg2.N) (p : Fin 5000) (k : Fin 64) (n : Fin 50000)
    (hn : n.val = 5000 * t.val + p.val) :
    (iblk2 V c 0 t : Vec Ideal S5000x64 .f32) (ix2 p k)
      = (V c (Pipeline.arrRef spec2 0) : S50000x64.Idx → Elt Ideal .f32) (ix2 n k) := by
  obtain ⟨e0, e1, -⟩ := idx_facts2 t
  unfold iblk2
  rw [View.read_apply]
  show (V c (Pipeline.arrRef spec2 0) : S50000x64.Idx → Elt Ideal .f32) _ = _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 64 + 1 * k.val = k.val; rw [e1]; omega

/-- Block `t` of the nodes' own scaled rows, likewise. -/
theorem iblk2_1_apply (c : Dev nD) (t : Fin cfg2.N) (p : Fin 5000) (k : Fin 64) (n : Fin 50000)
    (hn : n.val = 5000 * t.val + p.val) :
    (iblk2 V c 1 t : Vec Ideal S5000x64 .f32) (ix2 p k)
      = (V c (Pipeline.arrRef spec2 1) : S50000x64.Idx → Elt Ideal .f32) (ix2 n k) := by
  obtain ⟨-, -, e0, e1, -⟩ := idx_facts2 t
  unfold iblk2
  rw [View.read_apply]
  show (V c (Pipeline.arrRef spec2 1) : S50000x64.Idx → Elt Ideal .f32) _ = _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 64 + 1 * k.val = k.val; rw [e1]; omega

/-- Block `t` of the column `d`, likewise. -/
theorem iblk2_2_apply (c : Dev nD) (t : Fin cfg2.N) (p : Fin 5000) (u : Fin 1) (n : Fin 50000)
    (hn : n.val = 5000 * t.val + p.val) :
    (iblk2 V c 2 t : Vec Ideal S5000x1 .f32) (ix2 p u)
      = (V c (Pipeline.arrRef spec2 2) : S50000x1.Idx → Elt Ideal .f32) (ix2 n u) := by
  obtain ⟨-, -, -, -, e0, e1, -⟩ := idx_facts2 t
  unfold iblk2
  rw [View.read_apply]
  show (V c (Pipeline.arrRef spec2 2) : S50000x1.Idx → Elt Ideal .f32) _ = _
  congr 1
  funext a
  apply Fin.ext
  match a with
  | ⟨0, _⟩ => show win2_2.index t (0 : Fin 2) * 5000 + 1 * p.val = n.val; rw [e0, hn]; omega
  | ⟨1, _⟩ => show win2_2.index t (1 : Fin 2) * 1 + 1 * u.val = u.val; rw [e1]; omega

/-- The bias row's one block is the whole row. -/
theorem iblk2_3_apply (c : Dev nD) (t : Fin cfg2.N) (k : Fin 64) :
    (iblk2 V c 3 t : Vec Ideal S64 .f32) (ix1 k)
      = (V c (Pipeline.arrRef spec2 3) : S64.Idx → Elt Ideal .f32) (ix1 k) := by
  obtain ⟨-, -, -, -, -, -, e0, -⟩ := idx_facts2 t
  unfold iblk2
  rw [View.read_apply]
  show (V c (Pipeline.arrRef spec2 3) : S64.Idx → Elt Ideal .f32) _ = _
  congr 1
  funext a
  apply Fin.ext
  match a with
  | ⟨0, _⟩ => show win2_3.index t (0 : Fin 1) * 64 + 1 * k.val = k.val; rw [e0]; omega

/-- The matrix's one block is the whole matrix. -/
theorem iblk2_4_apply (c : Dev nD) (t : Fin cfg2.N) (k q : Fin 64) :
    (iblk2 V c 4 t : Vec Ideal S64x64 .f32) (ix2 k q)
      = (V c (Pipeline.arrRef spec2 4) : S64x64.Idx → Elt Ideal .f32) (ix2 k q) := by
  obtain ⟨-, -, -, -, -, -, -, e0, e1, -⟩ := idx_facts2 t
  unfold iblk2
  rw [View.read_apply]
  show (V c (Pipeline.arrRef spec2 4) : S64x64.Idx → Elt Ideal .f32) _ = _
  congr 1
  funext a
  apply Fin.ext
  match a with
  | ⟨0, _⟩ => show win2_4.index t (0 : Fin 2) * 64 + 1 * k.val = k.val; rw [e0]; omega
  | ⟨1, _⟩ => show win2_4.index t (1 : Fin 2) * 64 + 1 * q.val = q.val; rw [e1]; omega

/-! ## The output array as one function of the input arrays -/

/-- What the output array ends holding: `((max (d·(agg + y) + b) 0) · C) · d` of the whole input arrays. -/
abbrev G2 (c : Dev nD) : Cert.Gcn.A2 50000 64 :=
  Cert.Gcn.matScaled (Cert.Gcn.combine (V c (Pipeline.arrRef spec2 0)) (V c (Pipeline.arrRef spec2 1)) (V c (Pipeline.arrRef spec2 2)) (V c (Pipeline.arrRef spec2 3))) (V c (Pipeline.arrRef spec2 4)) (V c (Pipeline.arrRef spec2 2))

/-- What point `t` writes back is block `t` of that function of the arrays as the region finds them. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zeroOffs2_r2]
  simp only [View.ld_unit_zero (S := S5000x64) zeroOffs2_r2, View.ld_unit_zero (S := S5000x1) zeroOffs2_r2,
    View.ld_unit_zero (S := S64) zeroOffs1_r2, View.ld_unit_zero (S := S64x64) zeroOffs2_r2]
  obtain ⟨-, -, -, -, -, -, -, -, -, e0, e1⟩ := idx_facts2 t
  have hN : cfg2.N = 10 := N_2
  have ht := t.isLt
  funext j
  obtain ⟨p, q, rfl⟩ : ∃ (p : Fin 5000) (q : Fin 64), j = ix2 p q := ⟨j 0, j 1, eq_ix2 j⟩
  have hp := p.isLt
  have hemb : ((cfg2.win 5).blk t).view.emb (ix2 p q)
      = (ix2 (⟨5000 * t.val + p.val, by omega⟩ : Fin 50000) q : S50000x64.Idx) := by
    funext a
    apply Fin.ext
    match a with
    | ⟨0, _⟩ => show win2_5.index t (0 : Fin 2) * 5000 + 1 * p.val = 5000 * t.val + p.val; rw [e0]; omega
    | ⟨1, _⟩ => show win2_5.index t (1 : Fin 2) * 64 + 1 * q.val = q.val; rw [e1]; omega
  show k2_pay1 (iblk2 V c 2 t) (iblk2 V c 0 t) (iblk2 V c 1 t) (iblk2 V c 3 t) (iblk2 V c 4 t) (ix2 p q)
    = G2 V c (((cfg2.win 5).blk t).view.emb (ix2 p q))
  rw [hemb]
  exact pay2_eq_spec _ _ _ _ _ _ _ _ _ _ p q _
    (iblk2_2_apply V c t p 0 _ rfl) (fun k => iblk2_0_apply V c t p k _ rfl) (fun k => iblk2_1_apply V c t p k _ rfl)
    (fun k => iblk2_3_apply V c t k) (fun k => iblk2_4_apply V c t k q)

/-- An index of the array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v35).slice (win2_5.rect t)).set ↔ _
  rw [View.set_slice_whole, Rect.mem_set_unit]
  exact Iff.rfl

/-- Every row is in some point's block: row `r` is in the block of point `r / 5000`. -/
theorem cover2 (i : S50000x64.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 64 := (i 1).isLt
  have hlt : (i 0).val / 5000 < cfg2.N := by omega
  obtain ⟨-, -, -, -, -, -, -, -, -, e0, e1⟩ := idx_facts2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hlt⟩ (1 : Fin 2) * 64 ≤ (i 1).val
      ∧ (i 1).val < win2_5.index ⟨(i 0).val / 5000, hlt⟩ (1 : Fin 2) * 64 + 64
    rw [e1]
    omega

/-- The output array after the region: `((max (d·(agg + y) + b) 0) · C) · d` of the input arrays at region entry. -/
theorem final2 (c : Dev nD) :
    (Gen.dat2 (F := Ideal) V c).arrAt 5 cfg2.N
      = Cert.Gcn.matScaled (Cert.Gcn.combine (V c (Pipeline.arrRef spec2 0)) (V c (Pipeline.arrRef spec2 1)) (V c (Pipeline.arrRef spec2 2)) (V c (Pipeline.arrRef spec2 3))) (V c (Pipeline.arrRef spec2 4)) (V c (Pipeline.arrRef spec2 2)) :=
  (dat2 V c).arrAt_eq_of_cover 5 (G2 V c) (fun t _ => flushed2_eq V c t) fun i => cover2 i

end Cert.KernelIdeal.RegionValue

end
-- ==== Proof.Region3.lean ====
/-
  Region 3: the second combine-and-multiply kernel over ten blocks of 5000 node rows.

  A block is 5000 consecutive rows of a node array with all of its 64 columns; block `t` holds rows
  `5000·t … 5000·t + 4999`.  At a point of the grid the body reads the block of the edge sums `agg`, the block of the
  node's own scaled rows `y`, the block of the column `d`, the whole bias row `b` and the whole 64×64 matrix `C`, and
  writes the block of `((max (d·(agg + y) + b) 0) · C) · d`.  Entry `(n, j)` of the result depends on row `n` of `agg`,
  `y` and `d` only, on all of `b` and on column `j` of `C`; the ten blocks tile the 50000 rows exactly, so the
  output array ends as one function of the whole input arrays.
-/
import proofs.«133231_j73280732004420_2_alg».proof.Proof.Gen.KernelIdeal.Frame
import proofs.«133231_j73280732004420_2_alg».proof.Proof.Spec
import proofs.«133231_j73280732004420_2_alg».proof.Proof.LibMatmulNN
import proofs.«133231_j73280732004420_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry of a block -/

theorem zeroOffs1_r3 : (![0] : Fin 1 → Nat) = fun _ => 0 := funext fun a => by fin_cases a; rfl
theorem zeroOffs2_r3 : (![0, 0] : Fin 2 → Nat) = fun _ => 0 := funext fun a => by fin_cases a <;> rfl

/-- Entry `(p, q)` of the body's result on blocks `d`, `agg`, `y`, the bias row `b` and the matrix `C`: row `p` of
    `max (d·(agg + y) + b) 0` times column `q` of `C`, times `d` at row `p`. -/
theorem pay3_apply (d : Vec Ideal S5000x1 .f32) (agg y : Vec Ideal S5000x64 .f32) (b : Vec Ideal S64 .f32)
    (C : Vec Ideal S64x64 .f32) (p : Fin 5000) (q : Fin 64) :
    k3_pay1 d agg y b C (ix2 p q)
      = (∑ k : Fin 64, max (d (ix2 p 0) * (agg (ix2 p k) + y (ix2 p k)) + b (ix1 k)) 0 * C (ix2 k q)) * d (ix2 p 0) := by
  unfold k3_pay1
  simp only [shapeCast_self]
  refine (mulf_apply _ _ _).trans ?_
  rw [Cert.LibColumns.broadcastTo_a1_ab_apply]
  congr 1
  refine (Cert.LibMatmulNN.matmul_nn_apply dot_S5000x64_S64x64_S5000x64_1_0_0_1_n_n rfl rfl rfl rfl rfl rfl none _ _ p q).trans ?_
  refine Finset.sum_congr rfl fun k _ => ?_
  rw [truncf_apply, truncf_apply, maximumf_apply, addf_apply, mulf_apply, addf_apply, broadcast_apply,
    Cert.LibColumns.broadcastTo_a1_ab_apply, broadcastTo_1b_ab_apply, shapeCast_a_1a_apply]
  rw [show (Scalar.ofBits (F := Ideal) .f32 0x00000000#32) = (0 : EReal) from Ideal.ofBits_zero_f32]

/-- When the blocks hold row `n` of the arrays at block row `p` (and the bias row and the matrix are whole), the body's
    entry `(p, q)` is entry `(n, q)` of `((max (d·(agg + y) + b) 0) · C) · d` of the whole arrays. -/
theorem pay3_eq_spec {N : ℕ} (agg y : Cert.Gcn.A2 N 64) (d : Cert.Gcn.A2 N 1) (b : Cert.Gcn.A1 64) (cw : Cert.Gcn.A2 64 64)
    (D : Vec Ideal S5000x1 .f32) (AGG Y : Vec Ideal S5000x64 .f32) (B : Vec Ideal S64 .f32) (CC : Vec Ideal S64x64 .f32)
    (p : Fin 5000) (q : Fin 64) (n : Fin N)
    (hD : D (ix2 p 0) = d (ix2 n 0)) (hA : ∀ k, AGG (ix2 p k) = agg (ix2 n k)) (hY : ∀ k, Y (ix2 p k) = y (ix2 n k))
    (hB : ∀ k, B (ix1 k) = b (ix1 k)) (hC : ∀ k, CC (ix2 k q) = cw (ix2 k q)) :
    k3_pay1 D AGG Y B CC (ix2 p q) = Cert.Gcn.matScaled (Cert.Gcn.combine agg y d b) cw d (ix2 n q) := by
  rw [pay3_apply, Cert.Gcn.matScaled_apply, hD]
  unfold Cert.Gcn.matScaledAt
  congr 1
  refine Finset.sum_congr rfl fun k _ => ?_
  rw [Cert.Gcn.combine_apply, hA, hY, hB, hC]
  rfl

/-! ## The windows' blocks as rows of the arrays -/

/-- The index maps over the ten points: the row-blocked windows sit at block row `t` and column block 0, the bias row
    and the matrix at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block `t` of the edge sums: row `p` of the block is row `5000·t + p` of the array. -/
theorem iblk3_0_apply (c : Dev nD) (t : Fin cfg3.N) (p : Fin 5000) (k : Fin 64) (n : Fin 50000)
    (hn : n.val = 5000 * t.val + p.val) :
    (iblk3 V c 0 t : Vec Ideal S5000x64 .f32) (ix2 p k)
      = (V c (Pipeline.arrRef spec3 0) : S50000x64.Idx → Elt Ideal .f32) (ix2 n k) := by
  obtain ⟨e0, e1, -⟩ := idx_facts3 t
  unfold iblk3
  rw [View.read_apply]
  show (V c (Pipeline.arrRef spec3 0) : S50000x64.Idx → Elt Ideal .f32) _ = _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 64 + 1 * k.val = k.val; rw [e1]; omega

/-- Block `t` of the nodes' own scaled rows, likewise. -/
theorem iblk3_1_apply (c : Dev nD) (t : Fin cfg3.N) (p : Fin 5000) (k : Fin 64) (n : Fin 50000)
    (hn : n.val = 5000 * t.val + p.val) :
    (iblk3 V c 1 t : Vec Ideal S5000x64 .f32) (ix2 p k)
      = (V c (Pipeline.arrRef spec3 1) : S50000x64.Idx → Elt Ideal .f32) (ix2 n k) := by
  obtain ⟨-, -, e0, e1, -⟩ := idx_facts3 t
  unfold iblk3
  rw [View.read_apply]
  show (V c (Pipeline.arrRef spec3 1) : S50000x64.Idx → Elt Ideal .f32) _ = _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 64 + 1 * k.val = k.val; rw [e1]; omega

/-- Block `t` of the column `d`, likewise. -/
theorem iblk3_2_apply (c : Dev nD) (t : Fin cfg3.N) (p : Fin 5000) (u : Fin 1) (n : Fin 50000)
    (hn : n.val = 5000 * t.val + p.val) :
    (iblk3 V c 2 t : Vec Ideal S5000x1 .f32) (ix2 p u)
      = (V c (Pipeline.arrRef spec3 2) : S50000x1.Idx → Elt Ideal .f32) (ix2 n u) := by
  obtain ⟨-, -, -, -, e0, e1, -⟩ := idx_facts3 t
  unfold iblk3
  rw [View.read_apply]
  show (V c (Pipeline.arrRef spec3 2) : S50000x1.Idx → Elt Ideal .f32) _ = _
  congr 1
  funext a
  apply Fin.ext
  match a with
  | ⟨0, _⟩ => show win3_2.index t (0 : Fin 2) * 5000 + 1 * p.val = n.val; rw [e0, hn]; omega
  | ⟨1, _⟩ => show win3_2.index t (1 : Fin 2) * 1 + 1 * u.val = u.val; rw [e1]; omega

/-- The bias row's one block is the whole row. -/
theorem iblk3_3_apply (c : Dev nD) (t : Fin cfg3.N) (k : Fin 64) :
    (iblk3 V c 3 t : Vec Ideal S64 .f32) (ix1 k)
      = (V c (Pipeline.arrRef spec3 3) : S64.Idx → Elt Ideal .f32) (ix1 k) := by
  obtain ⟨-, -, -, -, -, -, e0, -⟩ := idx_facts3 t
  unfold iblk3
  rw [View.read_apply]
  show (V c (Pipeline.arrRef spec3 3) : S64.Idx → Elt Ideal .f32) _ = _
  congr 1
  funext a
  apply Fin.ext
  match a with
  | ⟨0, _⟩ => show win3_3.index t (0 : Fin 1) * 64 + 1 * k.val = k.val; rw [e0]; omega

/-- The matrix's one block is the whole matrix. -/
theorem iblk3_4_apply (c : Dev nD) (t : Fin cfg3.N) (k q : Fin 64) :
    (iblk3 V c 4 t : Vec Ideal S64x64 .f32) (ix2 k q)
      = (V c (Pipeline.arrRef spec3 4) : S64x64.Idx → Elt Ideal .f32) (ix2 k q) := by
  obtain ⟨-, -, -, -, -, -, -, e0, e1, -⟩ := idx_facts3 t
  unfold iblk3
  rw [View.read_apply]
  show (V c (Pipeline.arrRef spec3 4) : S64x64.Idx → Elt Ideal .f32) _ = _
  congr 1
  funext a
  apply Fin.ext
  match a with
  | ⟨0, _⟩ => show win3_4.index t (0 : Fin 2) * 64 + 1 * k.val = k.val; rw [e0]; omega
  | ⟨1, _⟩ => show win3_4.index t (1 : Fin 2) * 64 + 1 * q.val = q.val; rw [e1]; omega

/-! ## The output array as one function of the input arrays -/

/-- What the output array ends holding: `((max (d·(agg + y) + b) 0) · C) · d` of the whole input arrays. -/
abbrev G3 (c : Dev nD) : Cert.Gcn.A2 50000 64 :=
  Cert.Gcn.matScaled (Cert.Gcn.combine (V c (Pipeline.arrRef spec3 0)) (V c (Pipeline.arrRef spec3 1)) (V c (Pipeline.arrRef spec3 2)) (V c (Pipeline.arrRef spec3 3))) (V c (Pipeline.arrRef spec3 4)) (V c (Pipeline.arrRef spec3 2))

/-- What point `t` writes back is block `t` of that function of the arrays as the region finds them. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero zeroOffs2_r3]
  simp only [View.ld_unit_zero (S := S5000x64) zeroOffs2_r3, View.ld_unit_zero (S := S5000x1) zeroOffs2_r3,
    View.ld_unit_zero (S := S64) zeroOffs1_r3, View.ld_unit_zero (S := S64x64) zeroOffs2_r3]
  obtain ⟨-, -, -, -, -, -, -, -, -, e0, e1⟩ := idx_facts3 t
  have hN : cfg3.N = 10 := N_3
  have ht := t.isLt
  funext j
  obtain ⟨p, q, rfl⟩ : ∃ (p : Fin 5000) (q : Fin 64), j = ix2 p q := ⟨j 0, j 1, eq_ix2 j⟩
  have hp := p.isLt
  have hemb : ((cfg3.win 5).blk t).view.emb (ix2 p q)
      = (ix2 (⟨5000 * t.val + p.val, by omega⟩ : Fin 50000) q : S50000x64.Idx) := by
    funext a
    apply Fin.ext
    match a with
    | ⟨0, _⟩ => show win3_5.index t (0 : Fin 2) * 5000 + 1 * p.val = 5000 * t.val + p.val; rw [e0]; omega
    | ⟨1, _⟩ => show win3_5.index t (1 : Fin 2) * 64 + 1 * q.val = q.val; rw [e1]; omega
  show k3_pay1 (iblk3 V c 2 t) (iblk3 V c 0 t) (iblk3 V c 1 t) (iblk3 V c 3 t) (iblk3 V c 4 t) (ix2 p q)
    = G3 V c (((cfg3.win 5).blk t).view.emb (ix2 p q))
  rw [hemb]
  exact pay3_eq_spec _ _ _ _ _ _ _ _ _ _ p q _
    (iblk3_2_apply V c t p 0 _ rfl) (fun k => iblk3_0_apply V c t p k _ rfl) (fun k => iblk3_1_apply V c t p k _ rfl)
    (fun k => iblk3_3_apply V c t k) (fun k => iblk3_4_apply V c t k q)

/-- An index of the array is in point `t`'s block iff each coordinate is in the block's range on its axis. -/
theorem mem_blk3 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v50).slice (win3_5.rect t)).set ↔ _
  rw [View.set_slice_whole, Rect.mem_set_unit]
  exact Iff.rfl

/-- Every row is in some point's block: row `r` is in the block of point `r / 5000`. -/
theorem cover3 (i : S50000x64.Idx) :
    ∃ t : Fin cfg3.N, (cfg3.win 5).flush t = true ∧ i ∈ ((cfg3.win 5).blk t).view.set := by
  have hN : cfg3.N = 10 := N_3
  have hi0 : (i 0).val < 50000 := (i 0).isLt
  have hi1 : (i 1).val < 64 := (i 1).isLt
  have hlt : (i 0).val / 5000 < cfg3.N := by omega
  obtain ⟨-, -, -, -, -, -, -, -, -, e0, e1⟩ := idx_facts3 ⟨(i 0).val / 5000, hlt⟩
  refine ⟨⟨(i 0).val / 5000, hlt⟩, flush3_5 _, ?_⟩
  rw [mem_blk3]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_5.index ⟨(i 0).val / 5000, hlt⟩ (1 : Fin 2) * 64 ≤ (i 1).val
      ∧ (i 1).val < win3_5.index ⟨(i 0).val / 5000, hlt⟩ (1 : Fin 2) * 64 + 64
    rw [e1]
    omega

/-- The output array after the region: `((max (d·(agg + y) + b) 0) · C) · d` of the input arrays at region entry. -/
theorem final3 (c : Dev nD) :
    (Gen.dat3 (F := Ideal) V c).arrAt 5 cfg3.N
      = Cert.Gcn.matScaled (Cert.Gcn.combine (V c (Pipeline.arrRef spec3 0)) (V c (Pipeline.arrRef spec3 1)) (V c (Pipeline.arrRef spec3 2)) (V c (Pipeline.arrRef spec3 3))) (V c (Pipeline.arrRef spec3 4)) (V c (Pipeline.arrRef spec3 2)) :=
  (dat3 V c).arrAt_eq_of_cover 5 (G3 V c) (fun t _ => flushed3_eq V c t) fun i => cover3 i

end Cert.KernelIdeal.RegionValue

end
-- ==== Proof.Region4.lean ====
/-
  The combine-and-score kernel's output column as one function of its six input arrays.

  The node arrays have 50000 rows.  The grid has 10 points; at point `t` the blocks of the summed-neighbour array
  `agg`, of the node's own scaled rows `y`, of the column `d` and of the output column are rows
  `5000·t … 5000·t + 4999` of their arrays, all columns; the bias row `b`, the 64×1 matrix `L` and the one-entry
  bias `l` are read whole at every point.  So the ten output blocks tile the output column exactly.  The body forms
  `max (d·(agg + y) + b) 0` row by row, multiplies the 64 entries of a row by the matrix `L`, and adds `l`: entry `r` of
  the output depends on row `r` of `agg`, `y` and `d` only, and is
  `Σ_k max (d r · (agg (r, k) + y (r, k)) + b k) 0 · L (k, 0) + l 0`.
-/
import proofs.«133231_j73280732004420_2_alg».proof.Proof.Gen.KernelIdeal.Frame
import proofs.«133231_j73280732004420_2_alg».proof.Proof.Spec
import proofs.«133231_j73280732004420_2_alg».proof.Proof.LibMatmulNN
import proofs.«133231_j73280732004420_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4_2 : (![0, 0] : Fin 2 → Nat) = fun _ => 0 := funext fun a => by fin_cases a <;> rfl
theorem hz4_1 : (![0] : Fin 1 → Nat) = fun _ => 0 := funext fun a => by fin_cases a; rfl

/-! ## The body's payload at an index -/

/-- Entry `(p, k)` of the rectified rows the body multiplies by the matrix: `max (d p · (agg (p, k) + y (p, k)) + b k) 0`. -/
theorem hidden4_apply (d : Vec Ideal S5000x1 .f32) (agg y : Vec Ideal S5000x64 .f32) (b : Vec Ideal S64 .f32)
    (h1 : S5000x1.Broadcasts S5000x64) (h2 : S64.ShapeCasts S1x64) (h3 : S1x64.Broadcasts S5000x64)
    (p : Fin 5000) (k : Fin 64) :
    maximumf (addf (mulf (broadcastTo S5000x64 d h1) (addf agg y)) (broadcastTo S5000x64 (shapeCast S1x64 b h2) h3))
        (broadcast S5000x64 (Scalar.ofBits (F := Ideal) .f32 0x00000000#32)) (ix2 p k)
      = max (d (ix2 p 0) * (agg (ix2 p k) + y (ix2 p k)) + b (ix1 k)) 0 := by
  rw [maximumf_apply, addf_apply, mulf_apply, addf_apply, broadcast_apply,
    Cert.LibColumns.broadcastTo_a1_ab_apply, broadcastTo_1b_ab_apply, shapeCast_a_1a_apply]
  exact congrArg (max _) Ideal.ofBits_zero_f32

/-- Entry `(p, u)` of the one-entry bias broadcast down the column: the bias. -/
theorem bias4_apply (lb : Vec Ideal S1 .f32) (h1 : S1.ShapeCasts S1x1) (h2 : S1x1.Broadcasts S5000x1) (p : Fin 5000) (u : Fin 1) :
    broadcastTo S5000x1 (shapeCast S1x1 lb h1) h2 (ix2 p u) = lb (ix1 0) := by
  obtain rfl : u = 0 := Subsingleton.elim _ _
  rw [broadcastTo_1b_ab_apply, shapeCast_a_1a_apply]

/-- The body's payload at `(p, u)`: row `p` rectified, times the 64×1 matrix, plus the bias. -/
theorem pay4_apply (d : Vec Ideal S5000x1 .f32) (agg y : Vec Ideal S5000x64 .f32) (b : Vec Ideal S64 .f32)
    (lw : Vec Ideal S64x1 .f32) (lb : Vec Ideal S1 .f32) (p : Fin 5000) (u : Fin 1) :
    k4_pay1 d agg y b lw lb (ix2 p u)
      = ∑ k : Fin 64, max (d (ix2 p 0) * (agg (ix2 p k) + y (ix2 p k)) + b (ix1 k)) 0 * lw (ix2 k 0) + lb (ix1 0) := by
  obtain rfl : u = 0 := Subsingleton.elim _ _
  unfold k4_pay1
  simp only [shapeCast_self]
  rw [addf_apply, bias4_apply]
  refine congrArg (· + lb (ix1 0)) ?_
  refine (Cert.LibMatmulNN.matmul_nn_apply dot_S5000x64_S64x1_S5000x1_1_0_0_1_n_n rfl rfl rfl rfl rfl rfl none _ _ p 0).trans ?_
  refine Finset.sum_congr rfl fun k _ => ?_
  rw [truncf_apply, truncf_apply, hidden4_apply]

/-- The same at an index of the block. -/
theorem pay4_at (d : Vec Ideal S5000x1 .f32) (agg y : Vec Ideal S5000x64 .f32) (b : Vec Ideal S64 .f32)
    (lw : Vec Ideal S64x1 .f32) (lb : Vec Ideal S1 .f32) (j : S5000x1.Idx) :
    k4_pay1 d agg y b lw lb j
      = ∑ k : Fin 64, max (d (ix2 (j 0) 0) * (agg (ix2 (j 0) k) + y (ix2 (j 0) k)) + b (ix1 k)) 0 * lw (ix2 k 0) + lb (ix1 0) := by
  obtain ⟨p, u, rfl⟩ : ∃ (p : Fin 5000) (u : Fin 1), j = ix2 p u := ⟨j 0, j 1, eq_ix2 j⟩
  exact pay4_apply d agg y b lw lb p u

/-! ## The windows' blocks as rows of their arrays -/

/-- The index maps over the grid: the row-blocked windows sit at block `(t, 0)`, the whole ones at block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Block `t` of `agg` at `(p, k)` is the array at row `5000·t + p`. -/
theorem blk4_0 (c : Dev nD) (t : Fin cfg4.N) (p : Fin 5000) (k : Fin 64) (n : Fin 50000) (hn : n.val = 5000 * t.val + p.val) :
    (iblk4 V c 0 t : Vec Ideal S5000x64 .f32) (ix2 p k) = (V c (Pipeline.arrRef spec4 0) : S50000x64.Idx → EReal) (ix2 n k) := by
  obtain ⟨e00, e01, e10, e11, e20, e21, e30, e40, e41, e50, e60, e61⟩ := idx_facts4 t
  unfold iblk4
  rw [View.read_apply]
  show V c (Pipeline.arrRef spec4 0) _ = V c (Pipeline.arrRef spec4 0) _
  congr 1
  funext a; apply Fin.ext
  match a with
  | ⟨0, _⟩ => show win4_0.index t (0 : Fin 2) * 5000 + 1 * p.val = n.val; omega
  | ⟨1, _⟩ => show win4_0.index t (1 : Fin 2) * 64 + 1 * k.val = k.val; omega

/-- Block `t` of `y` at `(p, k)` is the array at row `5000·t + p`. -/
theorem blk4_1 (c : Dev nD) (t : Fin cfg4.N) (p : Fin 5000) (k : Fin 64) (n : Fin 50000) (hn : n.val = 5000 * t.val + p.val) :
    (iblk4 V c 1 t : Vec Ideal S5000x64 .f32) (ix2 p k) = (V c (Pipeline.arrRef spec4 1) : S50000x64.Idx → EReal) (ix2 n k) := by
  obtain ⟨e00, e01, e10, e11, e20, e21, e30, e40, e41, e50, e60, e61⟩ := idx_facts4 t
  unfold iblk4
  rw [View.read_apply]
  show V c (Pipeline.arrRef spec4 1) _ = V c (Pipeline.arrRef spec4 1) _
  congr 1
  funext a; apply Fin.ext
  match a with
  | ⟨0, _⟩ => show win4_1.index t (0 : Fin 2) * 5000 + 1 * p.val = n.val; omega
  | ⟨1, _⟩ => show win4_1.index t (1 : Fin 2) * 64 + 1 * k.val = k.val; omega

/-- Block `t` of the column `d` at `(p, 0)` is the array at row `5000·t + p`. -/
theorem blk4_2 (c : Dev nD) (t : Fin cfg4.N) (p : Fin 5000) (n : Fin 50000) (hn : n.val = 5000 * t.val + p.val) :
    (iblk4 V c 2 t : Vec Ideal S5000x1 .f32) (ix2 p 0) = (V c (Pipeline.arrRef spec4 2) : S50000x1.Idx → EReal) (ix2 n 0) := by
  obtain ⟨e00, e01, e10, e11, e20, e21, e30, e40, e41, e50, e60, e61⟩ := idx_facts4 t
  unfold iblk4
  rw [View.read_apply]
  show V c (Pipeline.arrRef spec4 2) _ = V c (Pipeline.arrRef spec4 2) _
  congr 1
  funext a; apply Fin.ext
  match a with
  | ⟨0, _⟩ => show win4_2.index t (0 : Fin 2) * 5000 + 1 * p.val = n.val; omega
  | ⟨1, _⟩ => show win4_2.index t (1 : Fin 2) * 1 + 1 * 0 = 0; omega

/-- The bias row's block is the whole row. -/
theorem blk4_3 (c : Dev nD) (t : Fin cfg4.N) (k : Fin 64) :
    (iblk4 V c 3 t : Vec Ideal S64 .f32) (ix1 k) = (V c (Pipeline.arrRef spec4 3) : S64.Idx → EReal) (ix1 k) := by
  obtain ⟨e00, e01, e10, e11, e20, e21, e30, e40, e41, e50, e60, e61⟩ := idx_facts4 t
  unfold iblk4
  rw [View.read_apply]
  show V c (Pipeline.arrRef spec4 3) _ = V c (Pipeline.arrRef spec4 3) _
  congr 1
  funext a; apply Fin.ext
  match a with
  | ⟨0, _⟩ => show win4_3.index t (0 : Fin 1) * 64 + 1 * k.val = k.val; omega

/-- The matrix's block is the whole matrix. -/
theorem blk4_4 (c : Dev nD) (t : Fin cfg4.N) (k : Fin 64) :
    (iblk4 V c 4 t : Vec Ideal S64x1 .f32) (ix2 k 0) = (V c (Pipeline.arrRef spec4 4) : S64x1.Idx → EReal) (ix2 k 0) := by
  obtain ⟨e00, e01, e10, e11, e20, e21, e30, e40, e41, e50, e60, e61⟩ := idx_facts4 t
  unfold iblk4
  rw [View.read_apply]
  show V c (Pipeline.arrRef spec4 4) _ = V c (Pipeline.arrRef spec4 4) _
  congr 1
  funext a; apply Fin.ext
  match a with
  | ⟨0, _⟩ => show win4_4.index t (0 : Fin 2) * 64 + 1 * k.val = k.val; omega
  | ⟨1, _⟩ => show win4_4.index t (1 : Fin 2) * 1 + 1 * 0 = 0; omega

/-- The one-entry bias's block is the whole array. -/
theorem blk4_5 (c : Dev nD) (t : Fin cfg4.N) :
    (iblk4 V c 5 t : Vec Ideal S1 .f32) (ix1 0) = (V c (Pipeline.arrRef spec4 5) : S1.Idx → EReal) (ix1 0) := by
  obtain ⟨e00, e01, e10, e11, e20, e21, e30, e40, e41, e50, e60, e61⟩ := idx_facts4 t
  unfold iblk4
  rw [View.read_apply]
  show V c (Pipeline.arrRef spec4 5) _ = V c (Pipeline.arrRef spec4 5) _
  congr 1
  funext a; apply Fin.ext
  match a with
  | ⟨0, _⟩ => show win4_5.index t (0 : Fin 1) * 1 + 1 * 0 = 0; omega

/-! ## The write-backs and the array -/

/-- One summand of the score, from its five entries. -/
theorem term4_congr {d a y b l d' a' y' b' l' : EReal} (hd : d = d') (ha : a = a') (hy : y = y') (hb : b = b')
    (hl : l = l') : max (d * (a + y) + b) 0 * l = max (d' * (a' + y') + b') 0 * l' := by
  subst hd ha hy hb hl; rfl

/-- What point `t` writes back is block `t` of the score of the combined rows. -/
theorem flushed4_eq (c : Dev nD) (t : Fin cfg4.N) :
    (dat4 V c).flushed 6 t = ((cfg4.win 6).blk t).view.read (Elt Ideal)
      (Cert.Gcn.score (Cert.Gcn.combine (V c (Pipeline.arrRef spec4 0)) (V c (Pipeline.arrRef spec4 1)) (V c (Pipeline.arrRef spec4 2)) (V c (Pipeline.arrRef spec4 3)))
        (V c (Pipeline.arrRef spec4 4)) (V c (Pipeline.arrRef spec4 5))) := by
  show (cfg4.win 6).cut (grid4.coords t) ((dat4 V c).after 6 t) = _
  rw [after4_6]
  unfold out4_6
  rw [View.canon_unit_zero hz4_2]
  simp only [View.ld_unit_zero (S := S5000x64) hz4_2, View.ld_unit_zero (S := S5000x1) hz4_2,
    View.ld_unit_zero (S := S64x1) hz4_2, View.ld_unit_zero (S := S64) hz4_1, View.ld_unit_zero (S := S1) hz4_1]
  obtain ⟨e00, e01, e10, e11, e20, e21, e30, e40, e41, e50, e60, e61⟩ := idx_facts4 t
  funext j
  rw [View.read_apply]
  show k4_pay1 (iblk4 V c 2 t) (iblk4 V c 0 t) (iblk4 V c 1 t) (iblk4 V c 3 t) (iblk4 V c 4 t) (iblk4 V c 5 t) j
    = Cert.Gcn.scoreAt (Cert.Gcn.combine (V c (Pipeline.arrRef spec4 0)) (V c (Pipeline.arrRef spec4 1)) (V c (Pipeline.arrRef spec4 2)) (V c (Pipeline.arrRef spec4 3)))
        (V c (Pipeline.arrRef spec4 4)) (V c (Pipeline.arrRef spec4 5)) ((((cfg4.win 6).blk t).view.emb j) 0)
  have hn : ((((cfg4.win 6).blk t).view.emb j) 0).val = 5000 * t.val + (j 0).val := by
    show win4_6.index t (0 : Fin 2) * 5000 + 1 * (j 0).val = _
    omega
  refine (pay4_at _ _ _ _ _ _ j).trans ?_
  unfold Cert.Gcn.scoreAt
  refine congrArg₂ (fun a b : EReal => a + b) (Finset.sum_congr rfl fun k _ => ?_) (blk4_5 V c t)
  exact term4_congr (blk4_2 V c t (j 0) _ hn) (blk4_0 V c t (j 0) k _ hn) (blk4_1 V c t (j 0) k _ hn)
    (blk4_3 V c t k) (blk4_4 V c t k)

/-- An index of the output column is in point `t`'s block iff each coordinate is in the block's range on its axis. -/
theorem mem_blk4 (t : Fin cfg4.N) (i : S50000x1.Idx) :
    i ∈ ((cfg4.win 6).blk t).view.set ↔ ∀ a : Fin 2, win4_6.index t a * S5000x1.size a ≤ (i a).val
      ∧ (i a).val < win4_6.index t a * S5000x1.size a + S5000x1.size a := by
  show i ∈ ((View.whole main_v63).slice (win4_6.rect t)).set ↔ _
  rw [View.set_slice_whole, Rect.mem_set_unit]
  exact Iff.rfl

/-- The blocks tile the column: row `r` is in the block of point `r / 5000`. -/
theorem cover4 (i : S50000x1.Idx) :
    ∃ t : Fin cfg4.N, (cfg4.win 6).flush t = true ∧ i ∈ ((cfg4.win 6).blk t).view.set := by
  have hi0 : (i 0).val < 50000 := (i 0).isLt
  have hi1 : (i 1).val < 1 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e00, e01, e10, e11, e20, e21, e30, e40, e41, e50, e60, e61⟩ := idx_facts4 t
  refine ⟨t, flush4_6 t, ?_⟩
  rw [mem_blk4]
  intro a
  match a with
  | ⟨0, _⟩ =>
    show win4_6.index t (0 : Fin 2) * 5000 ≤ (i 0).val ∧ (i 0).val < win4_6.index t (0 : Fin 2) * 5000 + 5000
    omega
  | ⟨1, _⟩ =>
    show win4_6.index t (1 : Fin 2) * 1 ≤ (i 1).val ∧ (i 1).val < win4_6.index t (1 : Fin 2) * 1 + 1
    omega

/-- The output column after the region: the score of the combined rows, row by row. -/
theorem final4 (c : Dev nD) :
    (Gen.dat4 (F := Ideal) V c).arrAt 6 cfg4.N
      = Cert.Gcn.score (Cert.Gcn.combine (V c (Pipeline.arrRef spec4 0)) (V c (Pipeline.arrRef spec4 1)) (V c (Pipeline.arrRef spec4 2)) (V c (Pipeline.arrRef spec4 3)))
          (V c (Pipeline.arrRef spec4 4)) (V c (Pipeline.arrRef spec4 5)) :=
  (dat4 V c).arrAt_eq_of_cover 6 _ (fun t _ => flushed4_eq V c t) (cover4)

end Cert.KernelIdeal.RegionValue

end
-- ==== Proof.Region5.lean ====
/-
  The logistic kernel's output array as one function of its two input arrays.

  The three arrays are columns of 200000 rows.  The grid has 100 points; at point `t` each window's block is rows
  `2000·t … 2000·t + 1999` of its array, so the three blocks of a point sit over the same rows and the 100 output
  blocks tile the column exactly.  The body multiplies the two input blocks entry by entry and applies the logistic
  function, so entry `r` of the output depends on entry `r` of each input only: the output array is
  `r ↦ logistic (a r · b r)`.
-/
import proofs.«133231_j73280732004420_2_alg».proof.Proof.Gen.KernelIdeal.Frame
import proofs.«133231_j73280732004420_2_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The body's payload, entry by entry: the logistic function of the product of the two loaded blocks. -/
theorem pay5_eq (x0 x1 : Vec Ideal S2000x1 .f32) :
    k5_pay1 x0 x1 = fun j => Ideal.logistic (x0 j * x1 j) := by
  unfold k5_pay1
  simp only [shapeCast_self]
  rfl

/-- The index maps over the grid: the three windows' blocks at point `t` are block `(t, 0)` of their arrays. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val ∧ win5_2.index t (1 : Fin 2) = 0 :=
  (by decide +kernel : ∀ t : Fin grid5.N, _)

/-- The two input columns as the region finds them, as arrays of extended reals. -/
abbrev colA (c : Dev nD) : Cert.Gcn.A2 200000 1 := V c (Pipeline.arrRef spec5 0)
abbrev colB (c : Dev nD) : Cert.Gcn.A2 200000 1 := V c (Pipeline.arrRef spec5 1)

/-- What point `t` writes back is block `t` of the logistic of the product of the two input arrays. -/
theorem flushed5_eq (c : Dev nD) (t : Fin cfg5.N) :
    (dat5 V c).flushed 2 t = ((cfg5.win 2).blk t).view.read (Elt Ideal)
      (Cert.Gcn.sigProd (V c (Pipeline.arrRef spec5 0)) (V c (Pipeline.arrRef spec5 1))) := by
  show (cfg5.win 2).cut (grid5.coords t) ((dat5 V c).after 2 t) = _
  rw [after5_2]
  unfold out5_2
  rw [View.canon_unit_zero hz5]
  simp only [View.ld_unit_zero (S := S2000x1) hz5]
  rw [pay5_eq]
  obtain ⟨e0, e1, e2, e3, e4, e5⟩ := idx_facts5 t
  funext j
  show Ideal.logistic (colA V c (((cfg5.win 0).blk t).view.emb j) * colB V c (((cfg5.win 1).blk t).view.emb j))
    = Ideal.logistic (colA V c (((cfg5.win 2).blk t).view.emb j) * colB V c (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 1 + 1 * (j 1).val = win5_2.index t (1 : Fin 2) * 1 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 1 + 1 * (j 1).val = win5_2.index t (1 : Fin 2) * 1 + 1 * (j 1).val; omega
  rw [h0, h1]

/-- An index of the output column is in point `t`'s block iff each coordinate is in the block's range on its axis. -/
theorem mem_blk5 (t : Fin cfg5.N) (i : S200000x1.Idx) :
    i ∈ ((cfg5.win 2).blk t).view.set ↔ ∀ a : Fin 2, win5_2.index t a * S2000x1.size a ≤ (i a).val
      ∧ (i a).val < win5_2.index t a * S2000x1.size a + S2000x1.size a := by
  show i ∈ ((View.whole main_v78).slice (win5_2.rect t)).set ↔ _
  rw [View.set_slice_whole, Rect.mem_set_unit]
  exact Iff.rfl

/-- The blocks tile the column: row `r` is in the block of point `r / 2000`. -/
theorem cover5 (i : S200000x1.Idx) :
    ∃ t : Fin cfg5.N, (cfg5.win 2).flush t = true ∧ i ∈ ((cfg5.win 2).blk t).view.set := by
  have hi0 : (i 0).val < 200000 := (i 0).isLt
  have hi1 : (i 1).val < 1 := (i 1).isLt
  have hN : cfg5.N = 100 := N_5
  obtain ⟨t, ht⟩ : ∃ t : Fin cfg5.N, t.val = (i 0).val / 2000 := ⟨⟨(i 0).val / 2000, by rw [hN]; omega⟩, rfl⟩
  obtain ⟨e0, e1, e2, e3, e4, e5⟩ := idx_facts5 t
  refine ⟨t, flush5_2 t, ?_⟩
  rw [mem_blk5]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 1 ≤ (i 1).val ∧ (i 1).val < win5_2.index t (1 : Fin 2) * 1 + 1
    omega

/-- The output column after the region: the logistic of the product of the two input columns, row by row. -/
theorem final5 (c : Dev nD) :
    (Gen.dat5 (F := Ideal) V c).arrAt 2 cfg5.N
      = Cert.Gcn.sigProd (V c (Pipeline.arrRef spec5 0)) (V c (Pipeline.arrRef spec5 1)) :=
  (dat5 V c).arrAt_eq_of_cover 2 _ (fun t _ => flushed5_eq V c t) (cover5)

end Cert.KernelIdeal.RegionValue

end
-- ==== Proof.Chain.lean ====
/-
  The idealized kernel's result, boundary by boundary.  Each of the program's buffers that matters is named as an array
  function of the thirteen arguments — the two rows of edge words, the degree column, the stacked matrices' and biases'
  slices, the pre-scaled rows after the projection and after each of two rounds, the per-node scores, the result —, and
  the buffer's contents at the boundary where it is made is shown to be that array: a host stretch by running its
  operations, a kernel region by its closed form.  Then the result array is read by coordinates: it is the first of
  the two ways of computing three rounds.
-/
import proofs.«133231_j73280732004420_2_alg».proof.Proof.Gen.KernelIdeal.Frame
import proofs.«133231_j73280732004420_2_alg».proof.Proof.Keep
import proofs.«133231_j73280732004420_2_alg».proof.Proof.ChainOps
import proofs.«133231_j73280732004420_2_alg».proof.Proof.Region0
import proofs.«133231_j73280732004420_2_alg».proof.Proof.Region1
import proofs.«133231_j73280732004420_2_alg».proof.Proof.Region2
import proofs.«133231_j73280732004420_2_alg».proof.Proof.Region3
import proofs.«133231_j73280732004420_2_alg».proof.Proof.Region4
import proofs.«133231_j73280732004420_2_alg».proof.Proof.Region5

set_option maxRecDepth 16384
set_option maxHeartbeats 4000000

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The arrays, named -/

def SRC : S1600000.Idx → BitVec 32 :=
  shapeCast S1600000 (extractStridedSlice S1x1600000 ![0, 0] (m ((c : Thread nD τ).loc main_arg10)) slices_S2x1600000_S1x1600000_0_0) shapeCasts_S1x1600000_S1600000
def DST : S1600000.Idx → BitVec 32 :=
  shapeCast S1600000 (extractStridedSlice S1x1600000 ![1, 0] (m ((c : Thread nD τ).loc main_arg10)) slices_S2x1600000_S1x1600000_1_0) shapeCasts_S1x1600000_S1600000
def DIS : S50000x1.Idx → EReal :=
  broadcastInDim S50000x1 ![0] bcast_S50000_S50000x1_0
    (Host.rsqrt (F := Ideal) (φ := .f32)
      (addf
        (Host.scatterAdd (F := Ideal) scatter_S50000_S1600000x1_S1600000_n_0_0_1
          (broadcastInDim S50000 ![] bcast_S_S50000 (constant (F := Ideal) S_ FTy.f32 0x00000000#32))
          (broadcastInDim S1600000x1 ![0] bcast_S1600000_S1600000x1_0 (DST m c))
          (broadcastInDim S1600000 ![] bcast_S_S1600000 (constant (F := Ideal) S_ FTy.f32 0x3F800000#32)))
        (broadcastInDim S50000 ![] bcast_S_S50000 (constant (F := Ideal) S_ FTy.f32 0x3F800000#32))))
def DISD : S20000x1.Idx → EReal := extractStridedSlice S20000x1 ![0, 0] (DIS m c) slices_S50000x1_S20000x1_0_0
def DISP : S30000x1.Idx → EReal := extractStridedSlice S30000x1 ![20000, 0] (DIS m c) slices_S50000x1_S30000x1_20000_0
def CW0 : S64x64.Idx → EReal :=
  shapeCast S64x64 (extractStridedSlice S1x64x64 ![0, 0, 0] (m ((c : Thread nD τ).loc main_arg6)) slices_S3x64x64_S1x64x64_0_0_0) shapeCasts_S1x64x64_S64x64
def CW1 : S64x64.Idx → EReal :=
  shapeCast S64x64 (extractStridedSlice S1x64x64 ![1, 0, 0] (m ((c : Thread nD τ).loc main_arg6)) slices_S3x64x64_S1x64x64_1_0_0) shapeCasts_S1x64x64_S64x64
def CW2 : S64x64.Idx → EReal :=
  shapeCast S64x64 (extractStridedSlice S1x64x64 ![2, 0, 0] (m ((c : Thread nD τ).loc main_arg6)) slices_S3x64x64_S1x64x64_2_0_0) shapeCasts_S1x64x64_S64x64
def CB0 : S64.Idx → EReal :=
  shapeCast S64 (extractStridedSlice S1x64 ![0, 0] (m ((c : Thread nD τ).loc main_arg7)) slices_S3x64_S1x64_0_0) shapeCasts_S1x64_S64
def CB1 : S64.Idx → EReal :=
  shapeCast S64 (extractStridedSlice S1x64 ![1, 0] (m ((c : Thread nD τ).loc main_arg7)) slices_S3x64_S1x64_1_0) shapeCasts_S1x64_S64
def CB2 : S64.Idx → EReal :=
  shapeCast S64 (extractStridedSlice S1x64 ![2, 0] (m ((c : Thread nD τ).loc main_arg7)) slices_S3x64_S1x64_2_0) shapeCasts_S1x64_S64
def YD : S20000x64.Idx → EReal :=
  Cert.Gcn.projScaled (m ((c : Thread nD τ).loc main_arg0)) (m ((c : Thread nD τ).loc main_arg2)) (m ((c : Thread nD τ).loc main_arg3)) (CW0 m c) (DISD m c)
def YP : S30000x64.Idx → EReal :=
  Cert.Gcn.projScaled (m ((c : Thread nD τ).loc main_arg1)) (m ((c : Thread nD τ).loc main_arg4)) (m ((c : Thread nD τ).loc main_arg5)) (CW0 m c) (DISP m c)
def Y0 : S50000x64.Idx → EReal :=
  concatenate S50000x64 0 [⟨S20000x64, YD m c⟩, ⟨S30000x64, YP m c⟩] concatenates_S20000x64_S30000x64_S50000x64_d0
def Y1 : S50000x64.Idx → EReal :=
  Cert.Gcn.matScaled (Cert.Gcn.combine (aggOf (Y0 m c) (SRC m c) (DST m c)) (Y0 m c) (DIS m c) (CB0 m c)) (CW1 m c) (DIS m c)
def Y2 : S50000x64.Idx → EReal :=
  Cert.Gcn.matScaled (Cert.Gcn.combine (aggOf (Y1 m c) (SRC m c) (DST m c)) (Y1 m c) (DIS m c) (CB1 m c)) (CW2 m c) (DIS m c)
def SC : S50000x1.Idx → EReal :=
  Cert.Gcn.score (Cert.Gcn.combine (aggOf (Y2 m c) (SRC m c) (DST m c)) (Y2 m c) (DIS m c) (CB2 m c)) (m ((c : Thread nD τ).loc main_arg8)) (m ((c : Thread nD τ).loc main_arg9))
/-- The label words, normalised and as a column. -/
def normLbl (ls : S200000.Idx → BitVec 32) : S200000x1.Idx → BitVec 32 :=
  broadcastInDim S200000x1 ![0] bcast_S200000_S200000x1_0
    (select (cmpi .slt ls (broadcastInDim S200000 ![] bcast_S_S200000 (constantI S_ 32 0#32)))
      (addi ls (broadcastInDim S200000 ![] bcast_S_S200000 (constantI S_ 32 50000#32))) ls)
def OUT : S200000.Idx → EReal :=
  shapeCast S200000
    (Cert.Gcn.sigProd
      (Host.gather gather_S50000x1_S200000x1_S200000x1_1_0_n_n_0_1_11 (SC m c) (normLbl (m ((c : Thread nD τ).loc main_arg11))))
      (Host.gather gather_S50000x1_S200000x1_S200000x1_1_0_n_n_0_1_11 (SC m c) (normLbl (m ((c : Thread nD τ).loc main_arg12)))))
    shapeCasts_S200000x1_S200000

/-! ## The boundaries -/

theorem e1_src : W1 m ρ c (Proc.devRef .tc main_v1) = SRC m c := by
  show StableHlo.after hostOps0 (W0 m ρ c) _ = _
  after_results_simp
  all_goals rfl
theorem e1_dst : W1 m ρ c (Proc.devRef .tc main_v3) = DST m c := by
  show StableHlo.after hostOps0 (W0 m ρ c) _ = _
  after_results_simp
  all_goals rfl
theorem e1_dis : W1 m ρ c (Proc.devRef .tc main_v11) = DIS m c := by
  show StableHlo.after hostOps0 (W0 m ρ c) _ = _
  after_results_simp
  all_goals rfl
theorem e1_disd : W1 m ρ c (Proc.devRef .tc main_v12) = DISD m c := by
  show StableHlo.after hostOps0 (W0 m ρ c) _ = _
  after_results_simp
  all_goals rfl
theorem e1_disp : W1 m ρ c (Proc.devRef .tc main_v13) = DISP m c := by
  show StableHlo.after hostOps0 (W0 m ρ c) _ = _
  after_results_simp
  all_goals rfl
theorem e1_cw0 : W1 m ρ c (Proc.devRef .tc main_v15) = CW0 m c := by
  show StableHlo.after hostOps0 (W0 m ρ c) _ = _
  after_results_simp
  all_goals rfl

theorem e2_y : W2 m ρ c (Proc.devRef .tc main_v16) = YD m c := by
  refine (W2_arr m ρ c 5).trans ((Cert.KernelIdeal.RegionValue.final0 (V1 m ρ) c).trans ?_)
  have h0 : V1 m ρ c (Pipeline.arrRef spec0 0) = m ((c : Thread nD τ).loc main_arg0) := keep1 m ρ c main_arg0 (by decide)
  have h1 : V1 m ρ c (Pipeline.arrRef spec0 1) = m ((c : Thread nD τ).loc main_arg2) := keep1 m ρ c main_arg2 (by decide)
  have h2 : V1 m ρ c (Pipeline.arrRef spec0 2) = m ((c : Thread nD τ).loc main_arg3) := keep1 m ρ c main_arg3 (by decide)
  have h3 : V1 m ρ c (Pipeline.arrRef spec0 3) = CW0 m c := e1_cw0 m ρ c
  have h4 : V1 m ρ c (Pipeline.arrRef spec0 4) = DISD m c := e1_disd m ρ c
  rw [h0, h1, h2, h3, h4]
  rfl

theorem e3_cw0 : W3 m ρ c (Proc.devRef .tc main_v18) = CW0 m c := by
  have h : W3 m ρ c (Proc.devRef .tc main_v18)
      = shapeCast S64x64 (extractStridedSlice S1x64x64 ![0, 0, 0] (W2 m ρ c (Proc.devRef .tc main_arg6)) slices_S3x64x64_S1x64x64_0_0_0) shapeCasts_S1x64x64_S64x64 := by
    show StableHlo.after hostOps1 (W2 m ρ c) _ = _
    after_results_simp
    all_goals rfl
  rw [h, (arg_at m ρ c (b := main_arg6) (by decide) (by decide)).1]
  rfl

theorem e4_y : W4 m ρ c (Proc.devRef .tc main_v19) = YP m c := by
  refine (W4_arr m ρ c 5).trans ((Cert.KernelIdeal.RegionValue.final1 (V3 m ρ) c).trans ?_)
  have h0 : V3 m ρ c (Pipeline.arrRef spec1 0) = m ((c : Thread nD τ).loc main_arg1) := (arg_at m ρ c (b := main_arg1) (by decide) (by decide)).2.1
  have h1 : V3 m ρ c (Pipeline.arrRef spec1 1) = m ((c : Thread nD τ).loc main_arg4) := (arg_at m ρ c (b := main_arg4) (by decide) (by decide)).2.1
  have h2 : V3 m ρ c (Pipeline.arrRef spec1 2) = m ((c : Thread nD τ).loc main_arg5) := (arg_at m ρ c (b := main_arg5) (by decide) (by decide)).2.1
  have h3 : V3 m ρ c (Pipeline.arrRef spec1 3) = CW0 m c := e3_cw0 m ρ c
  have h4 : V3 m ρ c (Pipeline.arrRef spec1 4) = DISP m c := ((mid_at m ρ c (b := main_v13) (by decide)).2.1).trans (e1_disp m ρ c)
  rw [h0, h1, h2, h3, h4]
  rfl

theorem e4_y16 : W4 m ρ c (Proc.devRef .tc main_v16) = YD m c := by
  refine (W4_of_ne m ρ c main_v16 (by decide)).trans ?_
  refine Eq.trans ?_ (e2_y m ρ c)
  show StableHlo.after hostOps1 (W2 m ρ c) _ = _
  host_keep

/-! ### The first round's operands -/

theorem e5_y0 : W5 m ρ c (Proc.devRef .tc main_v20) = Y0 m c := by
  have h : W5 m ρ c (Proc.devRef .tc main_v20)
      = concatenate S50000x64 0 [⟨S20000x64, W4 m ρ c (Proc.devRef .tc main_v16)⟩, ⟨S30000x64, W4 m ρ c (Proc.devRef .tc main_v19)⟩] concatenates_S20000x64_S30000x64_S50000x64_d0 := by
    show StableHlo.after hostOps2 (W4 m ρ c) _ = _
    after_results_simp
    all_goals rfl
  rw [h, e4_y16, e4_y]
  rfl

theorem e5_agg : W5 m ρ c (Proc.devRef .tc main_v30) = aggOf (Y0 m c) (SRC m c) (DST m c) := by
  have h : W5 m ρ c (Proc.devRef .tc main_v30)
      = aggOf (concatenate S50000x64 0 [⟨S20000x64, W4 m ρ c (Proc.devRef .tc main_v16)⟩, ⟨S30000x64, W4 m ρ c (Proc.devRef .tc main_v19)⟩] concatenates_S20000x64_S30000x64_S50000x64_d0)
          (W4 m ρ c (Proc.devRef .tc main_v1)) (W4 m ρ c (Proc.devRef .tc main_v3)) := by
    show StableHlo.after hostOps2 (W4 m ρ c) _ = _
    after_results_simp
    all_goals rfl
  rw [h, e4_y16, e4_y, (mid_at m ρ c (b := main_v1) (by decide)).2.2.1, (mid_at m ρ c (b := main_v3) (by decide)).2.2.1, e1_src, e1_dst]
  rfl

theorem e5_cb : W5 m ρ c (Proc.devRef .tc main_v32) = CB0 m c := by
  have h : W5 m ρ c (Proc.devRef .tc main_v32)
      = shapeCast S64 (extractStridedSlice S1x64 ![0, 0] (W4 m ρ c (Proc.devRef .tc main_arg7)) slices_S3x64_S1x64_0_0) shapeCasts_S1x64_S64 := by
    show StableHlo.after hostOps2 (W4 m ρ c) _ = _
    after_results_simp
    all_goals rfl
  rw [h, (arg_at m ρ c (b := main_arg7) (by decide) (by decide)).2.2.1]
  rfl

theorem e5_cw : W5 m ρ c (Proc.devRef .tc main_v34) = CW1 m c := by
  have h : W5 m ρ c (Proc.devRef .tc main_v34)
      = shapeCast S64x64 (extractStridedSlice S1x64x64 ![1, 0, 0] (W4 m ρ c (Proc.devRef .tc main_arg6)) slices_S3x64x64_S1x64x64_1_0_0) shapeCasts_S1x64x64_S64x64 := by
    show StableHlo.after hostOps2 (W4 m ρ c) _ = _
    after_results_simp
    all_goals rfl
  rw [h, (arg_at m ρ c (b := main_arg6) (by decide) (by decide)).2.2.1]
  rfl

theorem e5_dis : W5 m ρ c (Proc.devRef .tc main_v11) = DIS m c :=
  ((mid_at m ρ c (b := main_v11) (by decide)).2.2.2.1).trans (e1_dis m ρ c)

theorem e6_y1 : W6 m ρ c (Proc.devRef .tc main_v35) = Y1 m c := by
  refine (W6_arr m ρ c 5).trans ((Cert.KernelIdeal.RegionValue.final2 (V5 m ρ) c).trans ?_)
  have h0 : V5 m ρ c (Pipeline.arrRef spec2 0) = aggOf (Y0 m c) (SRC m c) (DST m c) := e5_agg m ρ c
  have h1 : V5 m ρ c (Pipeline.arrRef spec2 1) = Y0 m c := e5_y0 m ρ c
  have h2 : V5 m ρ c (Pipeline.arrRef spec2 2) = DIS m c := e5_dis m ρ c
  have h3 : V5 m ρ c (Pipeline.arrRef spec2 3) = CB0 m c := e5_cb m ρ c
  have h4 : V5 m ρ c (Pipeline.arrRef spec2 4) = CW1 m c := e5_cw m ρ c
  rw [h0, h1, h2, h3, h4]
  rfl

/-! ### The second round's operands -/

theorem e7_y1 : W7 m ρ c (Proc.devRef .tc main_v35) = Y1 m c := by
  refine Eq.trans ?_ (e6_y1 m ρ c)
  show StableHlo.after hostOps3 (W6 m ρ c) _ = _
  host_keep

theorem e7_agg : W7 m ρ c (Proc.devRef .tc main_v45) = aggOf (Y1 m c) (SRC m c) (DST m c) := by
  have h : W7 m ρ c (Proc.devRef .tc main_v45)
      = aggOf (W6 m ρ c (Proc.devRef .tc main_v35)) (W6 m ρ c (Proc.devRef .tc main_v1)) (W6 m ρ c (Proc.devRef .tc main_v3)) := by
    show StableHlo.after hostOps3 (W6 m ρ c) _ = _
    after_results_simp
    all_goals rfl
  rw [h, e6_y1, (mid_at m ρ c (b := main_v1) (by decide)).2.2.2.2.1, (mid_at m ρ c (b := main_v3) (by decide)).2.2.2.2.1, e1_src, e1_dst]

theorem e7_cb : W7 m ρ c (Proc.devRef .tc main_v47) = CB1 m c := by
  have h : W7 m ρ c (Proc.devRef .tc main_v47)
      = shapeCast S64 (extractStridedSlice S1x64 ![1, 0] (W6 m ρ c (Proc.devRef .tc main_arg7)) slices_S3x64_S1x64_1_0) shapeCasts_S1x64_S64 := by
    show StableHlo.after hostOps3 (W6 m ρ c) _ = _
    after_results_simp
    all_goals rfl
  rw [h, (arg_at m ρ c (b := main_arg7) (by decide) (by decide)).2.2.2.2.1]
  rfl

theorem e7_cw : W7 m ρ c (Proc.devRef .tc main_v49) = CW2 m c := by
  have h : W7 m ρ c (Proc.devRef .tc main_v49)
      = shapeCast S64x64 (extractStridedSlice S1x64x64 ![2, 0, 0] (W6 m ρ c (Proc.devRef .tc main_arg6)) slices_S3x64x64_S1x64x64_2_0_0) shapeCasts_S1x64x64_S64x64 := by
    show StableHlo.after hostOps3 (W6 m ρ c) _ = _
    after_results_simp
    all_goals rfl
  rw [h, (arg_at m ρ c (b := main_arg6) (by decide) (by decide)).2.2.2.2.1]
  rfl

theorem e7_dis : W7 m ρ c (Proc.devRef .tc main_v11) = DIS m c :=
  ((mid_at m ρ c (b := main_v11) (by decide)).2.2.2.2.2.1).trans (e1_dis m ρ c)

theorem e8_y2 : W8 m ρ c (Proc.devRef .tc main_v50) = Y2 m c := by
  refine (W8_arr m ρ c 5).trans ((Cert.KernelIdeal.RegionValue.final3 (V7 m ρ) c).trans ?_)
  have h0 : V7 m ρ c (Pipeline.arrRef spec3 0) = aggOf (Y1 m c) (SRC m c) (DST m c) := e7_agg m ρ c
  have h1 : V7 m ρ c (Pipeline.arrRef spec3 1) = Y1 m c := e7_y1 m ρ c
  have h2 : V7 m ρ c (Pipeline.arrRef spec3 2) = DIS m c := e7_dis m ρ c
  have h3 : V7 m ρ c (Pipeline.arrRef spec3 3) = CB1 m c := e7_cb m ρ c
  have h4 : V7 m ρ c (Pipeline.arrRef spec3 4) = CW2 m c := e7_cw m ρ c
  rw [h0, h1, h2, h3, h4]
  rfl

/-! ### The third round's operands, and the scores -/

theorem e9_y2 : W9 m ρ c (Proc.devRef .tc main_v50) = Y2 m c := by
  refine Eq.trans ?_ (e8_y2 m ρ c)
  show StableHlo.after hostOps4 (W8 m ρ c) _ = _
  host_keep

theorem e9_agg : W9 m ρ c (Proc.devRef .tc main_v60) = aggOf (Y2 m c) (SRC m c) (DST m c) := by
  have h : W9 m ρ c (Proc.devRef .tc main_v60)
      = aggOf (W8 m ρ c (Proc.devRef .tc main_v50)) (W8 m ρ c (Proc.devRef .tc main_v1)) (W8 m ρ c (Proc.devRef .tc main_v3)) := by
    show StableHlo.after hostOps4 (W8 m ρ c) _ = _
    after_results_simp
    all_goals rfl
  rw [h, e8_y2, (mid_at m ρ c (b := main_v1) (by decide)).2.2.2.2.2.2.1, (mid_at m ρ c (b := main_v3) (by decide)).2.2.2.2.2.2.1, e1_src, e1_dst]

theorem e9_cb : W9 m ρ c (Proc.devRef .tc main_v62) = CB2 m c := by
  have h : W9 m ρ c (Proc.devRef .tc main_v62)
      = shapeCast S64 (extractStridedSlice S1x64 ![2, 0] (W8 m ρ c (Proc.devRef .tc main_arg7)) slices_S3x64_S1x64_2_0) shapeCasts_S1x64_S64 := by
    show StableHlo.after hostOps4 (W8 m ρ c) _ = _
    after_results_simp
    all_goals rfl
  rw [h, (arg_at m ρ c (b := main_arg7) (by decide) (by decide)).2.2.2.2.2.2.1]
  rfl

theorem e9_dis : W9 m ρ c (Proc.devRef .tc main_v11) = DIS m c :=
  ((mid_at m ρ c (b := main_v11) (by decide)).2.2.2.2.2.2.2).trans (e1_dis m ρ c)

theorem e10_sc : W10 m ρ c (Proc.devRef .tc main_v63) = SC m c := by
  refine (W10_arr m ρ c 6).trans ((Cert.KernelIdeal.RegionValue.final4 (V9 m ρ) c).trans ?_)
  have h0 : V9 m ρ c (Pipeline.arrRef spec4 0) = aggOf (Y2 m c) (SRC m c) (DST m c) := e9_agg m ρ c
  have h1 : V9 m ρ c (Pipeline.arrRef spec4 1) = Y2 m c := e9_y2 m ρ c
  have h2 : V9 m ρ c (Pipeline.arrRef spec4 2) = DIS m c := e9_dis m ρ c
  have h3 : V9 m ρ c (Pipeline.arrRef spec4 3) = CB2 m c := e9_cb m ρ c
  have h4 : V9 m ρ c (Pipeline.arrRef spec4 4) = m ((c : Thread nD τ).loc main_arg8) := (arg_at m ρ c (b := main_arg8) (by decide) (by decide)).2.2.2.2.2.2.2.1
  have h5 : V9 m ρ c (Pipeline.arrRef spec4 5) = m ((c : Thread nD τ).loc main_arg9) := (arg_at m ρ c (b := main_arg9) (by decide) (by decide)).2.2.2.2.2.2.2.1
  rw [h0, h1, h2, h3, h4, h5]
  rfl

/-! ### The label gathers, the logistic kernel, the result -/

theorem e11_sd : W11 m ρ c (Proc.devRef .tc main_v70)
    = Host.gather gather_S50000x1_S200000x1_S200000x1_1_0_n_n_0_1_11 (SC m c) (normLbl (m ((c : Thread nD τ).loc main_arg11))) := by
  have h : W11 m ρ c (Proc.devRef .tc main_v70)
      = Host.gather gather_S50000x1_S200000x1_S200000x1_1_0_n_n_0_1_11 (W10 m ρ c (Proc.devRef .tc main_v63)) (normLbl (W10 m ρ c (Proc.devRef .tc main_arg11))) := by
    show StableHlo.after hostOps5 (W10 m ρ c) _ = _
    after_results_simp
    all_goals rfl
  rw [h, e10_sc, (arg_at m ρ c (b := main_arg11) (by decide) (by decide)).2.2.2.2.2.2.2.2]

theorem e11_sp : W11 m ρ c (Proc.devRef .tc main_v77)
    = Host.gather gather_S50000x1_S200000x1_S200000x1_1_0_n_n_0_1_11 (SC m c) (normLbl (m ((c : Thread nD τ).loc main_arg12))) := by
  have h : W11 m ρ c (Proc.devRef .tc main_v77)
      = Host.gather gather_S50000x1_S200000x1_S200000x1_1_0_n_n_0_1_11 (W10 m ρ c (Proc.devRef .tc main_v63)) (normLbl (W10 m ρ c (Proc.devRef .tc main_arg12))) := by
    show StableHlo.after hostOps5 (W10 m ρ c) _ = _
    after_results_simp
    all_goals rfl
  rw [h, e10_sc, (arg_at m ρ c (b := main_arg12) (by decide) (by decide)).2.2.2.2.2.2.2.2]

theorem e13_out : W13 m ρ c (Proc.devRef .tc main_v79) = OUT m c := by
  have h : W13 m ρ c (Proc.devRef .tc main_v79)
      = shapeCast S200000 (W12 m ρ c (Proc.devRef .tc main_v78)) shapeCasts_S200000x1_S200000 := by
    show StableHlo.after hostOps6 (W12 m ρ c) _ = _
    after_results_simp
    all_goals rfl
  have h12 : W12 m ρ c (Proc.devRef .tc main_v78)
      = Cert.Gcn.sigProd (V11 m ρ c (Pipeline.arrRef spec5 0)) (V11 m ρ c (Pipeline.arrRef spec5 1)) :=
    (W12_arr m ρ c 2).trans (Cert.KernelIdeal.RegionValue.final5 (V11 m ρ) c)
  have h0 : V11 m ρ c (Pipeline.arrRef spec5 0) = _ := e11_sd m ρ c
  have h1 : V11 m ρ c (Pipeline.arrRef spec5 1) = _ := e11_sp m ρ c
  rw [h, h12, h0, h1]
  rfl

/-! ## The result, by coordinates -/

theorem key_at (e : Fin 1600000) : ((DST m c) (ix1 e)).toInt = Cert.Gcn.keyOf (m ((c : Thread nD τ).loc main_arg10)) e := by
  unfold DST Cert.Gcn.keyOf
  rw [row1_word]
theorem srow_at (e : Fin 1600000) : Cert.Gcn.rowOf ((SRC m c) (ix1 e)) = Cert.Gcn.srowOf (m ((c : Thread nD τ).loc main_arg10)) e := by
  unfold SRC Cert.Gcn.srowOf
  rw [row0_word]

theorem DIS_at (n : Fin 50000) : DIS m c (ix2 n 0) = Cert.Gcn.dOf (m ((c : Thread nD τ).loc main_arg10)) n := by
  unfold DIS
  refine (dis_col _ _ n _ (deg_sum (DST m c) n) (one_col n)).trans ?_
  unfold Cert.Gcn.dOf
  rw [show (fun e => ((DST m c) (ix1 e)).toInt) = Cert.Gcn.keyOf (m ((c : Thread nD τ).loc main_arg10)) from funext (key_at m c)]

theorem CW0_at (k j : Fin 64) : CW0 m c (ix2 k j) = Cert.Gcn.cwOf (m ((c : Thread nD τ).loc main_arg6)) 0 k j := mat0 _ k j
theorem CW1_at (k j : Fin 64) : CW1 m c (ix2 k j) = Cert.Gcn.cwOf (m ((c : Thread nD τ).loc main_arg6)) 1 k j := mat1 _ k j
theorem CW2_at (k j : Fin 64) : CW2 m c (ix2 k j) = Cert.Gcn.cwOf (m ((c : Thread nD τ).loc main_arg6)) 2 k j := mat2 _ k j
theorem CB0_at (j : Fin 64) : CB0 m c (ix1 j) = Cert.Gcn.cbOf (m ((c : Thread nD τ).loc main_arg7)) 0 j := bias0 _ j
theorem CB1_at (j : Fin 64) : CB1 m c (ix1 j) = Cert.Gcn.cbOf (m ((c : Thread nD τ).loc main_arg7)) 1 j := bias1 _ j
theorem CB2_at (j : Fin 64) : CB2 m c (ix1 j) = Cert.Gcn.cbOf (m ((c : Thread nD τ).loc main_arg7)) 2 j := bias2 _ j

/-- The pre-scaled rows after the projection. -/
theorem Y0_at (n : Fin 50000) (j : Fin 64) :
    Y0 m c (ix2 n j)
      = Cert.Gcn.scaled (Cert.Gcn.dOf (m ((c : Thread nD τ).loc main_arg10)))
          (Cert.Gcn.x0Of (m ((c : Thread nD τ).loc main_arg0)) (m ((c : Thread nD τ).loc main_arg2)) (m ((c : Thread nD τ).loc main_arg3))
            (m ((c : Thread nD τ).loc main_arg1)) (m ((c : Thread nD τ).loc main_arg4)) (m ((c : Thread nD τ).loc main_arg5)))
          (Cert.Gcn.cwOf (m ((c : Thread nD τ).loc main_arg6)) 0) n j := by
  unfold Y0
  rw [rows_joined]
  unfold Cert.Gcn.scaled Cert.Gcn.mm Cert.Gcn.x0Of
  split
  · rename_i h
    unfold YD
    rw [Cert.Gcn.projScaled_apply]
    unfold Cert.Gcn.projScaledAt DISD
    rw [col_head, DIS_at]
    refine congrArg₂ (· * ·) (Finset.sum_congr rfl fun k _ => ?_) rfl
    rw [CW0_at]
  · rename_i h
    unfold YP
    rw [Cert.Gcn.projScaled_apply]
    unfold Cert.Gcn.projScaledAt DISP
    rw [col_tail, DIS_at]
    refine congrArg₂ (· * ·) (Finset.sum_congr rfl fun k _ => ?_) (congrArg _ (Fin.ext ?_))
    · rw [CW0_at]
    · show n.val - 20000 + 20000 = n.val
      omega

/-- The idealized kernel's result array is the first way of computing three rounds. -/
theorem OUT_eq :
    OUT m c
      = Cert.Gcn.kerOut (m ((c : Thread nD τ).loc main_arg0)) (m ((c : Thread nD τ).loc main_arg2)) (m ((c : Thread nD τ).loc main_arg3))
          (m ((c : Thread nD τ).loc main_arg1)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) := by
  funext i
  obtain ⟨i0, rfl⟩ : ∃ i0 : Fin 200000, i = ix1 i0 := ⟨i 0, eq_ix1 i⟩
  have hY1 := fun n j => round_at (Y0 m c) (DIS m c) (CB0 m c) (CW1 m c) (SRC m c) (DST m c) _ _ _ _ _ _
    (Y0_at m c) (DIS_at m c) (CB0_at m c) (CW1_at m c) (key_at m c) (srow_at m c) n j
  have hY2 := fun n j => round_at (Y1 m c) (DIS m c) (CB1 m c) (CW2 m c) (SRC m c) (DST m c) _ _ _ _ _ _
    hY1 (DIS_at m c) (CB1_at m c) (CW2_at m c) (key_at m c) (srow_at m c) n j
  have hS := fun n => score_at (Y2 m c) (DIS m c) (CB2 m c) (m ((c : Thread nD τ).loc main_arg8)) (m ((c : Thread nD τ).loc main_arg9))
    (SRC m c) (DST m c) _ _ _ _ _ hY2 (DIS_at m c) (CB2_at m c) (key_at m c) (srow_at m c) n
  unfold OUT
  rw [shapeCast_a1_a_apply]
  unfold Cert.Gcn.sigProd normLbl
  rw [scores_gathered (SC m c) _ (m ((c : Thread nD τ).loc main_arg11) (ix1 i0)) i0 (norm_at _ _ _ _ i0),
    scores_gathered (SC m c) _ (m ((c : Thread nD τ).loc main_arg12) (ix1 i0)) i0 (norm_at _ _ _ _ i0)]
  unfold SC
  rw [hS, hS]
  rfl

/-- The last boundary's contents of the result buffer. -/
theorem result_eq :
    W13 m ρ c (Proc.devRef .tc main_v79)
      = Cert.Gcn.kerOut (m ((c : Thread nD τ).loc main_arg0)) (m ((c : Thread nD τ).loc main_arg2)) (m ((c : Thread nD τ).loc main_arg3))
          (m ((c : Thread nD τ).loc main_arg1)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) :=
  (e13_out m ρ c).trans (OUT_eq m c)

end Cert.KernelIdeal.Chain

end
-- ==== Proof.LibGatherVec.lean ====
/-
  A general lemma: `stablehlo.gather` of single ELEMENTS of a rank-1 operand, read at an index.

  What `v[idx]` / `jnp.take(v, idx)` of a vector `v : [N]` at an integer vector `idx : [R]` lowers to: a gather with
  offset_dims `[]`, collapsed_slice_dims `[0]`, start_index_map `[0]`, index_vector_dim `1` and slice sizes `[1]` over
  the indices as a column `[R, 1]`. Result element `t` is `v` at `idx[t, 0]` — read as a signed integer and clamped
  into `[0, N − 1]`, as the gather clamps every start index: the operand's one axis is collapsed, so the clamped start
  index is the whole coordinate.
-/
import Idealize.ShloMosaic.PureOps
import Idealize.ShloMosaic.Lib.ValueIdx

noncomputable section

namespace Cert.LibGatherVec

open Idealize.ShloMosaic Idealize.ShloMosaic.ValueIdx

variable {α : Type}

/-- Those dimension numbers for an operand `[N]`, start indices `[R, 1]` and result `[R]`; their conditions `wf` are
    decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ELEMENTS READ AT `t`: the operand at `r`, the start index `idx[t, 0]` read signed and clamped into
    `[0, N − 1]`. The position is a variable with its defining equation, so that a user substitutes the position it has
    computed without rewriting under an index's bound proof. -/
theorem gather_vec_apply {N R w : Nat}
    (wf : GatherDims.WF ⟨1, ![N]⟩ ⟨2, ![R, 1]⟩ ⟨1, ![R]⟩ [] [0] [] [0] [] 1 ![1])
    (v : (⟨1, ![N]⟩ : Shape).Idx → α) (idx : IVec ⟨2, ![R, 1]⟩ w) (t : Fin R) (r : Fin N)
    (hr : r.val = min (idx (ix2 t (0 : Fin 1))).toInt.toNat (N - 1)) :
    Host.gather (vecDims N R wf) v idx (ix1 t) = v (ix1 r) := by
  unfold Host.gather
  refine congrArg v (funext fun a => Fin.ext ?_)
  obtain rfl : a = 0 := Subsingleton.elim _ _
  show (vecDims N R wf).start (ix1 t) idx 0 + (vecDims N R wf).batchCoord (ix1 t) 0 + (vecDims N R wf).offCoord (ix1 t) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 t) ⟨List.idxOf (0 : Fin 1) (vecDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, hr]
  rfl

end Cert.LibGatherVec

end
-- ==== Proof.RefRead.lean ====
/-
  The reference program read by coordinates: its result is the model's `refOut` of its thirteen argument arrays.

  The program is read one operation at a time, outermost last. The edge list's two rows give each edge's source
  and destination words; a gather reads the row of the normalised word (a negative word has the node count added,
  then the signed value is clamped), a scatter-add delivers to the node whose number is the signed value of the raw
  destination word. The degree column is the inverse square root of one plus the number of edges delivered to a node.
  One round is `max (Σ_{e → n} (x·C)(src e) · (d (src e) · d (dst e)) + (x·C) n · (d n · d n) + b) 0`; it is stated once
  over arrays given by their coordinate readings and used for the three rounds.
-/
import proofs.«133231_j73280732004420_2_alg».proof.Proof.Gen.ReferenceIdeal.Read
import proofs.«133231_j73280732004420_2_alg».proof.Proof.Model
import proofs.«133231_j73280732004420_2_alg».proof.Proof.LibScatterAdd
import proofs.«133231_j73280732004420_2_alg».proof.Proof.LibGatherRows
import proofs.«133231_j73280732004420_2_alg».proof.Proof.LibGatherVec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Gcn

/-- The single-precision word `0x3F800000` denotes one: sign bit clear, exponent field `127`, fraction `0`, so the
    value is `2 ^ 23 · 2 ^ (127 - 127 - 23) = 1`. -/
theorem one_word : Ideal.ofBits .f32 0x3F800000#32 = 1 := by
  unfold Ideal.ofBits Ideal.ieee
  have e1 : (BitVec.extractLsb' (8 + 23) 1 (0x3F800000#32 : BitVec 32) == 1#1) = false := by decide
  have e2 : (BitVec.extractLsb' 23 8 (0x3F800000#32 : BitVec 32)).toNat = 127 := by decide
  have e3 : (BitVec.extractLsb' 0 23 (0x3F800000#32 : BitVec 32)).toNat = 0 := by decide
  simp only [e1, e2, e3]
  norm_num

variable (x0 : (⟨S20000x128, .f32⟩ : BufTy).Contents (Elt Ideal)) (x1 : (⟨S30000x256, .f32⟩ : BufTy).Contents (Elt Ideal))
  (x2 : (⟨S128x64, .f32⟩ : BufTy).Contents (Elt Ideal)) (x3 : (⟨S64, .f32⟩ : BufTy).Contents (Elt Ideal))
  (x4 : (⟨S256x64, .f32⟩ : BufTy).Contents (Elt Ideal)) (x5 : (⟨S64, .f32⟩ : BufTy).Contents (Elt Ideal))
  (x6 : (⟨S3x64x64, .f32⟩ : BufTy).Contents (Elt Ideal)) (x7 : (⟨S3x64, .f32⟩ : BufTy).Contents (Elt Ideal))
  (x8 : (⟨S64x1, .f32⟩ : BufTy).Contents (Elt Ideal)) (x9 : (⟨S1, .f32⟩ : BufTy).Contents (Elt Ideal))
  (x10 : (⟨S2x1600000, .i32⟩ : BufTy).Contents (Elt Ideal))
  (x11 x12 : (⟨S200000, .i32⟩ : BufTy).Contents (Elt Ideal))

/-! ## The edge list: row 0 holds the source words, row 1 the destination words -/

theorem v12_read (e : Fin 1600000) : val_main_v12 (F := Ideal) x10 (ix1 e) = x10 (ix2 0 e) := by
  rw [val_main_v12_apply, val_main_v11_apply]
  refine congrArg x10 (funext fun a => ?_)
  match a with
  | ⟨0, _⟩ => rfl
  | ⟨1, _⟩ => exact Fin.ext (Nat.mod_eq_of_lt e.isLt)

theorem v14_read (e : Fin 1600000) : val_main_v14 (F := Ideal) x10 (ix1 e) = x10 (ix2 1 e) := by
  rw [val_main_v14_apply, val_main_v13_apply]
  refine congrArg x10 (funext fun a => ?_)
  match a with
  | ⟨0, _⟩ => rfl
  | ⟨1, _⟩ => exact Fin.ext (Nat.mod_eq_of_lt e.isLt)

/-! ## The start indices of the gathers: a negative word has the node count added -/

theorem v27_read (e : Fin 1600000) : val_main_v27 (F := Ideal) x10 (ix2 e (0 : Fin 1)) = normWord (x10 (ix2 0 e)) := by
  have hi : idx_main_v27 (ix2 e (0 : Fin 1)) = ix1 e := funext fun a => match a with | ⟨0, _⟩ => rfl
  rw [val_main_v27_apply, hi, val_main_v26_apply, val_main_v23_apply, val_main_v25_apply, val_main_v22_apply,
    val_main_v24_apply, val_main_c_apply, val_main_c_2_apply, v12_read]
  rfl

theorem v34_read (e : Fin 1600000) : val_main_v34 (F := Ideal) x10 (ix2 e (0 : Fin 1)) = normWord (x10 (ix2 1 e)) := by
  have hi : idx_main_v34 (ix2 e (0 : Fin 1)) = ix1 e := funext fun a => match a with | ⟨0, _⟩ => rfl
  rw [val_main_v34_apply, hi, val_main_v33_apply, val_main_v30_apply, val_main_v32_apply, val_main_v29_apply,
    val_main_v31_apply, val_main_c_3_apply, val_main_c_4_apply, v14_read]
  rfl

theorem v48_read (e : Fin 1600000) : val_main_v48 (F := Ideal) x10 (ix2 e (0 : Fin 1)) = normWord (x10 (ix2 0 e)) := by
  have hi : idx_main_v48 (ix2 e (0 : Fin 1)) = ix1 e := funext fun a => match a with | ⟨0, _⟩ => rfl
  rw [val_main_v48_apply, hi, val_main_v47_apply, val_main_v44_apply, val_main_v46_apply, val_main_v43_apply,
    val_main_v45_apply, val_main_c_5_apply, val_main_c_6_apply, v12_read]
  rfl

theorem v72_read (e : Fin 1600000) : val_main_v72 (F := Ideal) x10 (ix2 e (0 : Fin 1)) = normWord (x10 (ix2 0 e)) := by
  have hi : idx_main_v72 (ix2 e (0 : Fin 1)) = ix1 e := funext fun a => match a with | ⟨0, _⟩ => rfl
  rw [val_main_v72_apply, hi, val_main_v71_apply, val_main_v68_apply, val_main_v70_apply, val_main_v67_apply,
    val_main_v69_apply, val_main_c_8_apply, val_main_c_9_apply, v12_read]
  rfl

theorem v96_read (e : Fin 1600000) : val_main_v96 (F := Ideal) x10 (ix2 e (0 : Fin 1)) = normWord (x10 (ix2 0 e)) := by
  have hi : idx_main_v96 (ix2 e (0 : Fin 1)) = ix1 e := funext fun a => match a with | ⟨0, _⟩ => rfl
  rw [val_main_v96_apply, hi, val_main_v95_apply, val_main_v92_apply, val_main_v94_apply, val_main_v91_apply,
    val_main_v93_apply, val_main_c_11_apply, val_main_c_12_apply, v12_read]
  rfl

theorem v117_read (e : Fin 200000) : val_main_v117 (F := Ideal) x11 (ix2 e (0 : Fin 1)) = normWord (x11 (ix1 e)) := by
  have hi : idx_main_v117 (ix2 e (0 : Fin 1)) = ix1 e := funext fun a => match a with | ⟨0, _⟩ => rfl
  rw [val_main_v117_apply, hi, val_main_v116_apply, val_main_v113_apply, val_main_v115_apply, val_main_v112_apply,
    val_main_v114_apply, val_main_c_14_apply, val_main_c_15_apply]
  rfl

theorem v129_read (e : Fin 200000) : val_main_v129 (F := Ideal) x12 (ix2 e (0 : Fin 1)) = normWord (x12 (ix1 e)) := by
  have hi : idx_main_v129 (ix2 e (0 : Fin 1)) = ix1 e := funext fun a => match a with | ⟨0, _⟩ => rfl
  rw [val_main_v129_apply, hi, val_main_v128_apply, val_main_v125_apply, val_main_v127_apply, val_main_v124_apply,
    val_main_v126_apply, val_main_c_16_apply, val_main_c_17_apply]
  rfl

/-! ## The start indices of the scatters: the raw destination words -/

theorem v17_read (e : Fin 1600000) : val_main_v17 (F := Ideal) x10 (ix2 e (0 : Fin 1)) = x10 (ix2 1 e) := by
  have hi : idx_main_v17 (ix2 e (0 : Fin 1)) = ix1 e := funext fun a => match a with | ⟨0, _⟩ => rfl
  rw [val_main_v17_apply, hi, v14_read]

theorem v53_read (e : Fin 1600000) : val_main_v53 (F := Ideal) x10 (ix2 e (0 : Fin 1)) = x10 (ix2 1 e) := by
  have hi : idx_main_v53 (ix2 e (0 : Fin 1)) = ix1 e := funext fun a => match a with | ⟨0, _⟩ => rfl
  rw [val_main_v53_apply, hi, v14_read]

theorem v77_read (e : Fin 1600000) : val_main_v77 (F := Ideal) x10 (ix2 e (0 : Fin 1)) = x10 (ix2 1 e) := by
  have hi : idx_main_v77 (ix2 e (0 : Fin 1)) = ix1 e := funext fun a => match a with | ⟨0, _⟩ => rfl
  rw [val_main_v77_apply, hi, v14_read]

theorem v101_read (e : Fin 1600000) : val_main_v101 (F := Ideal) x10 (ix2 e (0 : Fin 1)) = x10 (ix2 1 e) := by
  have hi : idx_main_v101 (ix2 e (0 : Fin 1)) = ix1 e := funext fun a => match a with | ⟨0, _⟩ => rfl
  rw [val_main_v101_apply, hi, v14_read]

/-! ## The printed gather and scatter records, read by the general lemmas -/

theorem gatherV_apply (v : (⟨S50000, .f32⟩ : BufTy).Contents (Elt Ideal)) (gi : (⟨S1600000x1, .i32⟩ : BufTy).Contents (Elt Ideal))
    (e : Fin 1600000) (r : Fin 50000) (hr : r.val = min (gi (ix2 e (0 : Fin 1))).toInt.toNat (50000 - 1)) :
    Host.gather gather_S50000_S1600000x1_S1600000_n_0_n_n_0_1_1 v gi (ix1 e) = v (ix1 r) :=
  Cert.LibGatherVec.gather_vec_apply Facts₀.gather_S50000_S1600000x1_S1600000_n_0_n_n_0_1_1_wf v gi e r hr

theorem gatherE_apply (X : (⟨S50000x64, .f32⟩ : BufTy).Contents (Elt Ideal)) (gi : (⟨S1600000x1, .i32⟩ : BufTy).Contents (Elt Ideal))
    (e : Fin 1600000) (j : Fin 64) (r : Fin 50000) (hr : r.val = min (gi (ix2 e (0 : Fin 1))).toInt.toNat (50000 - 1)) :
    Host.gather gather_S50000x64_S1600000x1_S1600000x64_1_0_n_n_0_1_164 X gi (ix2 e j) = X (ix2 r j) :=
  Cert.Lib.GatherRows.gather_rows_apply Facts₀.gather_S50000x64_S1600000x1_S1600000x64_1_0_n_n_0_1_164_wf X gi e j r hr

theorem gatherL_apply (X : (⟨S50000x64, .f32⟩ : BufTy).Contents (Elt Ideal)) (gi : (⟨S200000x1, .i32⟩ : BufTy).Contents (Elt Ideal))
    (t : Fin 200000) (j : Fin 64) (r : Fin 50000) (hr : r.val = min (gi (ix2 t (0 : Fin 1))).toInt.toNat (50000 - 1)) :
    Host.gather gather_S50000x64_S200000x1_S200000x64_1_0_n_n_0_1_164 X gi (ix2 t j) = X (ix2 r j) :=
  Cert.Lib.GatherRows.gather_rows_apply Facts₀.gather_S50000x64_S200000x1_S200000x64_1_0_n_n_0_1_164_wf X gi t j r hr

/-! ## The degree column -/

theorem v18_read (n : Fin 50000) :
    val_main_v18 (F := Ideal) x10 (ix1 n) = segSum (keyOf x10) (fun _ => (1 : EReal)) n := by
  unfold val_main_v18
  rw [Cert.LibScatterAdd.scatterAdd_vec_apply scatter_S50000_S1600000x1_S1600000_n_0_0_1 rfl rfl rfl rfl,
    val_main_v16_apply, val_main_cst_0_apply]
  unfold segSum keyOf
  refine congrArg₂ (· + ·) Ideal.ofBits_zero_f32 (Finset.sum_congr rfl fun e _ => ?_)
  rw [v17_read, val_main_v15_apply, val_main_cst_apply]
  show (if (x10 (ix2 1 e)).toInt = (n.val : ℤ) then Ideal.ofBits .f32 0x3F800000#32 else 0) = _
  rw [one_word]

theorem v21_read (n : Fin 50000) : val_main_v21 (F := Ideal) x10 (ix1 n) = dOf x10 n := by
  unfold dOf
  rw [val_main_v21_apply, val_main_v20_apply, v18_read, val_main_v19_apply, val_main_cst_1_apply,
    Ideal.hostUnary_rsqrt_def, Ideal.addf_def, Ideal.ofBits_def, one_word]

/-- The column at an edge's source row … -/
theorem v28_read (e : Fin 1600000) : val_main_v28 (F := Ideal) x10 (ix1 e) = dOf x10 (srowOf x10 e) := by
  unfold val_main_v28
  rw [gatherV_apply _ _ e (srowOf x10 e) (by rw [v27_read]; rfl), v21_read]

/-- … and at the row its destination index reads. -/
theorem v35_read (e : Fin 1600000) : val_main_v35 (F := Ideal) x10 (ix1 e) = dOf x10 (drowOf x10 e) := by
  unfold val_main_v35
  rw [gatherV_apply _ _ e (drowOf x10 e) (by rw [v34_read]; rfl), v21_read]

/-! ## The two factors: per edge `d (src) · d (dst)`, per node `d · d`, as columns and broadcast along the rows -/

theorem v37_read (e : Fin 1600000) :
    val_main_v37 (F := Ideal) x10 (ix2 e (0 : Fin 1)) = dOf x10 (srowOf x10 e) * dOf x10 (drowOf x10 e) := by
  have hi : idx_main_v37 (ix2 e (0 : Fin 1)) = ix1 e := funext fun a => match a with | ⟨0, _⟩ => rfl
  rw [val_main_v37_apply, hi, val_main_v36_apply, v28_read, v35_read]
  rfl

theorem v39_read (n : Fin 50000) : val_main_v39 (F := Ideal) x10 (ix2 n (0 : Fin 1)) = dOf x10 n * dOf x10 n := by
  have hi : idx_main_v39 (ix2 n (0 : Fin 1)) = ix1 n := funext fun a => match a with | ⟨0, _⟩ => rfl
  rw [val_main_v39_apply, hi, val_main_v38_apply, v21_read]
  rfl

theorem v50_read (e : Fin 1600000) (j : Fin 64) :
    val_main_v50 (F := Ideal) x10 (ix2 e j) = dOf x10 (srowOf x10 e) * dOf x10 (drowOf x10 e) := by
  have hi : idx_main_v50 (ix2 e j) = ix2 e (0 : Fin 1) := funext fun a => match a with | ⟨0, _⟩ => rfl | ⟨1, _⟩ => rfl
  rw [val_main_v50_apply, hi, v37_read]

theorem v74_read (e : Fin 1600000) (j : Fin 64) :
    val_main_v74 (F := Ideal) x10 (ix2 e j) = dOf x10 (srowOf x10 e) * dOf x10 (drowOf x10 e) := by
  have hi : idx_main_v74 (ix2 e j) = ix2 e (0 : Fin 1) := funext fun a => match a with | ⟨0, _⟩ => rfl | ⟨1, _⟩ => rfl
  rw [val_main_v74_apply, hi, v37_read]

theorem v98_read (e : Fin 1600000) (j : Fin 64) :
    val_main_v98 (F := Ideal) x10 (ix2 e j) = dOf x10 (srowOf x10 e) * dOf x10 (drowOf x10 e) := by
  have hi : idx_main_v98 (ix2 e j) = ix2 e (0 : Fin 1) := funext fun a => match a with | ⟨0, _⟩ => rfl | ⟨1, _⟩ => rfl
  rw [val_main_v98_apply, hi, v37_read]

theorem v55_read (n : Fin 50000) (j : Fin 64) : val_main_v55 (F := Ideal) x10 (ix2 n j) = dOf x10 n * dOf x10 n := by
  have hi : idx_main_v55 (ix2 n j) = ix2 n (0 : Fin 1) := funext fun a => match a with | ⟨0, _⟩ => rfl | ⟨1, _⟩ => rfl
  rw [val_main_v55_apply, hi, v39_read]

theorem v79_read (n : Fin 50000) (j : Fin 64) : val_main_v79 (F := Ideal) x10 (ix2 n j) = dOf x10 n * dOf x10 n := by
  have hi : idx_main_v79 (ix2 n j) = ix2 n (0 : Fin 1) := funext fun a => match a with | ⟨0, _⟩ => rfl | ⟨1, _⟩ => rfl
  rw [val_main_v79_apply, hi, v39_read]

theorem v103_read (n : Fin 50000) (j : Fin 64) : val_main_v103 (F := Ideal) x10 (ix2 n j) = dOf x10 n * dOf x10 n := by
  have hi : idx_main_v103 (ix2 n j) = ix2 n (0 : Fin 1) := funext fun a => match a with | ⟨0, _⟩ => rfl | ⟨1, _⟩ => rfl
  rw [val_main_v103_apply, hi, v39_read]

/-! ## A round's weight matrix and bias row: slice `l` of the stacked parameters -/

theorem v41_read (k j : Fin 64) : val_main_v41 (F := Ideal) x6 (ix2 k j) = cwOf x6 0 k j := by
  rw [val_main_v41_apply, val_main_v40_apply]
  have hk := k.isLt
  have hj := j.isLt
  refine congrArg x6 (funext fun a => ?_)
  match a with
  | ⟨0, _⟩ => rfl
  | ⟨1, _⟩ => exact Fin.ext (by show (k.val * 64 + j.val) / 64 % 64 = k.val; omega)
  | ⟨2, _⟩ => exact Fin.ext (by show (k.val * 64 + j.val) % 64 = j.val; omega)

theorem v65_read (k j : Fin 64) : val_main_v65 (F := Ideal) x6 (ix2 k j) = cwOf x6 1 k j := by
  rw [val_main_v65_apply, val_main_v64_apply]
  have hk := k.isLt
  have hj := j.isLt
  refine congrArg x6 (funext fun a => ?_)
  match a with
  | ⟨0, _⟩ => rfl
  | ⟨1, _⟩ => exact Fin.ext (by show (k.val * 64 + j.val) / 64 % 64 = k.val; omega)
  | ⟨2, _⟩ => exact Fin.ext (by show (k.val * 64 + j.val) % 64 = j.val; omega)

theorem v89_read (k j : Fin 64) : val_main_v89 (F := Ideal) x6 (ix2 k j) = cwOf x6 2 k j := by
  rw [val_main_v89_apply, val_main_v88_apply]
  have hk := k.isLt
  have hj := j.isLt
  refine congrArg x6 (funext fun a => ?_)
  match a with
  | ⟨0, _⟩ => rfl
  | ⟨1, _⟩ => exact Fin.ext (by show (k.val * 64 + j.val) / 64 % 64 = k.val; omega)
  | ⟨2, _⟩ => exact Fin.ext (by show (k.val * 64 + j.val) % 64 = j.val; omega)

theorem v61_read (n : Fin 50000) (j : Fin 64) : val_main_v61 (F := Ideal) x7 (ix2 n j) = cbOf x7 0 j := by
  rw [val_main_v61_apply, val_main_v60_apply, val_main_v59_apply, val_main_v58_apply]
  refine congrArg x7 (funext fun a => ?_)
  match a with
  | ⟨0, _⟩ => rfl
  | ⟨1, _⟩ => exact Fin.ext (Nat.mod_eq_of_lt j.isLt)

theorem v85_read (n : Fin 50000) (j : Fin 64) : val_main_v85 (F := Ideal) x7 (ix2 n j) = cbOf x7 1 j := by
  rw [val_main_v85_apply, val_main_v84_apply, val_main_v83_apply, val_main_v82_apply]
  refine congrArg x7 (funext fun a => ?_)
  match a with
  | ⟨0, _⟩ => rfl
  | ⟨1, _⟩ => exact Fin.ext (Nat.mod_eq_of_lt j.isLt)

theorem v109_read (n : Fin 50000) (j : Fin 64) : val_main_v109 (F := Ideal) x7 (ix2 n j) = cbOf x7 2 j := by
  rw [val_main_v109_apply, val_main_v108_apply, val_main_v107_apply, val_main_v106_apply]
  refine congrArg x7 (funext fun a => ?_)
  match a with
  | ⟨0, _⟩ => rfl
  | ⟨1, _⟩ => exact Fin.ext (Nat.mod_eq_of_lt j.isLt)

/-! ## The zero arrays -/

theorem v52_zero (n : Fin 50000) (j : Fin 64) : val_main_v52 (F := Ideal) (ix2 n j) = 0 := by
  rw [val_main_v52_apply, val_main_cst_7_apply]
  exact Ideal.ofBits_zero_f32

theorem v76_zero (n : Fin 50000) (j : Fin 64) : val_main_v76 (F := Ideal) (ix2 n j) = 0 := by
  rw [val_main_v76_apply, val_main_cst_10_apply]
  exact Ideal.ofBits_zero_f32

theorem v100_zero (n : Fin 50000) (j : Fin 64) : val_main_v100 (F := Ideal) (ix2 n j) = 0 := by
  rw [val_main_v100_apply, val_main_cst_13_apply]
  exact Ideal.ofBits_zero_f32

theorem call2_zero (n : Fin 50000) (j : Fin 64) : val_main_call2_v0 (F := Ideal) (ix2 n j) = 0 := by
  rw [val_main_call2_v0_apply, val_main_call2_cst_apply]
  exact Ideal.ofBits_zero_f32

theorem call3_zero (n : Fin 50000) (j : Fin 64) : val_main_call3_v0 (F := Ideal) (ix2 n j) = 0 := by
  rw [val_main_call3_v0_apply, val_main_call3_cst_apply]
  exact Ideal.ofBits_zero_f32

theorem call4_zero (n : Fin 50000) (j : Fin 64) : val_main_call4_v0 (F := Ideal) (ix2 n j) = 0 := by
  rw [val_main_call4_v0_apply, val_main_call4_cst_apply]
  exact Ideal.ofBits_zero_f32

/-! ## The features before the first round -/

theorem v4_read (n : Fin 20000) (j : Fin 64) : val_main_v4 (F := Ideal) x0 x2 x3 (ix2 n j) = hiddenAt x0 x2 x3 n j := by
  have hl : ∀ k : Fin 128, lidx_main_v0 (ix2 n j) k = ix2 n k := fun k => funext fun a => match a with | ⟨0, _⟩ => rfl | ⟨1, _⟩ => rfl
  have hr : ∀ k : Fin 128, ridx_main_v0 (ix2 n j) k = ix2 k j := fun k => funext fun a => match a with | ⟨0, _⟩ => rfl | ⟨1, _⟩ => rfl
  have hb : idx_main_v1 (idx_main_v2 (ix2 n j)) = ix1 j := funext fun a => match a with | ⟨0, _⟩ => rfl
  rw [val_main_v4_apply, val_main_v3_apply, val_main_v0_apply, val_main_v2_apply, val_main_v1_apply, hb,
    val_main_call0_v0_apply, val_main_call0_cst_apply]
  simp only [hl, hr]
  rw [Ideal.maximumf_def, Ideal.addf_def, Ideal.ofBits_def, Ideal.ofBits_zero_f32]
  rfl

theorem v9_read (n : Fin 30000) (j : Fin 64) : val_main_v9 (F := Ideal) x1 x4 x5 (ix2 n j) = hiddenAt x1 x4 x5 n j := by
  have hl : ∀ k : Fin 256, lidx_main_v5 (ix2 n j) k = ix2 n k := fun k => funext fun a => match a with | ⟨0, _⟩ => rfl | ⟨1, _⟩ => rfl
  have hr : ∀ k : Fin 256, ridx_main_v5 (ix2 n j) k = ix2 k j := fun k => funext fun a => match a with | ⟨0, _⟩ => rfl | ⟨1, _⟩ => rfl
  have hb : idx_main_v6 (idx_main_v7 (ix2 n j)) = ix1 j := funext fun a => match a with | ⟨0, _⟩ => rfl
  rw [val_main_v9_apply, val_main_v8_apply, val_main_v5_apply, val_main_v7_apply, val_main_v6_apply, hb,
    val_main_call1_v0_apply, val_main_call1_cst_apply]
  simp only [hl, hr]
  rw [Ideal.maximumf_def, Ideal.addf_def, Ideal.ofBits_def, Ideal.ofBits_zero_f32]
  rfl

theorem v10_read (n : Fin 50000) (j : Fin 64) :
    val_main_v10 (F := Ideal) x0 x1 x2 x3 x4 x5 (ix2 n j) = x0Of x0 x2 x3 x1 x4 x5 n j := by
  unfold val_main_v10 x0Of
  by_cases h : n.val < 20000
  · rw [dif_pos h, ← v4_read]
    exact concatenate_pair_apply_left (t := S50000x64) (s₁ := S20000x64) (s₂ := S30000x64) (0 : Fin 2)
      (val_main_v4 (F := Ideal) x0 x2 x3) (val_main_v9 (F := Ideal) x1 x4 x5)
      Facts₀.concatenates_S20000x64_S30000x64_S50000x64_d0 (ix2 n j) rfl (ix2 (⟨n.val, h⟩ : Fin 20000) j)
      (fun b => match b with | ⟨0, _⟩ => rfl | ⟨1, _⟩ => rfl)
  · rw [dif_neg h, ← v9_read]
    have hn := n.isLt
    exact concatenate_pair_apply_right (t := S50000x64) (s₁ := S20000x64) (s₂ := S30000x64) (0 : Fin 2)
      (val_main_v4 (F := Ideal) x0 x2 x3) (val_main_v9 (F := Ideal) x1 x4 x5)
      Facts₀.concatenates_S20000x64_S30000x64_S50000x64_d0 (ix2 n j) rfl rfl (ix2 (⟨n.val - 20000, by omega⟩ : Fin 30000) j)
      (fun b => match b with | ⟨0, _⟩ => fun hne => absurd rfl hne | ⟨1, _⟩ => fun _ => rfl)
      (by show n.val - 20000 + 20000 = n.val; omega)

/-! ## One round, over arrays given by their coordinate readings -/

theorem layer_read
    (XW Z Z' SN B : FVec Ideal S50000x64 .f32) (EN : FVec Ideal S1600000x64 .f32) (si gi : IVec S1600000x1 32)
    (key : Fin 1600000 → ℤ) (srow : Fin 1600000 → Fin 50000)
    (xw : Fin 50000 → Fin 64 → EReal) (en : Fin 1600000 → EReal) (sn : Fin 50000 → EReal) (b : Fin 64 → EReal)
    (hXW : ∀ n j, XW (ix2 n j) = xw n j) (hZ : ∀ n j, Z (ix2 n j) = 0) (hZ' : ∀ n j, Z' (ix2 n j) = 0)
    (hSN : ∀ n j, SN (ix2 n j) = sn n) (hB : ∀ n j, B (ix2 n j) = b j) (hEN : ∀ e j, EN (ix2 e j) = en e)
    (hsi : ∀ e, (si (ix2 e (0 : Fin 1))).toInt = key e)
    (hgi : ∀ e, (srow e).val = min (gi (ix2 e (0 : Fin 1))).toInt.toNat (50000 - 1))
    (n : Fin 50000) (j : Fin 64) :
    maximumf (addf (addf (Host.scatterAdd scatter_S50000x64_S1600000x1_S1600000x64_1_0_0_1 Z si
        (mulf (Host.gather gather_S50000x64_S1600000x1_S1600000x64_1_0_n_n_0_1_164 XW gi) EN)) (mulf XW SN)) B) Z' (ix2 n j)
      = max (segSum key (fun e => xw (srow e) j * en e) n + xw n j * sn n + b j) 0 := by
  rw [maximumf_apply, addf_apply, addf_apply, mulf_apply,
    Cert.LibScatterAdd.scatterAdd_rows_apply scatter_S50000x64_S1600000x1_S1600000x64_1_0_0_1 rfl rfl rfl rfl,
    hXW, hSN, hB, hZ, hZ']
  unfold segSum
  refine congrArg (fun t => max (0 + t + xw n j * sn n + b j) 0) (Finset.sum_congr rfl fun e _ => ?_)
  rw [hsi, mulf_apply, gatherE_apply XW gi e j (srow e) (hgi e), hXW, hEN]

/-! ## The three rounds -/

theorem v42_read (n : Fin 50000) (j : Fin 64) :
    val_main_v42 (F := Ideal) x0 x1 x2 x3 x4 x5 x6 (ix2 n j) = mm (x0Of x0 x2 x3 x1 x4 x5) (cwOf x6 0) n j := by
  have hl : ∀ k : Fin 64, lidx_main_v42 (ix2 n j) k = ix2 n k := fun k => funext fun a => match a with | ⟨0, _⟩ => rfl | ⟨1, _⟩ => rfl
  have hr : ∀ k : Fin 64, ridx_main_v42 (ix2 n j) k = ix2 k j := fun k => funext fun a => match a with | ⟨0, _⟩ => rfl | ⟨1, _⟩ => rfl
  rw [val_main_v42_apply]
  unfold mm
  refine Finset.sum_congr rfl fun k _ => ?_
  rw [hl, hr, v10_read, v41_read]

/-- Round 1 of the program is the model's round. -/
theorem v63_read (n : Fin 50000) (j : Fin 64) :
    val_main_v63 (F := Ideal) x0 x1 x2 x3 x4 x5 x6 x7 x10 (ix2 n j) = (rStep (keyOf x10) (srowOf x10) (drowOf x10) (dOf x10) (x0Of x0 x2 x3 x1 x4 x5) (cwOf x6 0) (cbOf x7 0)) n j := by
  unfold val_main_v63 val_main_v62 val_main_v57 val_main_v56 val_main_v54 val_main_v51 val_main_v49
  exact layer_read _ _ _ _ _ _ _ _ (keyOf x10) (srowOf x10) (mm (x0Of x0 x2 x3 x1 x4 x5) (cwOf x6 0))
    (fun e => dOf x10 (srowOf x10 e) * dOf x10 (drowOf x10 e)) (fun n => dOf x10 n * dOf x10 n) (cbOf x7 0)
    (v42_read x0 x1 x2 x3 x4 x5 x6) v52_zero call2_zero (v55_read x10) (v61_read x7) (v50_read x10)
    (fun e => by rw [v53_read]; rfl) (fun e => by rw [v48_read]; rfl) n j

theorem v66_read (n : Fin 50000) (j : Fin 64) :
    val_main_v66 (F := Ideal) x0 x1 x2 x3 x4 x5 x6 x7 x10 (ix2 n j) = mm (rStep (keyOf x10) (srowOf x10) (drowOf x10) (dOf x10) (x0Of x0 x2 x3 x1 x4 x5) (cwOf x6 0) (cbOf x7 0)) (cwOf x6 1) n j := by
  have hl : ∀ k : Fin 64, lidx_main_v66 (ix2 n j) k = ix2 n k := fun k => funext fun a => match a with | ⟨0, _⟩ => rfl | ⟨1, _⟩ => rfl
  have hr : ∀ k : Fin 64, ridx_main_v66 (ix2 n j) k = ix2 k j := fun k => funext fun a => match a with | ⟨0, _⟩ => rfl | ⟨1, _⟩ => rfl
  rw [val_main_v66_apply]
  unfold mm
  refine Finset.sum_congr rfl fun k _ => ?_
  rw [hl, hr, v63_read, v65_read]

/-- Round 2 of the program is the model's round. -/
theorem v87_read (n : Fin 50000) (j : Fin 64) :
    val_main_v87 (F := Ideal) x0 x1 x2 x3 x4 x5 x6 x7 x10 (ix2 n j) = (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) n j := by
  unfold val_main_v87 val_main_v86 val_main_v81 val_main_v80 val_main_v78 val_main_v75 val_main_v73
  exact layer_read _ _ _ _ _ _ _ _ (keyOf x10) (srowOf x10) (mm (rStep (keyOf x10) (srowOf x10) (drowOf x10) (dOf x10) (x0Of x0 x2 x3 x1 x4 x5) (cwOf x6 0) (cbOf x7 0)) (cwOf x6 1))
    (fun e => dOf x10 (srowOf x10 e) * dOf x10 (drowOf x10 e)) (fun n => dOf x10 n * dOf x10 n) (cbOf x7 1)
    (v66_read x0 x1 x2 x3 x4 x5 x6 x7 x10) v76_zero call3_zero (v79_read x10) (v85_read x7) (v74_read x10)
    (fun e => by rw [v77_read]; rfl) (fun e => by rw [v72_read]; rfl) n j

theorem v90_read (n : Fin 50000) (j : Fin 64) :
    val_main_v90 (F := Ideal) x0 x1 x2 x3 x4 x5 x6 x7 x10 (ix2 n j) = mm (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) n j := by
  have hl : ∀ k : Fin 64, lidx_main_v90 (ix2 n j) k = ix2 n k := fun k => funext fun a => match a with | ⟨0, _⟩ => rfl | ⟨1, _⟩ => rfl
  have hr : ∀ k : Fin 64, ridx_main_v90 (ix2 n j) k = ix2 k j := fun k => funext fun a => match a with | ⟨0, _⟩ => rfl | ⟨1, _⟩ => rfl
  rw [val_main_v90_apply]
  unfold mm
  refine Finset.sum_congr rfl fun k _ => ?_
  rw [hl, hr, v87_read, v89_read]

/-- Round 3 of the program is the model's round. -/
theorem v111_read (n : Fin 50000) (j : Fin 64) :
    val_main_v111 (F := Ideal) x0 x1 x2 x3 x4 x5 x6 x7 x10 (ix2 n j) = (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) n j := by
  unfold val_main_v111 val_main_v110 val_main_v105 val_main_v104 val_main_v102 val_main_v99 val_main_v97
  exact layer_read _ _ _ _ _ _ _ _ (keyOf x10) (srowOf x10) (mm (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2))
    (fun e => dOf x10 (srowOf x10 e) * dOf x10 (drowOf x10 e)) (fun n => dOf x10 n * dOf x10 n) (cbOf x7 2)
    (v90_read x0 x1 x2 x3 x4 x5 x6 x7 x10) v100_zero call4_zero (v103_read x10) (v109_read x7) (v98_read x10)
    (fun e => by rw [v101_read]; rfl) (fun e => by rw [v96_read]; rfl) n j

/-! ## The score of a labelled pair -/

theorem v118_read (i : Fin 200000) (k : Fin 64) :
    val_main_v118 (F := Ideal) x0 x1 x2 x3 x4 x5 x6 x7 x10 x11 (ix2 i k) = (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) (labelRow x11 i) k := by
  unfold val_main_v118
  rw [gatherL_apply _ _ i k (labelRow x11 i) (by rw [v117_read]; rfl), v111_read]

theorem v119_read (i : Fin 200000) :
    val_main_v119 (F := Ideal) x0 x1 x2 x3 x4 x5 x6 x7 x8 x10 x11 (ix2 i (0 : Fin 1)) = ∑ k : Fin 64, (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) (labelRow x11 i) k * lwOf x8 k := by
  have hl : ∀ k : Fin 64, lidx_main_v119 (ix2 i (0 : Fin 1)) k = ix2 i k := fun k => funext fun a => match a with | ⟨0, _⟩ => rfl | ⟨1, _⟩ => rfl
  have hr : ∀ k : Fin 64, ridx_main_v119 (ix2 i (0 : Fin 1)) k = ix2 k (0 : Fin 1) := fun k => funext fun a => match a with | ⟨0, _⟩ => rfl | ⟨1, _⟩ => rfl
  rw [val_main_v119_apply]
  refine Finset.sum_congr rfl fun k _ => ?_
  rw [hl, hr, v118_read]
  rfl

theorem v123_read (i : Fin 200000) :
    val_main_v123 (F := Ideal) x0 x1 x2 x3 x4 x5 x6 x7 x8 x9 x10 x11 (ix1 i) = ∑ k : Fin 64, (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) (labelRow x11 i) k * lwOf x8 k + lbOf x9 := by
  have hi : idx_main_v123 (ix1 i) = ix2 i (0 : Fin 1) := funext fun a => match a with | ⟨0, _⟩ => Fin.ext (Nat.div_one _) | ⟨1, _⟩ => rfl
  have hb : idx_main_v120 (idx_main_v121 (ix2 i (0 : Fin 1))) = ix1 (0 : Fin 1) := funext fun a => match a with | ⟨0, _⟩ => rfl
  rw [val_main_v123_apply, hi, val_main_v122_apply, v119_read, val_main_v121_apply, val_main_v120_apply, hb, Ideal.addf_def]
  rfl

theorem v130_read (i : Fin 200000) (k : Fin 64) :
    val_main_v130 (F := Ideal) x0 x1 x2 x3 x4 x5 x6 x7 x10 x12 (ix2 i k) = (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) (labelRow x12 i) k := by
  unfold val_main_v130
  rw [gatherL_apply _ _ i k (labelRow x12 i) (by rw [v129_read]; rfl), v111_read]

theorem v131_read (i : Fin 200000) :
    val_main_v131 (F := Ideal) x0 x1 x2 x3 x4 x5 x6 x7 x8 x10 x12 (ix2 i (0 : Fin 1)) = ∑ k : Fin 64, (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) (labelRow x12 i) k * lwOf x8 k := by
  have hl : ∀ k : Fin 64, lidx_main_v131 (ix2 i (0 : Fin 1)) k = ix2 i k := fun k => funext fun a => match a with | ⟨0, _⟩ => rfl | ⟨1, _⟩ => rfl
  have hr : ∀ k : Fin 64, ridx_main_v131 (ix2 i (0 : Fin 1)) k = ix2 k (0 : Fin 1) := fun k => funext fun a => match a with | ⟨0, _⟩ => rfl | ⟨1, _⟩ => rfl
  rw [val_main_v131_apply]
  refine Finset.sum_congr rfl fun k _ => ?_
  rw [hl, hr, v130_read]
  rfl

theorem v135_read (i : Fin 200000) :
    val_main_v135 (F := Ideal) x0 x1 x2 x3 x4 x5 x6 x7 x8 x9 x10 x12 (ix1 i) = ∑ k : Fin 64, (rStep (keyOf x10) (srowOf x10) (drowOf x10) (dOf x10) (rStep (keyOf x10) (srowOf x10) (drowOf x10) (dOf x10) (rStep (keyOf x10) (srowOf x10) (drowOf x10) (dOf x10) (x0Of x0 x2 x3 x1 x4 x5) (cwOf x6 0) (cbOf x7 0)) (cwOf x6 1) (cbOf x7 1)) (cwOf x6 2) (cbOf x7 2)) (labelRow x12 i) k * lwOf x8 k + lbOf x9 := by
  have hi : idx_main_v135 (ix1 i) = ix2 i (0 : Fin 1) := funext fun a => match a with | ⟨0, _⟩ => Fin.ext (Nat.div_one _) | ⟨1, _⟩ => rfl
  have hb : idx_main_v132 (idx_main_v133 (ix2 i (0 : Fin 1))) = ix1 (0 : Fin 1) := funext fun a => match a with | ⟨0, _⟩ => rfl
  rw [val_main_v135_apply, hi, val_main_v134_apply, v131_read, val_main_v133_apply, val_main_v132_apply, hb, Ideal.addf_def]
  rfl

/-- The program's result at a pair, over its thirteen argument arrays. -/
theorem v142_read (i : Fin 200000) :
    val_main_v142 (F := Ideal) x0 x1 x2 x3 x4 x5 x6 x7 x8 x9 x10 x11 x12 (ix1 i) = refOut x0 x2 x3 x1 x4 x5 x6 x7 x8 x9 x10 x11 x12 (ix1 i) := by
  unfold refOut rOut
  rw [val_main_v142_apply, val_main_v141_apply, val_main_cst_19_apply, val_main_v140_apply, val_main_v139_apply,
    val_main_cst_18_apply, val_main_v138_apply, val_main_v137_apply, val_main_v136_apply, v123_read, v135_read,
    Ideal.hostDivf_def, Ideal.addf_def, Ideal.hostUnary_exp_def, Ideal.hostNegf_def, Ideal.negf_def, Ideal.mulf_def,
    Ideal.ofBits_def, one_word]

/-- THE REFERENCE PROGRAM'S RESULT IS THE MODEL'S, of the launch contents of its thirteen arguments. -/
theorem ref_is_model (m : (ℓ : Loc nD τ sig) → Buf (Elt Ideal) ℓ) (c : Dev nD) :
    Cert.ReferenceIdeal.Value.res_main_v142 (F := Ideal) m c
      = Cert.Gcn.refOut (m ((c.tc : Thread nD τ).loc main_arg0)) (m ((c.tc : Thread nD τ).loc main_arg2)) (m ((c.tc : Thread nD τ).loc main_arg3)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [val_main_v142_eq]
  funext i
  obtain ⟨i0, rfl⟩ : ∃ i0 : Fin 200000, i = ix1 i0 := ⟨i 0, eq_ix1 i⟩
  exact v142_read _ _ _ _ _ _ _ _ _ _ _ _ _ i0

end Cert.ReferenceIdeal.RefValue

end
-- ==== Proof.ModelFacts.lean ====
/-
  Two facts about the parameters read off the edge list.

  The degree factor of a node is the inverse square root of one plus the number of edges delivered to it. That
  number is a finite sum of zeros and ones started from zero, so it is nonnegative, the argument of the inverse square
  root is positive, and the factor is nonnegative and below +∞.

  An edge delivers to node n when the signed value of its destination word is n. Then the word is not negative, so the
  normalisation of negative indices leaves it, its signed value n is below 50000, so the clamp to the last row leaves
  it: the row its destination index reads is n.
-/
import proofs.«133231_j73280732004420_2_alg».proof.Proof.Model
import proofs.«133231_j73280732004420_2_alg».proof.Proof.LibERealFactor

noncomputable section
open scoped BigOperators
open Idealize.ShloMosaic Idealize.ShloMosaic.ValueIdx

namespace Cert.Gcn

/-- The degree factor is nonnegative and finite. -/
theorem dOf_nonneg_fin (ei : IVec ⟨2, ![2, 1600000]⟩ 32) (n : Fin 50000) : 0 ≤ dOf ei n ∧ dOf ei n ≠ ⊤ := by
  unfold dOf
  refine Cert.LibERealFactor.rsqrt_nonneg_fin _ ?_
  have hsum : (0 : EReal) ≤ segSum (keyOf ei) (fun _ => (1 : EReal)) n := by
    unfold segSum
    rw [zero_add]
    refine Finset.sum_nonneg fun e _ => ?_
    by_cases hk : keyOf ei e = (n.val : ℤ)
    · rw [if_pos hk]; exact zero_le_one
    · rw [if_neg hk]
  calc (0 : EReal) < 1 := zero_lt_one
    _ = 0 + 1 := (zero_add 1).symm
    _ ≤ segSum (keyOf ei) (fun _ => (1 : EReal)) n + 1 := add_le_add hsum le_rfl

/-- An edge delivered to node n reads row n through its destination index. -/
theorem drow_of_key (ei : IVec ⟨2, ![2, 1600000]⟩ 32) (e : Fin 1600000) (n : Fin 50000)
    (h : keyOf ei e = (n.val : ℤ)) : drowOf ei e = n := by
  have hn : n.val < 50000 := n.isLt
  have hv : (ei (ix2 1 e)).toInt = (n.val : ℤ) := h
  -- the word is not negative
  have hs : (ei (ix2 1 e)).slt 0#32 = false := by
    cases hb : (ei (ix2 1 e)).slt 0#32 with
    | false => rfl
    | true =>
      exfalso
      rw [BitVec.slt_iff_toInt_lt, BitVec.toInt_zero, hv] at hb
      omega
  -- so the normalisation leaves it
  have hnorm : normWord (ei (ix2 1 e)) = ei (ix2 1 e) := by
    unfold normWord Scalar.select
    refine if_neg ?_
    show ¬ BitVec.ofBool ((ei (ix2 1 e)).slt 0#32) = 1
    rw [hs]
    decide
  unfold drowOf rowOf
  apply Fin.ext
  show min (normWord (ei (ix2 1 e))).toInt.toNat 49999 = n.val
  rw [hnorm, hv, Int.toNat_natCast]
  omega

end Cert.Gcn

end
-- ==== Proof.ModelEq.lean ====
/-
  The two ways of computing the result agree on every input: the degree column is nonnegative and finite, and an edge
  that delivers to a node reads that node's row through its destination word.
-/
import proofs.«133231_j73280732004420_2_alg».proof.Proof.ModelFacts

noncomputable section
open Idealize.ShloMosaic Idealize.ShloMosaic.ValueIdx

namespace Cert.Gcn

theorem kerOut_eq_refOut (xd : A2 20000 128) (wd : A2 128 64) (bd : A1 64) (xp : A2 30000 256) (wp : A2 256 64) (bp : A1 64)
    (cw : A3 3 64 64) (cb : A2 3 64) (lw : A2 64 1) (lb : A1 1) (ei : IVec ⟨2, ![2, 1600000]⟩ 32)
    (ls ld : IVec ⟨1, ![200000]⟩ 32) :
    kerOut xd wd bd xp wp bp cw cb lw lb ei ls ld = refOut xd wd bd xp wp bp cw cb lw lb ei ls ld := by
  funext i
  unfold kerOut refOut
  rw [out_eq (keyOf ei) (srowOf ei) (drowOf ei) (dOf ei) (dOf_nonneg_fin ei) (drow_of_key ei)]

end Cert.Gcn

end
-- ==== Proof.lean ====
/-
  The certificate of a three-round graph-convolution network with a link-scoring head.

  Both programs compute, for every labelled pair of nodes, the logistic function of the product of the two nodes'
  scores, a node's score being a linear function of its features after three rounds of degree-normalised message
  passing over the edges.  The reference multiplies every edge's message by `d(src)·d(dst)` and every node's own row
  by `d·d`, `d` the inverse square root of the node's degree; the kernel multiplies the rows by `d` once before they
  are gathered and summed over the edges (a host scatter-add) and once more, inside its combine kernels, after the sum,
  and it applies the linear head per node before the two gathers instead of after them.  At the exact instance the two
  are one function of the arguments: `d` is a nonnegative finite number, so it distributes over the finite sums of
  extended reals whatever the summands; a gather commutes with a row-wise map; a matrix product row by row is the
  product taken block by block; and the logistic function is `1 / (1 + exp (-x))`.  No precondition is used.

  The three frames are the generated ones (the reference's is its run with the result dropped); the idealization
  rewrote nothing, so `preserves` is trivial.
-/
import proofs.«133231_j73280732004420_2_alg».proof.Defs
import proofs.«133231_j73280732004420_2_alg».proof.Proof.Gen.Kernel
import proofs.«133231_j73280732004420_2_alg».proof.Proof.Gen.Kernel.Skeleton
import proofs.«133231_j73280732004420_2_alg».proof.Proof.Gen.Kernel.Launch
import proofs.«133231_j73280732004420_2_alg».proof.Proof.Gen.Kernel.Points
import proofs.«133231_j73280732004420_2_alg».proof.Proof.Gen.Kernel.Frame
import proofs.«133231_j73280732004420_2_alg».proof.Proof.Gen.KernelIdeal
import proofs.«133231_j73280732004420_2_alg».proof.Proof.Gen.KernelIdeal.Skeleton
import proofs.«133231_j73280732004420_2_alg».proof.Proof.Gen.KernelIdeal.Launch
import proofs.«133231_j73280732004420_2_alg».proof.Proof.Gen.KernelIdeal.Points
import proofs.«133231_j73280732004420_2_alg».proof.Proof.Gen.KernelIdeal.Frame
import proofs.«133231_j73280732004420_2_alg».proof.Proof.Gen.ReferenceIdeal
import proofs.«133231_j73280732004420_2_alg».proof.Proof.Gen.Pre_finite_inputs
import proofs.«133231_j73280732004420_2_alg».proof.Proof.Gen.ReferenceIdeal.Run
import proofs.«133231_j73280732004420_2_alg».proof.Proof.Gen.ReferenceIdeal.Read
import proofs.«133231_j73280732004420_2_alg».proof.Proof.KernelRun
import proofs.«133231_j73280732004420_2_alg».proof.Proof.Chain
import proofs.«133231_j73280732004420_2_alg».proof.Proof.RefRead
import proofs.«133231_j73280732004420_2_alg».proof.Proof.ModelEq
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the second way's function of the arguments: the kernel's through the first way
    (its boundaries read back) and the agreement of the two ways, the reference's directly. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunValue.run_values (F := Ideal) m ρ)
    exact (Cert.KernelIdeal.Chain.result_eq m ρ c).trans (Cert.Gcn.kerOut_eq_refOut _ _ _ _ _ _ _ _ _ _ _ _ _)
  · refine (θ_run Cert.ReferenceIdeal.defs _ _).mono (fun r h c => ⟨(h c).1.trans ?_, (h c).2⟩)
      (Cert.ReferenceIdeal.Value.run (F := Ideal) m' ρ')
    refine (Cert.ReferenceIdeal.RefValue.ref_is_model m' c).trans ?_
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
